-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x512 : Shape := ⟨4, ![4, 64, 256, 512]⟩
abbrev S6 : Shape := ⟨1, ![6]⟩
abbrev S64x9 : Shape := ⟨2, ![64, 9]⟩
abbrev S9 : Shape := ⟨1, ![9]⟩
abbrev S4 : Shape := ⟨1, ![4]⟩
abbrev S9x64 : Shape := ⟨2, ![9, 64]⟩
abbrev S64 : Shape := ⟨1, ![64]⟩
abbrev S64x4 : Shape := ⟨2, ![64, 4]⟩
abbrev S4x512 : Shape := ⟨2, ![4, 512]⟩
abbrev S_ : Shape := ⟨0, ![]⟩

class Facts : Prop where
  bcast_S_S4x64x256x512 : S_.BroadcastsInDim S4x64x256x512 (![] : Fin 0 → Fin S4x64x256x512.rank)
  reducesTo_S4x64x256x512_S_d0_1_2_3 : S4x64x256x512.ReducesTo [0, 1, 2, 3] S_
  h_S_ : 0 < S_.numel
  bcast_S_S6 : S_.BroadcastsInDim S6 (![] : Fin 0 → Fin S6.rank)
  reducesTo_S6_S_d0 : S6.ReducesTo [0] S_
  bcast_S_S64x9 : S_.BroadcastsInDim S64x9 (![] : Fin 0 → Fin S64x9.rank)
  reducesTo_S64x9_S_d0_1 : S64x9.ReducesTo [0, 1] S_
  bcast_S_S9 : S_.BroadcastsInDim S9 (![] : Fin 0 → Fin S9.rank)
  reducesTo_S9_S_d0 : S9.ReducesTo [0] S_
  bcast_S_S4 : S_.BroadcastsInDim S4 (![] : Fin 0 → Fin S4.rank)
  reducesTo_S4_S_d0 : S4.ReducesTo [0] S_
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x4 : S_.BroadcastsInDim S64x4 (![] : Fin 0 → Fin S64x4.rank)
  reducesTo_S64x4_S_d0_1 : S64x4.ReducesTo [0, 1] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg7 : FVec F S9x64 .f32) (main_arg8 : FVec F S64 .f32) (main_arg9 : FVec F S64x4 .f32) (main_arg10 : FVec F S4 .f32) (main_v33 : IVec S_ 1) : IVec S_ 1 :=
  let main_v34 : FVec F S9x64 .f32 := Host.absf main_arg7
  let main_cst_12 : FVec F S_ .f32 := constant S_ .f32 0x7F800000#32
  let main_v35 : FVec F S9x64 .f32 := broadcastInDim S9x64 ![] bcast_S_S9x64 main_cst_12
  let main_v36 : IVec S9x64 1 := cmpf .olt main_v34 main_v35
  let main_c_13 : IVec S_ 1 := constantI S_ 1 1#1
  let main_v37 : IVec S_ 1 := (fun x v => Host.reduce IntOp.andi x v reducesTo_S9x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x4 .f32 := Host.absf main_arg9
  let main_cst_16 : FVec F S_ .f32 := constant S_ .f32 0x7F800000#32
  let main_v45 : FVec F S64x4 .f32 := broadcastInDim S64x4 ![] bcast_S_S64x4 main_cst_16
  let main_v46 : IVec S64x4 1 := cmpf .olt main_v44 main_v45
  let main_c_17 : IVec S_ 1 := constantI S_ 1 1#1
  let main_v47 : IVec S_ 1 := (fun x v => Host.reduce IntOp.andi x v reducesTo_S64x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg4 : FVec F S9 .f32) (main_arg5 : FVec F S4 .f32) (main_arg6 : FVec F S4 .f32) (main_arg7 : FVec F S9x64 .f32) (main_arg8 : FVec F S64 .f32) (main_arg9 : FVec F S64x4 .f32) (main_arg10 : FVec F S4 .f32) (main_v13 : IVec S_ 1) (main_v16 : IVec S9 1) : IVec S_ 1 :=
  let main_c_5 : IVec S_ 1 := constantI S_ 1 1#1
  let main_v17 : IVec S_ 1 := (fun x v => Host.reduce IntOp.andi x v reducesTo_S9_S_d0 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x64x256x512 .f32) (main_arg1 : FVec F S6 .f32) (main_arg2 : FVec F S64x9 .f32) (main_arg3 : FVec F S9 .f32) (main_arg4 : FVec F S9 .f32) (main_arg5 : FVec F S4 .f32) (main_arg6 : FVec F S4 .f32) (main_arg7 : FVec F S9x64 .f32) (main_arg8 : FVec F S64 .f32) (main_arg9 : FVec F S64x4 .f32) (main_arg10 : FVec F S4 .f32) (main_arg11 : IVec S4x512 32) : IVec S_ 1 :=
  let main_v0 : FVec F S4x64x256x512 .f32 := Host.absf main_arg0
  let main_cst : FVec F S_ .f32 := constant S_ .f32 0x7F800000#32
  let main_v1 : FVec F S4x64x256x512 .f32 := broadcastInDim S4x64x256x512 ![] bcast_S_S4x64x256x512 main_cst
  let main_v2 : IVec S4x64x256x512 1 := cmpf .olt main_v0 main_v1
  let main_c : IVec S_ 1 := constantI S_ 1 1#1
  let main_v3 : IVec S_ 1 := (fun x v => Host.reduce IntOp.andi x v reducesTo_S4x64x256x512_S_d0_1_2_3 h_S_) main_v2 main_c
  let main_v4 : FVec F S6 .f32 := Host.absf main_arg1
  let main_cst_0 : FVec F S_ .f32 := constant S_ .f32 0x7F800000#32
  let main_v5 : FVec F S6 .f32 := broadcastInDim S6 ![] bcast_S_S6 main_cst_0
  let main_v6 : IVec S6 1 := cmpf .olt main_v4 main_v5
  let main_c_1 : IVec S_ 1 := constantI S_ 1 1#1
  let main_v7 : IVec S_ 1 := (fun x v => Host.reduce IntOp.andi x v reducesTo_S6_S_d0 h_S_) main_v6 main_c_1
  let main_v8 : IVec S_ 1 := andi main_v3 main_v7
  let main_v9 : FVec F S64x9 .f32 := Host.absf main_arg2
  let main_cst_2 : FVec F S_ .f32 := constant S_ .f32 0x7F800000#32
  let main_v10 : FVec F S64x9 .f32 := broadcastInDim S64x9 ![] bcast_S_S64x9 main_cst_2
  let main_v11 : IVec S64x9 1 := cmpf .olt main_v9 main_v10
  let main_c_3 : IVec S_ 1 := constantI S_ 1 1#1
  let main_v12 : IVec S_ 1 := (fun x v => Host.reduce IntOp.andi x v reducesTo_S64x9_S_d0_1 h_S_) main_v11 main_c_3
  let main_v13 : IVec S_ 1 := andi main_v8 main_v12
  let main_v14 : FVec F S9 .f32 := Host.absf main_arg3
  let main_cst_4 : FVec F S_ .f32 := constant S_ .f32 0x7F800000#32
  let main_v15 : FVec F S9 .f32 := broadcastInDim S9 ![] bcast_S_S9 main_cst_4
  let main_v16 : IVec S9 1 := cmpf .olt main_v14 main_v15
  fn_part1 (F := F) main_arg4 main_arg5 main_arg6 main_arg7 main_arg8 main_arg9 main_arg10 main_v13 main_v16
-- ==== Kernel.lean ====
abbrev S4x64x256x512 : Shape := ⟨4, ![4, 64, 256, 512]⟩
abbrev S6 : Shape := ⟨1, ![6]⟩
abbrev S64x9 : Shape := ⟨2, ![64, 9]⟩
abbrev S9 : Shape := ⟨1, ![9]⟩
abbrev S4 : Shape := ⟨1, ![4]⟩
abbrev S9x64 : Shape := ⟨2, ![9, 64]⟩
abbrev S64 : Shape := ⟨1, ![64]⟩
abbrev S64x4 : Shape := ⟨2, ![64, 4]⟩
abbrev S4x512 : Shape := ⟨2, ![4, 512]⟩
abbrev S12x4 : Shape := ⟨2, ![12, 4]⟩
abbrev S_ : Shape := ⟨0, ![]⟩
abbrev S3 : Shape := ⟨1, ![3]⟩
abbrev S1x9 : Shape := ⟨2, ![1, 9]⟩
abbrev S64x1 : Shape := ⟨2, ![64, 1]⟩
abbrev S64x64 : Shape := ⟨2, ![64, 64]⟩
abbrev S1x64 : Shape := ⟨2, ![1, 64]⟩
abbrev S1x4 : Shape := ⟨2, ![1, 4]⟩
abbrev S4x512x1 : Shape := ⟨3, ![4, 512, 1]⟩
abbrev S4x512x4 : Shape := ⟨3, ![4, 512, 4]⟩
abbrev S4x4x512 : Shape := ⟨3, ![4, 4, 512]⟩
abbrev S1x64x4x1 : Shape := ⟨4, ![1, 64, 4, 1]⟩
abbrev S4x1x4x512 : Shape := ⟨4, ![4, 1, 4, 512]⟩
abbrev S4x1x1x512 : Shape := ⟨4, ![4, 1, 1, 512]⟩
abbrev S4x64x4x512 : Shape := ⟨4, ![4, 64, 4, 512]⟩
abbrev S256x4x512 : Shape := ⟨3, ![256, 4, 512]⟩
abbrev S256x256x512 : Shape := ⟨3, ![256, 256, 512]⟩
abbrev S8x256x512 : Shape := ⟨3, ![8, 256, 512]⟩
abbrev S8x4x512 : Shape := ⟨3, ![8, 4, 512]⟩
abbrev S8x1x512 : Shape := ⟨3, ![8, 1, 512]⟩

abbrev nBuf : Space → Nat
  | .hbm => 142
  | .vmem => 6
  | .smem => 0
  | _ => 0

abbrev hbmTy0_0 (i : Nat) : BufTy := match i % 128 with
  | 0 => ⟨S4x64x256x512, .f32⟩
  | 1 => ⟨S6, .f32⟩
  | 2 => ⟨S64x9, .f32⟩
  | 3 => ⟨S9, .f32⟩
  | 4 => ⟨S9, .f32⟩
  | 5 => ⟨S4, .f32⟩
  | 6 => ⟨S4, .f32⟩
  | 7 => ⟨S9x64, .f32⟩
  | 8 => ⟨S64, .f32⟩
  | 9 => ⟨S64x4, .f32⟩
  | 10 => ⟨S4, .f32⟩
  | 11 => ⟨S4x512, .i32⟩
  | 12 => ⟨S12x4, .f32⟩
  | 13 => ⟨S6, .f32⟩
  | 14 => ⟨S6, .f32⟩
  | 15 => ⟨S_, .f32⟩
  | 16 => ⟨S6, .f32⟩
  | 17 => ⟨S6, .f32⟩
  | 18 => ⟨S_, .f32⟩
  | 19 => ⟨S6, .f32⟩
  | 20 => ⟨S6, .f32⟩
  | 21 => ⟨S_, .f32⟩
  | 22 => ⟨S3, .f32⟩
  | 23 => ⟨S9, .f32⟩
  | 24 => ⟨S9, .f32⟩
  | 25 => ⟨S9, .f32⟩
  | 26 => ⟨S9, .f32⟩
  | 27 => ⟨S_, .f32⟩
  | 28 => ⟨S64x9, .f32⟩
  | 29 => ⟨S64x9, .f32⟩
  | 30 => ⟨S_, .f32⟩
  | 31 => ⟨S64x9, .f32⟩
  | 32 => ⟨S64x9, .f32⟩
  | 33 => ⟨S_, .f32⟩
  | 34 => ⟨S64x9, .f32⟩
  | 35 => ⟨S64x9, .f32⟩
  | 36 => ⟨S_, .f32⟩
  | 37 => ⟨S64x9, .f32⟩
  | 38 => ⟨S64x9, .f32⟩
  | 39 => ⟨S1x9, .f32⟩
  | 40 => ⟨S64x9, .f32⟩
  | 41 => ⟨S64x9, .f32⟩
  | 42 => ⟨S64x1, .f32⟩
  | 43 => ⟨S64, .f32⟩
  | 44 => ⟨S64x1, .f32⟩
  | 45 => ⟨S64, .f32⟩
  | 46 => ⟨S64x1, .f32⟩
  | 47 => ⟨S64, .f32⟩
  | 48 => ⟨S64x1, .f32⟩
  | 49 => ⟨S64, .f32⟩
  | 50 => ⟨S64x1, .f32⟩
  | 51 => ⟨S64, .f32⟩
  | 52 => ⟨S64x1, .f32⟩
  | 53 => ⟨S64, .f32⟩
  | 54 => ⟨S64x1, .f32⟩
  | 55 => ⟨S64, .f32⟩
  | 56 => ⟨S64x1, .f32⟩
  | 57 => ⟨S64, .f32⟩
  | 58 => ⟨S64, .f32⟩
  | 59 => ⟨S64x1, .f32⟩
  | 60 => ⟨S64, .f32⟩
  | 61 => ⟨S64x1, .f32⟩
  | 62 => ⟨S64, .f32⟩
  | 63 => ⟨S64, .f32⟩
  | 64 => ⟨S64x1, .f32⟩
  | 65 => ⟨S64, .f32⟩
  | 66 => ⟨S64x1, .f32⟩
  | 67 => ⟨S64, .f32⟩
  | 68 => ⟨S64, .f32⟩
  | 69 => ⟨S64x1, .f32⟩
  | 70 => ⟨S64x1, .f32⟩
  | 71 => ⟨S64x1, .f32⟩
  | 72 => ⟨S64x1, .f32⟩
  | 73 => ⟨S64x1, .f32⟩
  | 74 => ⟨S64x1, .f32⟩
  | 75 => ⟨S64x1, .f32⟩
  | 76 => ⟨S64x1, .f32⟩
  | 77 => ⟨S64x1, .f32⟩
  | 78 => ⟨S64x9, .f32⟩
  | 79 => ⟨S1x9, .f32⟩
  | 80 => ⟨S64x9, .f32⟩
  | 81 => ⟨S64x9, .f32⟩
  | 82 => ⟨S9, .f32⟩
  | 83 => ⟨S1x9, .f32⟩
  | 84 => ⟨S64x9, .f32⟩
  | 85 => ⟨S64x9, .f32⟩
  | 86 => ⟨S64x64, .f32⟩
  | 87 => ⟨S1x64, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x4, .f32⟩
  | 94 => ⟨S1x4, .f32⟩
  | 95 => ⟨S64x4, .f32⟩
  | 96 => ⟨S64x4, .f32⟩
  | 97 => ⟨S64x4, .f32⟩
  | 98 => ⟨S64x4, .f32⟩
  | 99 => ⟨S_, .f32⟩
  | 100 => ⟨S64x4, .f32⟩
  | 101 => ⟨S64x4, .f32⟩
  | 102 => ⟨S_, .f32⟩
  | 103 => ⟨S64x4, .f32⟩
  | 104 => ⟨S64x4, .f32⟩
  | 105 => ⟨S4, .f32⟩
  | 106 => ⟨S1x4, .f32⟩
  | 107 => ⟨S64x4, .f32⟩
  | 108 => ⟨S64x4, .f32⟩
  | 109 => ⟨S1x4, .f32⟩
  | 110 => ⟨S64x4, .f32⟩
  | 111 => ⟨S64x4, .f32⟩
  | 112 => ⟨S_, .i32⟩
  | 113 => ⟨S4x512, .i32⟩
  | 114 => ⟨S4x512, .i32⟩
  | 115 => ⟨S_, .i32⟩
  | 116 => ⟨S4x512, .i32⟩
  | 117 => ⟨S4x512, .i32⟩
  | 118 => ⟨S_, .i32⟩
  | 119 => ⟨S4x512, .i32⟩
  | 120 => ⟨S4x512, .i1⟩
  | 121 => ⟨S_, .i32⟩
  | 122 => ⟨S4x512, .i32⟩
  | 123 => ⟨S4x512, .i32⟩
  | 124 => ⟨S4x512, .i32⟩
  | 125 => ⟨S4x512x1, .i32⟩
  | 126 => ⟨S4x512x4, .f32⟩
  | 127 => ⟨S4x4x512, .f32⟩
  | _ => ⟨S4x64x256x512, .f32⟩

abbrev hbmTy0_1 (i : Nat) : BufTy := match i % 128 with
  | 0 => ⟨S_, .i32⟩
  | 1 => ⟨S4x512, .i32⟩
  | 2 => ⟨S4x512, .i1⟩
  | 3 => ⟨S1x64x4x1, .f32⟩
  | 4 => ⟨S4x1x4x512, .f32⟩
  | 5 => ⟨S4x1x1x512, .i1⟩
  | 6 => ⟨S4x64x4x512, .i1⟩
  | 7 => ⟨S4x64x4x512, .f32⟩
  | 8 => ⟨S4x64x4x512, .f32⟩
  | 9 => ⟨S4x64x4x512, .f32⟩
  | 10 => ⟨S256x4x512, .f32⟩
  | 11 => ⟨S256x256x512, .f32⟩
  | 12 => ⟨S256x256x512, .f32⟩
  | 13 => ⟨S4x64x256x512, .f32⟩
  | _ => ⟨S4x64x256x512, .f32⟩

abbrev hbmTy (i : Nat) : BufTy := match i / 128 with
  | 0 => hbmTy0_0 i
  | 1 => hbmTy0_1 i
  | _ => ⟨S4x64x256x512, .f32⟩

abbrev bufTy : (tb : Table) → Fin (tcTables nBuf tb) → BufTy
  | .hbm, ⟨i, _⟩ => hbmTy i
  | .local _ .vmem, ⟨0, _⟩ => ⟨S8x256x512, .f32⟩
  | .local _ .vmem, ⟨1, _⟩ => ⟨S8x256x512, .f32⟩
  | .local _ .vmem, ⟨2, _⟩ => ⟨S8x4x512, .f32⟩
  | .local _ .vmem, ⟨3, _⟩ => ⟨S8x4x512, .f32⟩
  | .local _ .vmem, ⟨4, _⟩ => ⟨S8x256x512, .f32⟩
  | .local _ .vmem, ⟨5, _⟩ => ⟨S8x256x512, .f32⟩
  | _, _ => ⟨S4x64x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_call0_cst : Ref sig .tc := ⟨.hbm, 90, rfl⟩
abbrev main_call0_v0 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_7 : Ref sig .tc := ⟨.hbm, 99, rfl⟩
abbrev main_v77 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c : Ref sig .tc := ⟨.hbm, 112, rfl⟩
abbrev main_v88 : Ref sig .tc := ⟨.hbm, 113, rfl⟩
abbrev main_v89 : Ref sig .tc := ⟨.hbm, 114, rfl⟩
abbrev main_c_9 : Ref sig .tc := ⟨.hbm, 115, rfl⟩
abbrev main_v90 : Ref sig .tc := ⟨.hbm, 116, rfl⟩
abbrev main_v91 : Ref sig .tc := ⟨.hbm, 117, rfl⟩
abbrev main_c_10 : Ref sig .tc := ⟨.hbm, 118, rfl⟩
abbrev main_v92 : Ref sig .tc := ⟨.hbm, 119, rfl⟩
abbrev main_v93 : Ref sig .tc := ⟨.hbm, 120, rfl⟩
abbrev main_c_11 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_12 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S6 : S_.BroadcastsInDim S6 (![] : Fin 0 → Fin S6.rank)
  bcast_S_S3 : S_.BroadcastsInDim S3 (![] : Fin 0 → Fin S3.rank)
  concatenates_S6_S3_S9_d0 : Shape.Concatenates [S6, S3] S9 0
  bcast_S_S64x9 : S_.BroadcastsInDim S64x9 (![] : Fin 0 → Fin S64x9.rank)
  bcast_S9_S1x9_1 : S9.BroadcastsInDim S1x9 (![1] : Fin 1 → Fin S1x9.rank)
  bcast_S1x9_S64x9_0_1 : S1x9.BroadcastsInDim S64x9 (![0, 1] : Fin 2 → Fin S64x9.rank)
  slices_S64x9_S64x1_0_0 : S64x9.Slices ![0, 0] S64x1
  shapeCasts_S64x1_S64 : S64x1.ShapeCasts S64
  slices_S64x9_S64x1_0_1 : S64x9.Slices ![0, 1] S64x1
  slices_S64x9_S64x1_0_2 : S64x9.Slices ![0, 2] S64x1
  slices_S64x9_S64x1_0_3 : S64x9.Slices ![0, 3] S64x1
  slices_S64x9_S64x1_0_4 : S64x9.Slices ![0, 4] S64x1
  slices_S64x9_S64x1_0_5 : S64x9.Slices ![0, 5] S64x1
  bcast_S64_S64x1_0 : S64.BroadcastsInDim S64x1 (![0] : Fin 1 → Fin S64x1.rank)
  concatenates_S64x1_S64x1_S64x1_S64x1_S64x1_S64x1_S64x1_S64x1_S64x1_S64x9_d1 : Shape.Concatenates [S64x1, S64x1, S64x1, S64x1, S64x1, S64x1, S64x1, S64x1, S64x1] S64x9 1
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  transposes_S4x512x4_S4x4x512_0_2_1 : S4x512x4.Transposes [0, 2, 1] S4x4x512
  bcast_S64x4_S1x64x4x1_1_2 : S64x4.BroadcastsInDim S1x64x4x1 (![1, 2] : Fin 2 → Fin S1x64x4x1.rank)
  bcast_S4x4x512_S4x1x4x512_0_2_3 : S4x4x512.BroadcastsInDim S4x1x4x512 (![0, 2, 3] : Fin 3 → Fin S4x1x4x512.rank)
  bcast_S4x512_S4x1x1x512_0_3 : S4x512.BroadcastsInDim S4x1x1x512 (![0, 3] : Fin 2 → Fin S4x1x1x512.rank)
  bcast_S4x1x1x512_S4x64x4x512_0_1_2_3 : S4x1x1x512.BroadcastsInDim S4x64x4x512 (![0, 1, 2, 3] : Fin 4 → Fin S4x64x4x512.rank)
  bcast_S1x64x4x1_S4x64x4x512_0_1_2_3 : S1x64x4x1.BroadcastsInDim S4x64x4x512 (![0, 1, 2, 3] : Fin 4 → Fin S4x64x4x512.rank)
  bcast_S4x1x4x512_S4x64x4x512_0_1_2_3 : S4x1x4x512.BroadcastsInDim S4x64x4x512 (![0, 1, 2, 3] : Fin 4 → Fin S4x64x4x512.rank)
  shapeCasts_S4x64x4x512_S256x4x512 : S4x64x4x512.ShapeCasts S256x4x512
  shapeCasts_S4x64x256x512_S256x256x512 : S4x64x256x512.ShapeCasts S256x256x512
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  inb_S8x4x512_S8x4x512_0_0_0 : ∀ a, (![0, 0, 0] : Fin 3 → Nat) a + S8x4x512.size a ≤ S8x4x512.size a
  h_S8x4x512 : 0 < S8x4x512.numel
  shapeCasts_S8x4x512_S8x4x512 : S8x4x512.ShapeCasts S8x4x512
  slices_S8x4x512_o0_0_0_S8x1x512 : S8x4x512.Slices ![0, 0, 0] S8x1x512
  slices_S8x4x512_o0_1_0_S8x1x512 : S8x4x512.Slices ![0, 1, 0] S8x1x512
  slices_S8x4x512_o0_2_0_S8x1x512 : S8x4x512.Slices ![0, 2, 0] S8x1x512
  slices_S8x4x512_o0_3_0_S8x1x512 : S8x4x512.Slices ![0, 3, 0] S8x1x512
  broadcasts_S8x1x512_S8x256x512 : S8x1x512.Broadcasts S8x256x512
  shapeCasts_S256x256x512_S4x64x256x512 : S256x256x512.ShapeCasts S4x64x256x512
  dot_S64x9_S9x64_S64x64_1_0_0_1_n_n_wf : DotDims.WF S64x9 S9x64 S64x64 [1] [0] [0] [1] [] []
  dot_S64x64_S64x4_S64x4_1_0_0_1_n_n_wf : DotDims.WF S64x64 S64x4 S64x4 [1] [0] [0] [1] [] []
  gather_S12x4_S4x512x1_S4x512x4_2_0_n_n_0_2_14_wf : GatherDims.WF S12x4 S4x512x1 S4x512x4 [2] [0] [] [0] [] 2 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S256x256x512.size a
  hwx0_0 : ∀ i : grid0.Coords, EltTy.bits .f32 = 32 ∨ (Rect.block (s := S256x256x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4x512.size a ≤ S256x4x512.size a
  hwx0_1 : ∀ i : grid0.Coords, EltTy.bits .f32 = 32 ∨ (Rect.block (s := S256x4x512) S8x4x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S256x256x512.size a
  hwx0_2 : ∀ i : grid0.Coords, EltTy.bits .f32 = 32 ∨ (Rect.block (s := S256x256x512) S8x256x512.size (cc0_transform_2 i) (hinb0_2 i)).WholeWords (EltTy.packing .f32)

variable [Facts₀]

def dot_S64x9_S9x64_S64x64_1_0_0_1_n_n : DotDims S64x9 S9x64 S64x64 where
  lhsContracting := [1]
  rhsContracting := [0]
  lhsNonContracting := [0]
  rhsNonContracting := [1]
  lhsBatch := []
  rhsBatch := []
  wf := dot_S64x9_S9x64_S64x64_1_0_0_1_n_n_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf
def gather_S12x4_S4x512x1_S4x512x4_2_0_n_n_0_2_14 : GatherDims S12x4 S4x512x1 S4x512x4 where
  offsetDims := [2]
  collapsedSliceDims := [0]
  operandBatchingDims := []
  startIndicesBatchingDims := []
  startIndexMap := [0]
  indexVectorDim := 2
  sliceSizes := ![1, 4]
  wf := gather_S12x4_S4x512x1_S4x512x4_2_0_n_n_0_2_14_wf

abbrev win0_0 : Pipeline.Window sig grid0 :=
  Pipeline.Window.ofSpec (Memref.whole main_v107) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v106) S8x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v108) S8x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S4x64x256x512 : Shape := ⟨4, ![4, 64, 256, 512]⟩
abbrev S6 : Shape := ⟨1, ![6]⟩
abbrev S64x9 : Shape := ⟨2, ![64, 9]⟩
abbrev S9 : Shape := ⟨1, ![9]⟩
abbrev S4 : Shape := ⟨1, ![4]⟩
abbrev S9x64 : Shape := ⟨2, ![9, 64]⟩
abbrev S64 : Shape := ⟨1, ![64]⟩
abbrev S64x4 : Shape := ⟨2, ![64, 4]⟩
abbrev S4x512 : Shape := ⟨2, ![4, 512]⟩
abbrev S12x4 : Shape := ⟨2, ![12, 4]⟩
abbrev S_ : Shape := ⟨0, ![]⟩
abbrev S3 : Shape := ⟨1, ![3]⟩
abbrev S1x9 : Shape := ⟨2, ![1, 9]⟩
abbrev S64x1 : Shape := ⟨2, ![64, 1]⟩
abbrev S64x64 : Shape := ⟨2, ![64, 64]⟩
abbrev S1x64 : Shape := ⟨2, ![1, 64]⟩
abbrev S1x4 : Shape := ⟨2, ![1, 4]⟩
abbrev S4x512x1 : Shape := ⟨3, ![4, 512, 1]⟩
abbrev S4x512x4 : Shape := ⟨3, ![4, 512, 4]⟩
abbrev S4x512x1x1 : Shape := ⟨4, ![4, 512, 1, 1]⟩
abbrev S1x1x64x4 : Shape := ⟨4, ![1, 1, 64, 4]⟩
abbrev S4x512x1x4 : Shape := ⟨4, ![4, 512, 1, 4]⟩
abbrev S4x512x64x4 : Shape := ⟨4, ![4, 512, 64, 4]⟩
abbrev S4x64x512x4 : Shape := ⟨4, ![4, 64, 512, 4]⟩
abbrev S4x64x512x1 : Shape := ⟨4, ![4, 64, 512, 1]⟩
abbrev S4x64x512 : Shape := ⟨3, ![4, 64, 512]⟩
abbrev S4x64x1x512 : Shape := ⟨4, ![4, 64, 1, 512]⟩

abbrev nBuf : Space → Nat
  | .hbm => 159
  | .vmem => 0
  | .smem => 0
  | _ => 0

abbrev hbmTy0_0 (i : Nat) : BufTy := match i % 128 with
  | 0 => ⟨S4x64x256x512, .f32⟩
  | 1 => ⟨S6, .f32⟩
  | 2 => ⟨S64x9, .f32⟩
  | 3 => ⟨S9, .f32⟩
  | 4 => ⟨S9, .f32⟩
  | 5 => ⟨S4, .f32⟩
  | 6 => ⟨S4, .f32⟩
  | 7 => ⟨S9x64, .f32⟩
  | 8 => ⟨S64, .f32⟩
  | 9 => ⟨S64x4, .f32⟩
  | 10 => ⟨S4, .f32⟩
  | 11 => ⟨S4x512, .i32⟩
  | 12 => ⟨S12x4, .f32⟩
  | 13 => ⟨S6, .f32⟩
  | 14 => ⟨S6, .f32⟩
  | 15 => ⟨S_, .f32⟩
  | 16 => ⟨S6, .f32⟩
  | 17 => ⟨S6, .f32⟩
  | 18 => ⟨S_, .f32⟩
  | 19 => ⟨S6, .f32⟩
  | 20 => ⟨S6, .f32⟩
  | 21 => ⟨S_, .f32⟩
  | 22 => ⟨S3, .f32⟩
  | 23 => ⟨S9, .f32⟩
  | 24 => ⟨S9, .f32⟩
  | 25 => ⟨S9, .f32⟩
  | 26 => ⟨S9, .f32⟩
  | 27 => ⟨S_, .f32⟩
  | 28 => ⟨S64x9, .f32⟩
  | 29 => ⟨S64x9, .f32⟩
  | 30 => ⟨S_, .f32⟩
  | 31 => ⟨S64x9, .f32⟩
  | 32 => ⟨S64x9, .f32⟩
  | 33 => ⟨S_, .f32⟩
  | 34 => ⟨S64x9, .f32⟩
  | 35 => ⟨S64x9, .f32⟩
  | 36 => ⟨S_, .f32⟩
  | 37 => ⟨S64x9, .f32⟩
  | 38 => ⟨S64x9, .f32⟩
  | 39 => ⟨S1x9, .f32⟩
  | 40 => ⟨S64x9, .f32⟩
  | 41 => ⟨S64x9, .f32⟩
  | 42 => ⟨S64x1, .f32⟩
  | 43 => ⟨S64, .f32⟩
  | 44 => ⟨S64x1, .f32⟩
  | 45 => ⟨S64, .f32⟩
  | 46 => ⟨S64x1, .f32⟩
  | 47 => ⟨S64, .f32⟩
  | 48 => ⟨S64x1, .f32⟩
  | 49 => ⟨S64, .f32⟩
  | 50 => ⟨S64x1, .f32⟩
  | 51 => ⟨S64, .f32⟩
  | 52 => ⟨S64x1, .f32⟩
  | 53 => ⟨S64, .f32⟩
  | 54 => ⟨S64x1, .f32⟩
  | 55 => ⟨S64, .f32⟩
  | 56 => ⟨S64x1, .f32⟩
  | 57 => ⟨S64, .f32⟩
  | 58 => ⟨S64, .f32⟩
  | 59 => ⟨S64x1, .f32⟩
  | 60 => ⟨S64, .f32⟩
  | 61 => ⟨S64x1, .f32⟩
  | 62 => ⟨S64, .f32⟩
  | 63 => ⟨S64, .f32⟩
  | 64 => ⟨S64x1, .f32⟩
  | 65 => ⟨S64, .f32⟩
  | 66 => ⟨S64x1, .f32⟩
  | 67 => ⟨S64, .f32⟩
  | 68 => ⟨S64, .f32⟩
  | 69 => ⟨S64x1, .f32⟩
  | 70 => ⟨S64x1, .f32⟩
  | 71 => ⟨S64x1, .f32⟩
  | 72 => ⟨S64x1, .f32⟩
  | 73 => ⟨S64x1, .f32⟩
  | 74 => ⟨S64x1, .f32⟩
  | 75 => ⟨S64x1, .f32⟩
  | 76 => ⟨S64x1, .f32⟩
  | 77 => ⟨S64x1, .f32⟩
  | 78 => ⟨S64x9, .f32⟩
  | 79 => ⟨S1x9, .f32⟩
  | 80 => ⟨S64x9, .f32⟩
  | 81 => ⟨S64x9, .f32⟩
  | 82 => ⟨S9, .f32⟩
  | 83 => ⟨S1x9, .f32⟩
  | 84 => ⟨S64x9, .f32⟩
  | 85 => ⟨S64x9, .f32⟩
  | 86 => ⟨S64x64, .f32⟩
  | 87 => ⟨S1x64, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x4, .f32⟩
  | 94 => ⟨S1x4, .f32⟩
  | 95 => ⟨S64x4, .f32⟩
  | 96 => ⟨S64x4, .f32⟩
  | 97 => ⟨S64x4, .f32⟩
  | 98 => ⟨S64x4, .f32⟩
  | 99 => ⟨S_, .f32⟩
  | 100 => ⟨S64x4, .f32⟩
  | 101 => ⟨S64x4, .f32⟩
  | 102 => ⟨S_, .f32⟩
  | 103 => ⟨S64x4, .f32⟩
  | 104 => ⟨S64x4, .f32⟩
  | 105 => ⟨S4, .f32⟩
  | 106 => ⟨S1x4, .f32⟩
  | 107 => ⟨S64x4, .f32⟩
  | 108 => ⟨S64x4, .f32⟩
  | 109 => ⟨S1x4, .f32⟩
  | 110 => ⟨S64x4, .f32⟩
  | 111 => ⟨S64x4, .f32⟩
  | 112 => ⟨S_, .i32⟩
  | 113 => ⟨S4x512, .i32⟩
  | 114 => ⟨S4x512, .i32⟩
  | 115 => ⟨S_, .i32⟩
  | 116 => ⟨S4x512, .i32⟩
  | 117 => ⟨S4x512, .i32⟩
  | 118 => ⟨S_, .i32⟩
  | 119 => ⟨S4x512, .i32⟩
  | 120 => ⟨S4x512, .i1⟩
  | 121 => ⟨S_, .i32⟩
  | 122 => ⟨S4x512, .i32⟩
  | 123 => ⟨S4x512, .i32⟩
  | 124 => ⟨S4x512, .i32⟩
  | 125 => ⟨S4x512x1, .i32⟩
  | 126 => ⟨S4x512x4, .f32⟩
  | 127 => ⟨S_, .i32⟩
  | _ => ⟨S4x64x256x512, .f32⟩

abbrev hbmTy0_1 (i : Nat) : BufTy := match i % 128 with
  | 0 => ⟨S4x512, .i32⟩
  | 1 => ⟨S4x512, .i1⟩
  | 2 => ⟨S4x512x1x1, .i1⟩
  | 3 => ⟨S1x1x64x4, .f32⟩
  | 4 => ⟨S4x512x1x4, .f32⟩
  | 5 => ⟨S4x512x64x4, .i1⟩
  | 6 => ⟨S4x512x64x4, .f32⟩
  | 7 => ⟨S4x512x64x4, .f32⟩
  | 8 => ⟨S4x512x64x4, .f32⟩
  | 9 => ⟨S4x64x512x4, .f32⟩
  | 10 => ⟨S4x64x512x1, .f32⟩
  | 11 => ⟨S4x64x512, .f32⟩
  | 12 => ⟨S4x64x1x512, .f32⟩
  | 13 => ⟨S4x64x512x1, .f32⟩
  | 14 => ⟨S4x64x512, .f32⟩
  | 15 => ⟨S4x64x1x512, .f32⟩
  | 16 => ⟨S4x64x512x1, .f32⟩
  | 17 => ⟨S4x64x512, .f32⟩
  | 18 => ⟨S4x64x1x512, .f32⟩
  | 19 => ⟨S4x64x512x1, .f32⟩
  | 20 => ⟨S4x64x512, .f32⟩
  | 21 => ⟨S4x64x1x512, .f32⟩
  | 22 => ⟨S4x64x256x512, .f32⟩
  | 23 => ⟨S4x64x256x512, .f32⟩
  | 24 => ⟨S4x64x256x512, .f32⟩
  | 25 => ⟨S4x64x256x512, .f32⟩
  | 26 => ⟨S4x64x256x512, .f32⟩
  | 27 => ⟨S4x64x256x512, .f32⟩
  | 28 => ⟨S4x64x256x512, .f32⟩
  | 29 => ⟨S4x64x256x512, .f32⟩
  | 30 => ⟨S4x64x256x512, .f32⟩
  | _ => ⟨S4x64x256x512, .f32⟩

abbrev hbmTy (i : Nat) : BufTy := match i / 128 with
  | 0 => hbmTy0_0 i
  | 1 => hbmTy0_1 i
  | _ => ⟨S4x64x256x512, .f32⟩

abbrev bufTy : (tb : Table) → Fin (tcTables nBuf tb) → BufTy
  | .hbm, ⟨i, _⟩ => hbmTy i
  | _, _ => ⟨S4x64x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_v15 : Ref sig .tc := ⟨.hbm, 34, rfl⟩
abbrev main_v16 : Ref sig .tc := ⟨.hbm, 35, rfl⟩
abbrev main_cst_6 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_call0_cst : Ref sig .tc := ⟨.hbm, 90, rfl⟩
abbrev main_call0_v0 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_7 : Ref sig .tc := ⟨.hbm, 99, rfl⟩
abbrev main_v77 : Ref sig .tc := ⟨.hbm, 100, rfl⟩
abbrev main_v78 : Ref sig .tc := ⟨.hbm, 101, rfl⟩
abbrev main_cst_8 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_c : Ref sig .tc := ⟨.hbm, 112, rfl⟩
abbrev main_v88 : Ref sig .tc := ⟨.hbm, 113, rfl⟩
abbrev main_v89 : Ref sig .tc := ⟨.hbm, 114, rfl⟩
abbrev main_c_9 : Ref sig .tc := ⟨.hbm, 115, rfl⟩
abbrev main_v90 : Ref sig .tc := ⟨.hbm, 116, rfl⟩
abbrev main_v91 : Ref sig .tc := ⟨.hbm, 117, rfl⟩
abbrev main_c_10 : Ref sig .tc := ⟨.hbm, 118, rfl⟩
abbrev main_v92 : Ref sig .tc := ⟨.hbm, 119, rfl⟩
abbrev main_v93 : Ref sig .tc := ⟨.hbm, 120, rfl⟩
abbrev main_c_11 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_c_12 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩

abbrev nD : Nat := 1
abbrev τ : Topo := Topo.v7x

variable {F : FTy → Type} [FloatOps F]

class Facts₀ : Prop where
  bcast_S_S6 : S_.BroadcastsInDim S6 (![] : Fin 0 → Fin S6.rank)
  bcast_S_S3 : S_.BroadcastsInDim S3 (![] : Fin 0 → Fin S3.rank)
  concatenates_S6_S3_S9_d0 : Shape.Concatenates [S6, S3] S9 0
  bcast_S_S64x9 : S_.BroadcastsInDim S64x9 (![] : Fin 0 → Fin S64x9.rank)
  bcast_S9_S1x9_1 : S9.BroadcastsInDim S1x9 (![1] : Fin 1 → Fin S1x9.rank)
  bcast_S1x9_S64x9_0_1 : S1x9.BroadcastsInDim S64x9 (![0, 1] : Fin 2 → Fin S64x9.rank)
  slices_S64x9_S64x1_0_0 : S64x9.Slices ![0, 0] S64x1
  shapeCasts_S64x1_S64 : S64x1.ShapeCasts S64
  slices_S64x9_S64x1_0_1 : S64x9.Slices ![0, 1] S64x1
  slices_S64x9_S64x1_0_2 : S64x9.Slices ![0, 2] S64x1
  slices_S64x9_S64x1_0_3 : S64x9.Slices ![0, 3] S64x1
  slices_S64x9_S64x1_0_4 : S64x9.Slices ![0, 4] S64x1
  slices_S64x9_S64x1_0_5 : S64x9.Slices ![0, 5] S64x1
  bcast_S64_S64x1_0 : S64.BroadcastsInDim S64x1 (![0] : Fin 1 → Fin S64x1.rank)
  concatenates_S64x1_S64x1_S64x1_S64x1_S64x1_S64x1_S64x1_S64x1_S64x1_S64x9_d1 : Shape.Concatenates [S64x1, S64x1, S64x1, S64x1, S64x1, S64x1, S64x1, S64x1, S64x1] S64x9 1
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  bcast_S_S4x512 : S_.BroadcastsInDim S4x512 (![] : Fin 0 → Fin S4x512.rank)
  bcast_S4x512_S4x512x1_0_1 : S4x512.BroadcastsInDim S4x512x1 (![0, 1] : Fin 2 → Fin S4x512x1.rank)
  bcast_S4x512_S4x512x1x1_0_1 : S4x512.BroadcastsInDim S4x512x1x1 (![0, 1] : Fin 2 → Fin S4x512x1x1.rank)
  bcast_S64x4_S1x1x64x4_2_3 : S64x4.BroadcastsInDim S1x1x64x4 (![2, 3] : Fin 2 → Fin S1x1x64x4.rank)
  bcast_S4x512x4_S4x512x1x4_0_1_3 : S4x512x4.BroadcastsInDim S4x512x1x4 (![0, 1, 3] : Fin 3 → Fin S4x512x1x4.rank)
  bcast_S4x512x1x1_S4x512x64x4_0_1_2_3 : S4x512x1x1.BroadcastsInDim S4x512x64x4 (![0, 1, 2, 3] : Fin 4 → Fin S4x512x64x4.rank)
  bcast_S1x1x64x4_S4x512x64x4_0_1_2_3 : S1x1x64x4.BroadcastsInDim S4x512x64x4 (![0, 1, 2, 3] : Fin 4 → Fin S4x512x64x4.rank)
  bcast_S4x512x1x4_S4x512x64x4_0_1_2_3 : S4x512x1x4.BroadcastsInDim S4x512x64x4 (![0, 1, 2, 3] : Fin 4 → Fin S4x512x64x4.rank)
  transposes_S4x512x64x4_S4x64x512x4_0_2_1_3 : S4x512x64x4.Transposes [0, 2, 1, 3] S4x64x512x4
  slices_S4x64x512x4_S4x64x512x1_0_0_0_0 : S4x64x512x4.Slices ![0, 0, 0, 0] S4x64x512x1
  shapeCasts_S4x64x512x1_S4x64x512 : S4x64x512x1.ShapeCasts S4x64x512
  bcast_S4x64x512_S4x64x1x512_0_1_3 : S4x64x512.BroadcastsInDim S4x64x1x512 (![0, 1, 3] : Fin 3 → Fin S4x64x1x512.rank)
  slices_S4x64x512x4_S4x64x512x1_0_0_0_1 : S4x64x512x4.Slices ![0, 0, 0, 1] S4x64x512x1
  slices_S4x64x512x4_S4x64x512x1_0_0_0_2 : S4x64x512x4.Slices ![0, 0, 0, 2] S4x64x512x1
  slices_S4x64x512x4_S4x64x512x1_0_0_0_3 : S4x64x512x4.Slices ![0, 0, 0, 3] S4x64x512x1
  bcast_S4x64x1x512_S4x64x256x512_0_1_2_3 : S4x64x1x512.BroadcastsInDim S4x64x256x512 (![0, 1, 2, 3] : Fin 4 → Fin S4x64x256x512.rank)
  dot_S64x9_S9x64_S64x64_1_0_0_1_n_n_wf : DotDims.WF S64x9 S9x64 S64x64 [1] [0] [0] [1] [] []
  dot_S64x64_S64x4_S64x4_1_0_0_1_n_n_wf : DotDims.WF S64x64 S64x4 S64x4 [1] [0] [0] [1] [] []
  gather_S12x4_S4x512x1_S4x512x4_2_0_n_n_0_2_14_wf : GatherDims.WF S12x4 S4x512x1 S4x512x4 [2] [0] [] [0] [] 2 ![1, 4]

variable [Facts₀]

def dot_S64x9_S9x64_S64x64_1_0_0_1_n_n : DotDims S64x9 S9x64 S64x64 where
  lhsContracting := [1]
  rhsContracting := [0]
  lhsNonContracting := [0]
  rhsNonContracting := [1]
  lhsBatch := []
  rhsBatch := []
  wf := dot_S64x9_S9x64_S64x64_1_0_0_1_n_n_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf
def gather_S12x4_S4x512x1_S4x512x4_2_0_n_n_0_2_14 : GatherDims S12x4 S4x512x1 S4x512x4 where
  offsetDims := [2]
  collapsedSliceDims := [0]
  operandBatchingDims := []
  startIndicesBatchingDims := []
  startIndexMap := [0]
  indexVectorDim := 2
  sliceSizes := ![1, 4]
  wf := gather_S12x4_S4x512x1_S4x512x4_2_0_n_n_0_2_14_wf

class Facts : Prop extends Facts₀ where

variable [Facts]
-- ==== Proof.KernelRegion.lean ====
/-
  What the pallas_call of `Kernel` finds and what it leaves, as data for the pipeline library.

  The program's @main is: a long stretch of host operations (the coefficient preprocessing, the fault-table
  gather and the select that builds the packed coefficients `e_all : [256, 4, 512]`, the reshape of `z` to
  `[256, 256, 512]` and the copy of it into the result's buffer), then ONE region on a grid of 32 points, then one
  reshape of the result back to `[4, 64, 256, 512]`.

  * `entry m c` is core `c`'s buffer contents when the region is entered: the fold of the host prefix over the launch memory.
  * `blockAt m c w t` is window `w`'s block at grid point `t` read off its array as the region finds it
    (window 0: rows `8 t … 8 t + 7` of `z2`; window 1: the same rows of `e_all`).
  * `stored x0 x1` is what the body leaves in the output window's staging buffer when its two inputs hold `x0`, `x1`: the
    one whole-block store of `e0 + e1 · tanh ((z − e2) · e3)`.
  * `dats` packs these as the library's proof data: the inputs' buffers keep their blocks, the output's holds `stored` of them.
-/
import proofs.«109087_j41085657153638_2_alg».proof.Proof.Gen.Kernel.Launch
import proofs.«109087_j41085657153638_2_alg».proof.Proof.Gen.Kernel.Skeleton
import proofs.«109087_j41085657153638_2_alg».proof.Proof.Gen.Kernel.Points
import Idealize.ShloMosaic.Lib.Pipeline.FrameBody
import Idealize.ShloMosaic.Lib.Pipeline.FrameSuffix

noncomputable section

namespace Cert.Kernel.Region

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]
variable (m : (ℓ : Loc nD τ sig) → Buf (Elt F) ℓ)

/-- The five stretches of host operations before the region, in order. -/
abbrev prefixStretches : List (List (HloOp τ sig (Elt F))) := [hostOps0, hostOps0_1, hostOps0_2, hostOps0_3, hostOps0_4]

/-- Core `c`'s buffer contents when the region is entered. -/
abbrev entry (c : Dev nD) : Valuation τ sig (Elt F) :=
  StableHlo.after (List.flatten (prefixStretches (F := F))) (fun b => m (c, b))
/-- The same read at a TensorCore reference. -/
abbrev entryAt (c : Dev nD) (b : Ref sig .tc) : Buf (Elt F) ((c : Thread nD τ).loc b) := entry m c (Proc.devRef .tc b)

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-- The whole `[8, 256, 512]` block and the whole `[8, 4, 512]` block, as the body's rectangles. -/
abbrev zRect : Rect S8x256x512 := Rect.unit (s := S8x256x512) ![0, 0, 0] S8x256x512.size inb_S8x256x512_S8x256x512_0_0_0
abbrev eRect : Rect S8x4x512 := Rect.unit (s := S8x4x512) ![0, 0, 0] S8x4x512.size inb_S8x4x512_S8x4x512_0_0_0

/-- What the body leaves in the output window's staging buffer: its one store, of the payload of the two loads. -/
def stored (x0 : Vec F S8x256x512 .f32) (x1 : Vec F S8x4x512 .f32) : Vec F S8x256x512 .f32 :=
  View.canon [⟨zRect, k0_pay1 (View.ld x0 zRect) (View.ld x1 eRect)⟩]

/-- The proof data of the one pipeline on core `c`. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem dats_A (c : Dev nD) (w : Fin cfg0.W) : (dats m 0 c).A w = entryAt m c (Pipeline.arrRef spec0 w) := by
  dsimp only [dats]
theorem dats_after_0 (c : Dev nD) (t : Fin cfg0.N) : (dats m 0 c).after 0 t = blockAt m c 0 t := by dsimp only [dats]
theorem dats_after_1 (c : Dev nD) (t : Fin cfg0.N) : (dats m 0 c).after 1 t = blockAt m c 1 t := by dsimp only [dats]
theorem dats_after_2 (c : Dev nD) (t : Fin cfg0.N) :
    (dats m 0 c).after 2 t = stored (blockAt m c 0 t) (blockAt m c 1 t) := by dsimp only [dats]

end Cert.Kernel.Region

end
-- ==== Proof.KernelFrame.lean ====
/-
  The frame run of `Kernel`: its @main terminates on every core without fault, and when it ends each of the twelve
  argument arrays holds what it held at launch.

  @main is five stretches of host operations, one region on a grid of 32 points, and one reshape. Nothing before
  or after the region writes an argument array (every host operation writes only its own result buffer), and the
  region itself stages three arrays, none of them an argument: the reshaped input `z2`, the packed coefficients
  `e_all`, and the result's buffer. So the claim follows from the pipeline library's frame run once the body's
  obligation is discharged: at every grid point the body reads its two input blocks whole, reads the output's
  staging buffer (discarding what it read) and overwrites that buffer whole with the payload of the two input blocks.
-/
import proofs.«109087_j41085657153638_2_alg».proof.Proof.KernelRegion
import Idealize.ShloMosaic.Lib.Pipeline.FrameBody
import Idealize.ShloMosaic.Lib.Pipeline.FrameSuffix
import Idealize.ShloMosaic.Lib.Ring
import Idealize.ShloMosaic.Lib.Tactic

-- membership of an index in a rectangle spanning a whole production-size block is checked structurally,
-- one step per coordinate of the long axes
set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer: each stretch, before and after the region. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to its region continued by the reshape after it, the region entered at the contents the five
    stretches before it leave: every operation of those stretches touches TensorCore buffers only and allocates nothing. -/
theorem enters (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main prefixStretches [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches only unscoped TensorCore buffers, each of which is an array of the pipeline
    or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes the final result's buffer, which is none of the three staged arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the region's entry

Every host operation writes exactly one buffer, its own result, and no result buffer is an argument array: so the
fold of the prefix over the launch memory leaves each argument as launched. -/

theorem entry_main_arg0 (c : Dev nD) : entryAt m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg1 (c : Dev nD) : entryAt m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg2 (c : Dev nD) : entryAt m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg3 (c : Dev nD) : entryAt m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg4 (c : Dev nD) : entryAt m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg5 (c : Dev nD) : entryAt m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg6 (c : Dev nD) : entryAt m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg7 (c : Dev nD) : entryAt m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg8 (c : Dev nD) : entryAt m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg9 (c : Dev nD) : entryAt m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg10 (c : Dev nD) : entryAt m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg11 (c : Dev nD) : entryAt m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The body -/

/-- The body's one store spans the whole output block, so it covers it. -/
theorem cover_stored (p0 : Vec F S8x256x512 .f32) (y : S8x256x512.Idx) :
    ∃ pc ∈ ([⟨zRect, p0⟩] : List (View.Piece (Elt F) S8x256x512 .f32)), y ∈ pc.1.set :=
  View.cover_of_tiled [⟨zRect, p0⟩] S8x256x512.size (by rfl) y

set_option maxHeartbeats 1000000 in
/-- The body on three whole staging memrefs: with the two inputs' holding `x0` and `x1` and the output's holding
    anything, it runs to its return with the inputs' unchanged and the output's holding `stored x0 x1`. The body reads
    the two inputs whole, reads the output whole (the value read is not used), and stores the payload of the two
    input reads over the whole output, which therefore reads back as the one-piece canon whatever it held before. -/
theorem sound_kernel (c : Dev nD) (E : Set ℕ) (i : grid0.Coords)
    (arg1 : Memref sig .tc .vmem S8x256x512 .f32) (harg1 : arg1.IsWhole)
    (arg2 : Memref sig .tc .vmem S8x4x512 .f32) (harg2 : arg2.IsWhole)
    (arg3 : Memref sig .tc .vmem S8x256x512 .f32) (harg3 : arg3.IsWhole)
    (x0 : Vec F S8x256x512 .f32) (x1 : Vec F S8x4x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (stored x0 x1)) -∗ K ⟨⟩))
      ⊢ wp frame (wpE (defs₀ (F := F)) Variants.none c none) E (cc0__affine_tanh_kernel i arg1 harg1 arg2 harg2 arg3 harg3) K := by
  simp only [cc0__affine_tanh_kernel_eq_skeleton]; unfold cc0__affine_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_stored _)

/-! ## What the body finds in the input windows' buffers -/

/-- The first input's current staging buffer holds its block at every point, whether or not it was fetched there
    (unfetched, the block index has not moved): the window is not cut, is never idle, and the body leaves it in place. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [dats_after_0]; unfold Dat.blockOf blockAt; rw [dats_A]; try rfl) t d).trans
    (by unfold Dat.fetched Dat.blockOf blockAt; rw [dats_A]; try rfl)
/-- The same of the second input. -/
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [dats_after_1]; unfold Dat.blockOf blockAt; rw [dats_A]; try rfl) t d).trans
    (by unfold Dat.fetched Dat.blockOf blockAt; rw [dats_A]; try rfl)

/-! ## The body obligation, at a generic point -/

/-- What the body is called with at point `t`: the invariant, what the core owes, and the three windows' current
    staging buffers, each holding what the pipeline put or left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, each buffer holding what the proof data says the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks and the output's holds something, so the body's
    triple applies; the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    dats_after_0, dats_after_1, dats_after_2]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation: the above at every point, the three windows conjoined one by one. -/
theorem body_obligation (c : Dev nD) : BodyObligation (dats (F := F) m 0 c) (defs₀ (F := F)) Variants.none () Set.univ := fun t => by
  rw [bigSep_W0, bigSep_W0]
  exact sound_body m c t

/-! ## The run -/

-- the library theorem's implicit arguments are found by unifying its conclusion with this one, which unfolds plain
-- definitions inside a metavariable's type
set_option backward.isDefEq.respectTransparency.types false in
/-- From any launch memory with zero counters, every weakly fair execution of @main on the TensorCores terminates
    without fault, and in every final state each staged array holds what the library computes from the proof data and
    every other unscoped buffer holds what the reshape after the region leaves there. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := sfx_sub) (hfresh := sfx_fresh) (hkeep := sfx_keeps)
    (hmain := enters m Variants.none) (hA := dats_A m) (hΦ := fun _ _ => rfl)

/-! ## The arguments at @main's end

The reshape after the region writes the final result's buffer only, and no argument is one of the three staged
arrays: each argument ends as the region found it, which is as launched. -/

theorem exit_main_arg0 (c : Dev nD) :
    Pipeline.afterTail₀ cfgs (dats m) 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_main_arg0 m c

theorem exit_main_arg1 (c : Dev nD) :
    Pipeline.afterTail₀ cfgs (dats m) 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_main_arg1 m c

theorem exit_main_arg2 (c : Dev nD) :
    Pipeline.afterTail₀ cfgs (dats m) 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg2 (by exact (by decide : ∀ w, Pipeline.arrRef spec0 w ≠ main_arg2))]
  exact entry_main_arg2 m c

theorem exit_main_arg3 (c : Dev nD) :
    Pipeline.afterTail₀ cfgs (dats m) 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg3 (by exact (by decide : ∀ w, Pipeline.arrRef spec0 w ≠ main_arg3))]
  exact entry_main_arg3 m c

theorem exit_main_arg4 (c : Dev nD) :
    Pipeline.afterTail₀ cfgs (dats m) 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg4 (by exact (by decide : ∀ w, Pipeline.arrRef spec0 w ≠ main_arg4))]
  exact entry_main_arg4 m c

theorem exit_main_arg5 (c : Dev nD) :
    Pipeline.afterTail₀ cfgs (dats m) 0 (entry m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg5 (by exact (by decide : ∀ w, Pipeline.arrRef spec0 w ≠ main_arg5))]
  exact entry_main_arg5 m c

theorem exit_main_arg6 (c : Dev nD) :
    Pipeline.afterTail₀ cfgs (dats m) 0 (entry m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg6 (by exact (by decide : ∀ w, Pipeline.arrRef spec0 w ≠ main_arg6))]
  exact entry_main_arg6 m c

theorem exit_main_arg7 (c : Dev nD) :
    Pipeline.afterTail₀ cfgs (dats m) 0 (entry m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg7 (by exact (by decide : ∀ w, Pipeline.arrRef spec0 w ≠ main_arg7))]
  exact entry_main_arg7 m c

theorem exit_main_arg8 (c : Dev nD) :
    Pipeline.afterTail₀ cfgs (dats m) 0 (entry m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg8 (by exact (by decide : ∀ w, Pipeline.arrRef spec0 w ≠ main_arg8))]
  exact entry_main_arg8 m c

theorem exit_main_arg9 (c : Dev nD) :
    Pipeline.afterTail₀ cfgs (dats m) 0 (entry m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg9 (by exact (by decide : ∀ w, Pipeline.arrRef spec0 w ≠ main_arg9))]
  exact entry_main_arg9 m c

theorem exit_main_arg10 (c : Dev nD) :
    Pipeline.afterTail₀ cfgs (dats m) 0 (entry m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg10 (by exact (by decide : ∀ w, Pipeline.arrRef spec0 w ≠ main_arg10))]
  exact entry_main_arg10 m c

theorem exit_main_arg11 (c : Dev nD) :
    Pipeline.afterTail₀ cfgs (dats m) 0 (entry m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg11 (by exact (by decide : ∀ w, Pipeline.arrRef spec0 w ≠ main_arg11))]
  exact entry_main_arg11 m c

/-! ## The frame -/

/-- The frame claim at any float instance: @main runs, and every argument array ends as launched. Each argument is an
    unscoped buffer that no window stages, so the run's post gives it as the reshape after the region leaves it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    ((h c).2 main_arg0 (Pipeline.mem_restRefs_of main_arg0 (by decide) (by decide))).trans (exit_main_arg0 m c),
    ((h c).2 main_arg1 (Pipeline.mem_restRefs_of main_arg1 (by decide) (by decide))).trans (exit_main_arg1 m c),
    ((h c).2 main_arg2 (Pipeline.mem_restRefs_of main_arg2 (by decide) (by decide))).trans (exit_main_arg2 m c),
    ((h c).2 main_arg3 (Pipeline.mem_restRefs_of main_arg3 (by decide) (by decide))).trans (exit_main_arg3 m c),
    ((h c).2 main_arg4 (Pipeline.mem_restRefs_of main_arg4 (by decide) (by decide))).trans (exit_main_arg4 m c),
    ((h c).2 main_arg5 (Pipeline.mem_restRefs_of main_arg5 (by decide) (by decide))).trans (exit_main_arg5 m c),
    ((h c).2 main_arg6 (Pipeline.mem_restRefs_of main_arg6 (by decide) (by decide))).trans (exit_main_arg6 m c),
    ((h c).2 main_arg7 (Pipeline.mem_restRefs_of main_arg7 (by decide) (by decide))).trans (exit_main_arg7 m c),
    ((h c).2 main_arg8 (Pipeline.mem_restRefs_of main_arg8 (by decide) (by decide))).trans (exit_main_arg8 m c),
    ((h c).2 main_arg9 (Pipeline.mem_restRefs_of main_arg9 (by decide) (by decide))).trans (exit_main_arg9 m c),
    ((h c).2 main_arg10 (Pipeline.mem_restRefs_of main_arg10 (by decide) (by decide))).trans (exit_main_arg10 m c),
    ((h c).2 main_arg11 (Pipeline.mem_restRefs_of main_arg11 (by decide) (by decide))).trans (exit_main_arg11 m c)⟩) (run_main m ρ)

end Cert.Kernel.Region

end
-- ==== Proof.KernelIdealRegion.lean ====
/-
  What the pallas_call of `KernelIdeal` finds and what it leaves, as data for the pipeline library.

  The program's @main is: a long stretch of host operations (the coefficient preprocessing, the fault-table
  gather and the select that builds the packed coefficients `e_all : [256, 4, 512]`, the reshape of `z` to
  `[256, 256, 512]` and the copy of it into the result's buffer), then ONE region on a grid of 32 points, then one
  reshape of the result back to `[4, 64, 256, 512]`.

  * `entry m c` is core `c`'s buffer contents when the region is entered: the fold of the host prefix over the launch memory.
  * `blockAt m c w t` is window `w`'s block at grid point `t` read off its array as the region finds it
    (window 0: rows `8 t … 8 t + 7` of `z2`; window 1: the same rows of `e_all`).
  * `stored x0 x1` is what the body leaves in the output window's staging buffer when its two inputs hold `x0`, `x1`: the
    one whole-block store of `e0 + e1 · tanh ((z − e2) · e3)`.
  * `dats` packs these as the library's proof data: the inputs' buffers keep their blocks, the output's holds `stored` of them.
-/
import proofs.«109087_j41085657153638_2_alg».proof.Proof.Gen.KernelIdeal.Launch
import proofs.«109087_j41085657153638_2_alg».proof.Proof.Gen.KernelIdeal.Skeleton
import proofs.«109087_j41085657153638_2_alg».proof.Proof.Gen.KernelIdeal.Points
import Idealize.ShloMosaic.Lib.Pipeline.FrameBody
import Idealize.ShloMosaic.Lib.Pipeline.FrameSuffix

noncomputable section

namespace Cert.KernelIdeal.Region

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The five stretches of host operations before the region, in order. -/
abbrev prefixStretches : List (List (HloOp τ sig (Elt F))) := [hostOps0, hostOps0_1, hostOps0_2, hostOps0_3, hostOps0_4]

/-- Core `c`'s buffer contents when the region is entered. -/
abbrev entry (c : Dev nD) : Valuation τ sig (Elt F) :=
  StableHlo.after (List.flatten (prefixStretches (F := F))) (fun b => m (c, b))
/-- The same read at a TensorCore reference. -/
abbrev entryAt (c : Dev nD) (b : Ref sig .tc) : Buf (Elt F) ((c : Thread nD τ).loc b) := entry m c (Proc.devRef .tc b)

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-- The whole `[8, 256, 512]` block and the whole `[8, 4, 512]` block, as the body's rectangles. -/
abbrev zRect : Rect S8x256x512 := Rect.unit (s := S8x256x512) ![0, 0, 0] S8x256x512.size inb_S8x256x512_S8x256x512_0_0_0
abbrev eRect : Rect S8x4x512 := Rect.unit (s := S8x4x512) ![0, 0, 0] S8x4x512.size inb_S8x4x512_S8x4x512_0_0_0

/-- What the body leaves in the output window's staging buffer: its one store, of the payload of the two loads. -/
def stored (x0 : Vec F S8x256x512 .f32) (x1 : Vec F S8x4x512 .f32) : Vec F S8x256x512 .f32 :=
  View.canon [⟨zRect, k0_pay1 (View.ld x0 zRect) (View.ld x1 eRect)⟩]

/-- The proof data of the one pipeline on core `c`. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem dats_A (c : Dev nD) (w : Fin cfg0.W) : (dats m 0 c).A w = entryAt m c (Pipeline.arrRef spec0 w) := by
  dsimp only [dats]
theorem dats_after_0 (c : Dev nD) (t : Fin cfg0.N) : (dats m 0 c).after 0 t = blockAt m c 0 t := by dsimp only [dats]
theorem dats_after_1 (c : Dev nD) (t : Fin cfg0.N) : (dats m 0 c).after 1 t = blockAt m c 1 t := by dsimp only [dats]
theorem dats_after_2 (c : Dev nD) (t : Fin cfg0.N) :
    (dats m 0 c).after 2 t = stored (blockAt m c 0 t) (blockAt m c 1 t) := by dsimp only [dats]

end Cert.KernelIdeal.Region

end
-- ==== Proof.KernelIdealFrame.lean ====
/-
  The frame run of `KernelIdeal`: its @main terminates on every core without fault, and when it ends each of the twelve
  argument arrays holds what it held at launch.

  @main is five stretches of host operations, one region on a grid of 32 points, and one reshape. Nothing before
  or after the region writes an argument array (every host operation writes only its own result buffer), and the
  region itself stages three arrays, none of them an argument: the reshaped input `z2`, the packed coefficients
  `e_all`, and the result's buffer. So the claim follows from the pipeline library's frame run once the body's
  obligation is discharged: at every grid point the body reads its two input blocks whole, reads the output's
  staging buffer (discarding what it read) and overwrites that buffer whole with the payload of the two input blocks.
-/
import proofs.«109087_j41085657153638_2_alg».proof.Proof.KernelIdealRegion
import Idealize.ShloMosaic.Lib.Pipeline.FrameBody
import Idealize.ShloMosaic.Lib.Pipeline.FrameSuffix
import Idealize.ShloMosaic.Lib.Ring
import Idealize.ShloMosaic.Lib.Tactic

-- membership of an index in a rectangle spanning a whole production-size block is checked structurally,
-- one step per coordinate of the long axes
set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- No host operation allocates a buffer: each stretch, before and after the region. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to its region continued by the reshape after it, the region entered at the contents the five
    stretches before it leave: every operation of those stretches touches TensorCore buffers only and allocates nothing. -/
theorem enters (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main prefixStretches [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The reshape after the region touches only unscoped TensorCore buffers, each of which is an array of the pipeline
    or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes the final result's buffer, which is none of the three staged arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-! ## The arguments at the region's entry

Every host operation writes exactly one buffer, its own result, and no result buffer is an argument array: so the
fold of the prefix over the launch memory leaves each argument as launched. -/

theorem entry_main_arg0 (c : Dev nD) : entryAt m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg1 (c : Dev nD) : entryAt m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg2 (c : Dev nD) : entryAt m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg3 (c : Dev nD) : entryAt m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg4 (c : Dev nD) : entryAt m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg5 (c : Dev nD) : entryAt m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg6 (c : Dev nD) : entryAt m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg7 (c : Dev nD) : entryAt m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg8 (c : Dev nD) : entryAt m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg9 (c : Dev nD) : entryAt m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg10 (c : Dev nD) : entryAt m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem entry_main_arg11 (c : Dev nD) : entryAt m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The body -/

/-- The body's one store spans the whole output block, so it covers it. -/
theorem cover_stored (p0 : Vec F S8x256x512 .f32) (y : S8x256x512.Idx) :
    ∃ pc ∈ ([⟨zRect, p0⟩] : List (View.Piece (Elt F) S8x256x512 .f32)), y ∈ pc.1.set :=
  View.cover_of_tiled [⟨zRect, p0⟩] S8x256x512.size (by rfl) y

set_option maxHeartbeats 1000000 in
/-- The body on three whole staging memrefs: with the two inputs' holding `x0` and `x1` and the output's holding
    anything, it runs to its return with the inputs' unchanged and the output's holding `stored x0 x1`. The body reads
    the two inputs whole, reads the output whole (the value read is not used), and stores the payload of the two
    input reads over the whole output, which therefore reads back as the one-piece canon whatever it held before. -/
theorem sound_kernel (c : Dev nD) (E : Set ℕ) (i : grid0.Coords)
    (arg1 : Memref sig .tc .vmem S8x256x512 .f32) (harg1 : arg1.IsWhole)
    (arg2 : Memref sig .tc .vmem S8x4x512 .f32) (harg2 : arg2.IsWhole)
    (arg3 : Memref sig .tc .vmem S8x256x512 .f32) (harg3 : arg3.IsWhole)
    (x0 : Vec F S8x256x512 .f32) (x1 : Vec F S8x4x512 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (stored x0 x1)) -∗ K ⟨⟩))
      ⊢ wp frame (wpE (defs₀ (F := F)) Variants.none c none) E (cc0__affine_tanh_kernel i arg1 harg1 arg2 harg2 arg3 harg3) K := by
  simp only [cc0__affine_tanh_kernel_eq_skeleton]; unfold cc0__affine_tanh_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_stored _)

/-! ## What the body finds in the input windows' buffers -/

/-- The first input's current staging buffer holds its block at every point, whether or not it was fetched there
    (unfetched, the block index has not moved): the window is not cut, is never idle, and the body leaves it in place. -/
theorem before_0 (c : Dev nD) (t : Fin cfg0.N) (d) : (dats m 0 c).before 0 t d = blockAt m c 0 t :=
  ((dats m 0 c).before_in_eq_fetched 0 rfl (fun _ => rfl) (fun _ _ _ => rfl)
      (fun t => by rw [dats_after_0]; unfold Dat.blockOf blockAt; rw [dats_A]; try rfl) t d).trans
    (by unfold Dat.fetched Dat.blockOf blockAt; rw [dats_A]; try rfl)
/-- The same of the second input. -/
theorem before_1 (c : Dev nD) (t : Fin cfg0.N) (d) : (dats m 0 c).before 1 t d = blockAt m c 1 t :=
  ((dats m 0 c).before_in_eq_fetched 1 rfl (fun _ => rfl) (fun _ _ _ => rfl)
      (fun t => by rw [dats_after_1]; unfold Dat.blockOf blockAt; rw [dats_A]; try rfl) t d).trans
    (by unfold Dat.fetched Dat.blockOf blockAt; rw [dats_A]; try rfl)

/-! ## The body obligation, at a generic point -/

/-- What the body is called with at point `t`: the invariant, what the core owes, and the three windows' current
    staging buffers, each holding what the pipeline put or left there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, each buffer holding what the proof data says the body leaves in it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks and the output's holds something, so the body's
    triple applies; the invariant and what the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    dats_after_0, dats_after_1, dats_after_2]
  iintro ⟨HΦ, Ho, ⟨%d0, H0⟩, ⟨%d1, H1⟩, ⟨%d2, H2⟩⟩
  iapply (sound_kernel c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation: the above at every point, the three windows conjoined one by one. -/
theorem body_obligation (c : Dev nD) : BodyObligation (dats (F := F) m 0 c) (defs₀ (F := F)) Variants.none () Set.univ := fun t => by
  rw [bigSep_W0, bigSep_W0]
  exact sound_body m c t

/-! ## The run -/

-- the library theorem's implicit arguments are found by unifying its conclusion with this one, which unfolds plain
-- definitions inside a metavariable's type
set_option backward.isDefEq.respectTransparency.types false in
/-- From any launch memory with zero counters, every weakly fair execution of @main on the TensorCores terminates
    without fault, and in every final state each staged array holds what the library computes from the proof data and
    every other unscoped buffer holds what the reshape after the region leaves there. -/
theorem run_main : θ_run defs (onTc (τ := τ) (main (F := F))) (s₀ m ρ) (Pipeline.FramePost cfgs (dats m) 0 (Pipeline.afterTail₀ cfgs (dats m) 0 (entry m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := [hostOps1]) (hsub := sfx_sub) (hfresh := sfx_fresh) (hkeep := sfx_keeps)
    (hmain := enters m Variants.none) (hA := dats_A m) (hΦ := fun _ _ => rfl)

/-! ## The arguments at @main's end

The reshape after the region writes the final result's buffer only, and no argument is one of the three staged
arrays: each argument ends as the region found it, which is as launched. -/

theorem exit_main_arg0 (c : Dev nD) :
    Pipeline.afterTail₀ cfgs (dats m) 0 (entry m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg0 (by exact (by decide : ∀ w, Pipeline.arrRef spec0 w ≠ main_arg0))]
  exact entry_main_arg0 m c

theorem exit_main_arg1 (c : Dev nD) :
    Pipeline.afterTail₀ cfgs (dats m) 0 (entry m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg1 (by exact (by decide : ∀ w, Pipeline.arrRef spec0 w ≠ main_arg1))]
  exact entry_main_arg1 m c

theorem exit_main_arg2 (c : Dev nD) :
    Pipeline.afterTail₀ cfgs (dats m) 0 (entry m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg2 (by exact (by decide : ∀ w, Pipeline.arrRef spec0 w ≠ main_arg2))]
  exact entry_main_arg2 m c

theorem exit_main_arg3 (c : Dev nD) :
    Pipeline.afterTail₀ cfgs (dats m) 0 (entry m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg3 (by exact (by decide : ∀ w, Pipeline.arrRef spec0 w ≠ main_arg3))]
  exact entry_main_arg3 m c

theorem exit_main_arg4 (c : Dev nD) :
    Pipeline.afterTail₀ cfgs (dats m) 0 (entry m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg4 (by exact (by decide : ∀ w, Pipeline.arrRef spec0 w ≠ main_arg4))]
  exact entry_main_arg4 m c

theorem exit_main_arg5 (c : Dev nD) :
    Pipeline.afterTail₀ cfgs (dats m) 0 (entry m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg5 (by exact (by decide : ∀ w, Pipeline.arrRef spec0 w ≠ main_arg5))]
  exact entry_main_arg5 m c

theorem exit_main_arg6 (c : Dev nD) :
    Pipeline.afterTail₀ cfgs (dats m) 0 (entry m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg6 (by exact (by decide : ∀ w, Pipeline.arrRef spec0 w ≠ main_arg6))]
  exact entry_main_arg6 m c

theorem exit_main_arg7 (c : Dev nD) :
    Pipeline.afterTail₀ cfgs (dats m) 0 (entry m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg7 (by exact (by decide : ∀ w, Pipeline.arrRef spec0 w ≠ main_arg7))]
  exact entry_main_arg7 m c

theorem exit_main_arg8 (c : Dev nD) :
    Pipeline.afterTail₀ cfgs (dats m) 0 (entry m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg8 (by exact (by decide : ∀ w, Pipeline.arrRef spec0 w ≠ main_arg8))]
  exact entry_main_arg8 m c

theorem exit_main_arg9 (c : Dev nD) :
    Pipeline.afterTail₀ cfgs (dats m) 0 (entry m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg9 (by exact (by decide : ∀ w, Pipeline.arrRef spec0 w ≠ main_arg9))]
  exact entry_main_arg9 m c

theorem exit_main_arg10 (c : Dev nD) :
    Pipeline.afterTail₀ cfgs (dats m) 0 (entry m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg10 (by exact (by decide : ∀ w, Pipeline.arrRef spec0 w ≠ main_arg10))]
  exact entry_main_arg10 m c

theorem exit_main_arg11 (c : Dev nD) :
    Pipeline.afterTail₀ cfgs (dats m) 0 (entry m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (entry m c) _ main_arg11 (by exact (by decide : ∀ w, Pipeline.arrRef spec0 w ≠ main_arg11))]
  exact entry_main_arg11 m c

/-! ## The frame -/

/-- The frame claim at any float instance: @main runs, and every argument array ends as launched. Each argument is an
    unscoped buffer that no window stages, so the run's post gives it as the reshape after the region leaves it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨
    ((h c).2 main_arg0 (Pipeline.mem_restRefs_of main_arg0 (by decide) (by decide))).trans (exit_main_arg0 m c),
    ((h c).2 main_arg1 (Pipeline.mem_restRefs_of main_arg1 (by decide) (by decide))).trans (exit_main_arg1 m c),
    ((h c).2 main_arg2 (Pipeline.mem_restRefs_of main_arg2 (by decide) (by decide))).trans (exit_main_arg2 m c),
    ((h c).2 main_arg3 (Pipeline.mem_restRefs_of main_arg3 (by decide) (by decide))).trans (exit_main_arg3 m c),
    ((h c).2 main_arg4 (Pipeline.mem_restRefs_of main_arg4 (by decide) (by decide))).trans (exit_main_arg4 m c),
    ((h c).2 main_arg5 (Pipeline.mem_restRefs_of main_arg5 (by decide) (by decide))).trans (exit_main_arg5 m c),
    ((h c).2 main_arg6 (Pipeline.mem_restRefs_of main_arg6 (by decide) (by decide))).trans (exit_main_arg6 m c),
    ((h c).2 main_arg7 (Pipeline.mem_restRefs_of main_arg7 (by decide) (by decide))).trans (exit_main_arg7 m c),
    ((h c).2 main_arg8 (Pipeline.mem_restRefs_of main_arg8 (by decide) (by decide))).trans (exit_main_arg8 m c),
    ((h c).2 main_arg9 (Pipeline.mem_restRefs_of main_arg9 (by decide) (by decide))).trans (exit_main_arg9 m c),
    ((h c).2 main_arg10 (Pipeline.mem_restRefs_of main_arg10 (by decide) (by decide))).trans (exit_main_arg10 m c),
    ((h c).2 main_arg11 (Pipeline.mem_restRefs_of main_arg11 (by decide) (by decide))).trans (exit_main_arg11 m c)⟩) (run_main m ρ)

end Cert.KernelIdeal.Region

end
-- ==== Proof.KernelRows.lean ====
/-
  What the region leaves in the result array `[256, 256, 512]`, as ONE function of the two arrays it reads.

  Row `r` of the result is the affine-tanh of row `r` of `z2 : [256, 256, 512]` under the four coefficient rows
  `e r 0 …, e r 3 …` of `e : [256, 4, 512]`:
      out r b c = e r 0 c + e r 1 c · tanh ((z2 r b c − e r 2 c) · e r 3 c).
  Grid point `t` handles rows `8 t … 8 t + 7`: the body's one store, read at `(i, b, c)` of its block, is that expression
  of the two loaded blocks (the four `[8, 1, 512]` slices of the coefficient block broadcast along the batch axis), every
  window's block `t` starts at row `8 t` of its array, and the 32 blocks tile the 256 rows.
-/
import proofs.«109087_j41085657153638_2_alg».proof.Proof.KernelIdealRegion
import Idealize.ShloMosaic.Lib.Pipeline.Value
import Idealize.ShloMosaic.Lib.ValueIdx
import Idealize.ShloMosaic.PureOps.Ideal

set_option maxRecDepth 16384

noncomputable section

namespace Cert.KernelIdeal.Region

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The rows' function -/

/-- Entry `(r, b, c)` of the result from the two arrays the region reads. -/
def rowAt (z2 : FVec Ideal S256x256x512 .f32) (e : FVec Ideal S256x4x512 .f32) (r : Fin 256) (b : Fin 256) (c : Fin 512) :
    Ideal .f32 :=
  e (ix3 r 0 c) + e (ix3 r 1 c) * Ideal.tanh ((z2 (ix3 r b c) - e (ix3 r 2 c)) * e (ix3 r 3 c))

/-- The whole result array. -/
def rows (z2 : FVec Ideal S256x256x512 .f32) (e : FVec Ideal S256x4x512 .f32) : FVec Ideal S256x256x512 .f32 :=
  fun j => rowAt z2 e (j 0) (j 1) (j 2)

theorem rows_apply (z2 : FVec Ideal S256x256x512 .f32) (e : FVec Ideal S256x4x512 .f32) (r : Fin 256) (b : Fin 256) (c : Fin 512) :
    rows z2 e (ix3 r b c) = rowAt z2 e r b c := rfl

/-! ## The body's store, read at an index of its block -/

theorem tanh_at {s : Shape} {φ : FTy} (a : FVec Ideal s φ) (i : s.Idx) : tanh a i = Ideal.tanh (a i) := rfl

/-- A `[8, 1, 512]` row vector broadcast along the batch axis reads its row. -/
theorem batch_broadcast_at (v : FVec Ideal S8x1x512 .f32) (i : Fin 8) (b : Fin 256) (c : Fin 512) :
    broadcastTo S8x256x512 v broadcasts_S8x1x512_S8x256x512 (ix3 i b c) = v (ix3 i 0 c) :=
  broadcastTo_apply v _ (ix3 i b c) (ix3 i 0 c) (fun a => match a with
    | ⟨0, _⟩ => rfl
    | ⟨1, _⟩ => rfl
    | ⟨2, _⟩ => rfl)

/-- Coefficient slice `k` of the `[8, 4, 512]` block reads plane `k`. -/
theorem coefficient_slice_at (k : Nat) (hk : k < 4) (h : S8x4x512.Slices ![0, k, 0] S8x1x512) (v : FVec Ideal S8x4x512 .f32)
    (i : Fin 8) (c : Fin 512) :
    extractStridedSlice S8x1x512 ![0, k, 0] v h (ix3 i 0 c) = v (ix3 i ⟨k, hk⟩ c) :=
  extractStridedSlice_apply _ v h (ix3 i 0 c) (ix3 i ⟨k, hk⟩ c) (fun a => match a with
    | ⟨0, _⟩ => by show i.val = 0 + i.val; omega
    | ⟨1, _⟩ => by show k = k + 0; omega
    | ⟨2, _⟩ => by show c.val = 0 + c.val; omega)

/-- Coefficient `k` as the body uses it: slice, then broadcast along the batch axis. -/
theorem coefficient_at (k : Nat) (hk : k < 4) (h : S8x4x512.Slices ![0, k, 0] S8x1x512) (x1 : FVec Ideal S8x4x512 .f32)
    (i : Fin 8) (b : Fin 256) (c : Fin 512) :
    broadcastTo S8x256x512 (extractStridedSlice S8x1x512 ![0, k, 0] x1 h)
        broadcasts_S8x1x512_S8x256x512 (ix3 i b c) = x1 (ix3 i ⟨k, hk⟩ c) :=
  (batch_broadcast_at _ i b c).trans (coefficient_slice_at k hk h x1 i c)

/-- The stored value at `(i, b, c)` of the block. -/
theorem payload_at (x0 : Vec Ideal S8x256x512 .f32) (x1 : Vec Ideal S8x4x512 .f32) (i : Fin 8) (b : Fin 256) (c : Fin 512) :
    k0_pay1 x0 x1 (ix3 i b c)
      = x1 (ix3 i 0 c) + x1 (ix3 i 1 c) * Ideal.tanh ((x0 (ix3 i b c) - x1 (ix3 i 2 c)) * x1 (ix3 i 3 c)) := by
  have e0 := coefficient_at 0 (by omega) slices_S8x4x512_o0_0_0_S8x1x512 x1 i b c
  have e1 := coefficient_at 1 (by omega) slices_S8x4x512_o0_1_0_S8x1x512 x1 i b c
  have e2 := coefficient_at 2 (by omega) slices_S8x4x512_o0_2_0_S8x1x512 x1 i b c
  have e3 := coefficient_at 3 (by omega) slices_S8x4x512_o0_3_0_S8x1x512 x1 i b c
  unfold k0_pay1
  simp only [addf_apply, mulf_apply, subf_apply, tanh_at, shapeCast_self]
  rw [e0, e1, e2, e3]
  rfl

theorem zeroOffsets : (![0, 0, 0] : Fin 3 → Nat) = fun _ => 0 := funext fun a => by fin_cases a <;> rfl

/-- What the body leaves in the output buffer, at an index of the block, from the two loaded blocks. -/
theorem stored_at (x0 : Vec Ideal S8x256x512 .f32) (x1 : Vec Ideal S8x4x512 .f32) (i : Fin 8) (b : Fin 256) (c : Fin 512) :
    stored x0 x1 (ix3 i b c)
      = x1 (ix3 i 0 c) + x1 (ix3 i 1 c) * Ideal.tanh ((x0 (ix3 i b c) - x1 (ix3 i 2 c)) * x1 (ix3 i 3 c)) := by
  unfold stored
  rw [View.canon_unit_zero zeroOffsets]
  simp only [View.ld_unit_zero (S := S8x256x512) zeroOffsets, View.ld_unit_zero (S := S8x4x512) zeroOffsets]
  exact payload_at x0 x1 i b c

/-! ## From the blocks to the array -/

variable (m : (ℓ : Loc nD τ sig) → Buf (Elt Ideal) ℓ)

/-- Block `t` of every window starts at row `8 t` of its array (block index `t` on the row axis, `0` on the others). -/
theorem block_rows : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- WHAT POINT `t` WRITES BACK is block `t` of `rows` of the two arrays as the region finds them. -/
theorem flushed_rows (c : Dev nD) (t : Fin cfg0.N) :
    (dats m 0 c).flushed 2 t
      = ((cfg0.win 2).blk t).view.read (Elt Ideal) (rows (entryAt m c main_v107) (entryAt m c main_v106)) := by
  show (cfg0.win 2).cut (grid0.coords t) ((dats m 0 c).after 2 t) = _
  rw [dats_after_2]
  obtain ⟨a0, a1, a2, b0, b1, b2, c0, c1, c2⟩ := block_rows t
  have hN : cfg0.N = 32 := N_0
  have ht : t.val < 32 := by have := t.isLt; omega
  funext j
  obtain ⟨i, b, cc, rfl⟩ : ∃ (i : Fin 8) (b : Fin 256) (cc : Fin 512), j = ix3 i b cc := ⟨j 0, j 1, j 2, eq_ix3 j⟩
  show stored (blockAt m c 0 t) (blockAt m c 1 t) (ix3 i b cc)
      = rows (entryAt m c main_v107) (entryAt m c main_v106) (((cfg0.win 2).blk t).view.emb (ix3 i b cc))
  refine (stored_at (blockAt m c 0 t) (blockAt m c 1 t) i b cc).trans ?_
  -- the row of the arrays this block row is
  have hi : i.val < 8 := i.isLt
  let R : Fin 256 := ⟨8 * t.val + i.val, by omega⟩
  have r1 : ∀ k : Fin 4, blockAt m c 1 t (ix3 i k cc) = entryAt m c main_v106 (ix3 R k cc) := fun k => by
    show entryAt m c main_v106 (((cfg0.win 1).blk t).view.emb (ix3 i k cc)) = _
    refine congrArg (entryAt m c main_v106) (funext fun a => Fin.ext ?_)
    match a with
    | ⟨0, _⟩ => show win0_1.index t (0 : Fin 3) * 8 + 1 * i.val = 8 * t.val + i.val; omega
    | ⟨1, _⟩ => show win0_1.index t (1 : Fin 3) * 4 + 1 * k.val = k.val; omega
    | ⟨2, _⟩ => show win0_1.index t (2 : Fin 3) * 512 + 1 * cc.val = cc.val; omega
  have r0 : blockAt m c 0 t (ix3 i b cc) = entryAt m c main_v107 (ix3 R b cc) := by
    show entryAt m c main_v107 (((cfg0.win 0).blk t).view.emb (ix3 i b cc)) = _
    refine congrArg (entryAt m c main_v107) (funext fun a => Fin.ext ?_)
    match a with
    | ⟨0, _⟩ => show win0_0.index t (0 : Fin 3) * 8 + 1 * i.val = 8 * t.val + i.val; omega
    | ⟨1, _⟩ => show win0_0.index t (1 : Fin 3) * 256 + 1 * b.val = b.val; omega
    | ⟨2, _⟩ => show win0_0.index t (2 : Fin 3) * 512 + 1 * cc.val = cc.val; omega
  have r2 : ((cfg0.win 2).blk t).view.emb (ix3 i b cc) = ix3 R b cc := by
    refine funext fun a => Fin.ext ?_
    match a with
    | ⟨0, _⟩ => show win0_2.index t (0 : Fin 3) * 8 + 1 * i.val = 8 * t.val + i.val; omega
    | ⟨1, _⟩ => show win0_2.index t (1 : Fin 3) * 256 + 1 * b.val = b.val; omega
    | ⟨2, _⟩ => show win0_2.index t (2 : Fin 3) * 512 + 1 * cc.val = cc.val; omega
  rw [r1 0, r1 1, r1 2, r1 3, r0, r2]
  rfl

/-- Every row of the result is in some point's block: row `r` in block `r / 8`. -/
theorem rows_covered (i : S256x256x512.Idx) :
    ∃ t : Fin cfg0.N, (cfg0.win 2).flush t = true ∧ i ∈ ((cfg0.win 2).blk t).view.set := by
  have hi0 : (i 0).val < 256 := (i 0).isLt
  have hi1 : (i 1).val < 256 := (i 1).isLt
  have hi2 : (i 2).val < 512 := (i 2).isLt
  have hN : cfg0.N = 32 := N_0
  let t : Fin cfg0.N := ⟨(i 0).val / 8, by omega⟩
  have ht : t.val = (i 0).val / 8 := rfl
  obtain ⟨-, -, -, -, -, -, c0, c1, c2⟩ := block_rows t
  refine ⟨t, flush0_2 t, ?_⟩
  show i ∈ ((View.whole main_v108).slice (win0_2.rect t)).set
  rw [View.set_slice_whole, Rect.mem_set_unit]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 256 ≤ (i 1).val ∧ (i 1).val < win0_2.index t (1 : Fin 3) * 256 + 256; omega
  | ⟨2, _⟩ => show win0_2.index t (2 : Fin 3) * 512 ≤ (i 2).val ∧ (i 2).val < win0_2.index t (2 : Fin 3) * 512 + 512; omega

/-- THE RESULT ARRAY after the region: `rows` of the two arrays as the region finds them. -/
theorem final_rows (c : Dev nD) :
    (dats m 0 c).arrAt 2 cfg0.N = rows (entryAt m c main_v107) (entryAt m c main_v106) :=
  (dats m 0 c).arrAt_eq_of_cover 2 (rows (entryAt m c main_v107) (entryAt m c main_v106))
    (fun t _ => flushed_rows m c t) rows_covered

end Cert.KernelIdeal.Region

end
-- ==== Proof.KernelIdealLine.lean ====
/-
  @main of `KernelIdeal` written as lists of its host operations, in program order, the two outlined functions
  (`relu`, `_where`) inlined at their calls over the calls' own buffers.

  `shared` is the part both programs of this certificate spell alike, operation for operation: the coefficient
  preprocessing up to `eta : [64, 4]` (`main_v87`) and the fault-table rows `fault : [4, 512, 4]` gathered by the mask
  (`main_v98`). `own` is what this program does with them afterwards.
-/
import proofs.«109087_j41085657153638_2_alg».proof.Proof.Gen.KernelIdeal
import Idealize.ShloMosaic.Lib.StableHlo.Run

set_option maxRecDepth 4096

noncomputable section

namespace Cert.KernelIdeal.Line

open Idealize.ShloMosaic Idealize.ShloMosaic.TcCoe Idealize.SL.Sem
open Cert.KernelIdeal Cert.KernelIdeal.Facts₀

variable {F : FTy → Type} [FloatOps F]

set_option maxHeartbeats 40000000 in
/-- The 115 operations up to `eta` and `fault`. -/
abbrev shared : List (HloOp τ sig (Elt F)) :=
  ( StableHlo.nullary main_cst (fun i => FloatOps.ofBits .f32 (lit0 (S12x4.rowMajor i)))
  :: StableHlo.unary main_arg1 main_v0 (Host.negf : (⟨S6, .f32⟩ : BufTy).Contents (Elt F) → (⟨S6, .f32⟩ : BufTy).Contents (Elt F))
  :: StableHlo.unary main_v0 main_v1 (Host.exp : (⟨S6, .f32⟩ : BufTy).Contents (Elt F) → (⟨S6, .f32⟩ : BufTy).Contents (Elt F))
  :: StableHlo.nullary main_cst_0 (constant S_ .f32 0x3F800000#32)
  :: StableHlo.unary main_cst_0 main_v2 (broadcastInDim S6 ![] bcast_S_S6 : (⟨S_, .f32⟩ : BufTy).Contents (Elt F) → (⟨S6, .f32⟩ : BufTy).Contents (Elt F))
  :: StableHlo.binary main_v2 main_v1 main_v3 (addf : (⟨S6, .f32⟩ : BufTy).Contents (Elt F) → (⟨S6, .f32⟩ : BufTy).Contents (Elt F) → (⟨S6, .f32⟩ : BufTy).Contents (Elt F))
  :: StableHlo.nullary main_cst_1 (constant S_ .f32 0x3F800000#32)
  :: StableHlo.unary main_cst_1 main_v4 (broadcastInDim S6 ![] bcast_S_S6 : (⟨S_, .f32⟩ : BufTy).Contents (Elt F) → (⟨S6, .f32⟩ : BufTy).Contents (Elt F))
  :: StableHlo.binary main_v4 main_v3 main_v5 (Host.divf : (⟨S6, .f32⟩ : BufTy).Contents (Elt F) → (⟨S6, .f32⟩ : BufTy).Contents (Elt F) → (⟨S6, .f32⟩ : BufTy).Contents (Elt F))
  :: StableHlo.nullary main_cst_2 (constant S_ .f32 0x00000000#32)
  :: StableHlo.unary main_cst_2 main_v6 (broadcastInDim S3 ![] bcast_S_S3 : (⟨S_, .f32⟩ : BufTy).Contents (Elt F) → (⟨S3, .f32⟩ : BufTy).Contents (Elt F))
  :: StableHlo.binary main_v5 main_v6 main_v7 ((fun a b => concatenate S9 0 [⟨S6, a⟩, ⟨S3, b⟩] concatenates_S6_S3_S9_d0) : (⟨S6, .f32⟩ : BufTy).Contents (Elt F) → (⟨S3, .f32⟩ : BufTy).Contents (Elt F) → (⟨S9, .f32⟩ : BufTy).Contents (Elt F))
  :: StableHlo.binary main_arg3 main_arg4 main_v8 (subf : (⟨S9, .f32⟩ : BufTy).Contents (Elt F) → (⟨S9, .f32⟩ : BufTy).Contents (Elt F) → (⟨S9, .f32⟩ : BufTy).Contents (Elt F))
  :: StableHlo.binary main_v7 main_v8 main_v9 (mulf : (⟨S9, .f32⟩ : BufTy).Contents (Elt F) → (⟨S9, .f32⟩ : BufTy).Contents (Elt F) → (⟨S9, .f32⟩ : BufTy).Contents (Elt F))
  :: StableHlo.binary main_v9 main_arg4 main_v10 (addf : (⟨S9, .f32⟩ : BufTy).Contents (Elt F) → (⟨S9, .f32⟩ : BufTy).Contents (Elt F) → (⟨S9, .f32⟩ : BufTy).Contents (Elt F))
  :: StableHlo.nullary main_cst_3 (constant S_ .f32 0x40000000#32)
  :: StableHlo.unary main_cst_3 main_v11 (broadcastInDim S64x9 ![] bcast_S_S64x9 : (⟨S_, .f32⟩ : BufTy).Contents (Elt F) → (⟨S64x9, .f32⟩ : BufTy).Contents (Elt F))
  :: StableHlo.binary main_arg2 main_v11 main_v12 (mulf : (⟨S64x9, .f32⟩ : BufTy).Contents (Elt F) → (⟨S64x9, .f32⟩ : BufTy).Contents (Elt F) → (⟨S64x9, .f32⟩ : BufTy).Contents (Elt F))
  :: StableHlo.nullary main_cst_4 (constant S_ .f32 0x3F800000#32)
  :: StableHlo.unary main_cst_4 main_v13 (broadcastInDim S64x9 ![] bcast_S_S64x9 : (⟨S_, .f32⟩ : BufTy).Contents (Elt F) → (⟨S64x9, .f32⟩ : BufTy).Contents (Elt F))
  :: StableHlo.binary main_v12 main_v13 main_v14 (subf : (⟨S64x9, .f32⟩ : BufTy).Contents (Elt F) → (⟨S64x9, .f32⟩ : BufTy).Contents (Elt F) → (⟨S64x9, .f32⟩ : BufTy).Contents (Elt F))
  :: StableHlo.nullary main_cst_5 (constant S_ .f32 0x3DCCCCCD#32)
  :: StableHlo.unary main_cst_5 main_v15 (broadcastInDim S64x9 ![] bcast_S_S64x9 : (⟨S_, .f32⟩ : BufTy).Contents (Elt F) → (⟨S64x9, .f32⟩ : BufTy).Contents (Elt F))
  :: StableHlo.binary main_v14 main_v15 main_v16 (mulf : (⟨S64x9, .f32⟩ : BufTy).Contents (Elt F) → (⟨S64x9, .f32⟩ : BufTy).Contents (Elt F) → (⟨S64x9, .f32⟩ : BufTy).Contents (Elt F))
  :: StableHlo.nullary main_cst_6 (constant S_ .f32 0x3F800000#32)
  :: StableHlo.unary main_cst_6 main_v17 (broadcastInDim S64x9 ![] bcast_S_S64x9 : (⟨S_, .f32⟩ : BufTy).Contents (Elt F) → (⟨S64x9, .f32⟩ : BufTy).Contents (Elt F))
  :: StableHlo.binary main_v16 main_v17 main_v18 (addf : (⟨S64x9, .f32⟩ : BufTy).Contents (Elt F) → (⟨S64x9, .f32⟩ : BufTy).Contents (Elt F) → (⟨S64x9, .f32⟩ : BufTy).Contents (Elt F))
  :: StableHlo.unary main_v10 main_v19 (broadcastInDim S1x9 ![1] bcast_S9_S1x9_1 : (⟨S9, .f32⟩ : BufTy).Contents (Elt F) → (⟨S1x9, .f32⟩ : BufTy).Contents (Elt F))
  :: StableHlo.unary main_v19 main_v20 (broadcastInDim S64x9 ![0, 1] bcast_S1x9_S64x9_0_1 : (⟨S1x9, .f32⟩ : BufTy).Contents (Elt F) → (⟨S64x9, .f32⟩ : BufTy).Contents (Elt F))
  :: StableHlo.binary main_v20 main_v18 main_v21 (mulf : (⟨S64x9, .f32⟩ : BufTy).Contents (Elt F) → (⟨S64x9, .f32⟩ : BufTy).Contents (Elt F) → (⟨S64x9, .f32⟩ : BufTy).Contents (Elt F))
  :: StableHlo.unary main_v21 main_v22 ((extractStridedSlice S64x1 ![0, 0] · slices_S64x9_S64x1_0_0) : (⟨S64x9, .f32⟩ : BufTy).Contents (Elt F) → (⟨S64x1, .f32⟩ : BufTy).Contents (Elt F))
  :: StableHlo.reshape main_v22 main_v23 rfl shapeCasts_S64x1_S64
  :: StableHlo.unary main_v21 main_v24 ((extractStridedSlice S64x1 ![0, 1] · slices_S64x9_S64x1_0_1) : (⟨S64x9, .f32⟩ : BufTy).Contents (Elt F) → (⟨S64x1, .f32⟩ : BufTy).Contents (Elt F))
  :: StableHlo.reshape main_v24 main_v25 rfl shapeCasts_S64x1_S64
  :: StableHlo.unary main_v21 main_v26 ((extractStridedSlice S64x1 ![0, 2] · slices_S64x9_S64x1_0_2) : (⟨S64x9, .f32⟩ : BufTy).Contents (Elt F) → (⟨S64x1, .f32⟩ : BufTy).Contents (Elt F))
  :: StableHlo.reshape main_v26 main_v27 rfl shapeCasts_S64x1_S64
  :: StableHlo.unary main_v21 main_v28 ((extractStridedSlice S64x1 ![0, 3] · slices_S64x9_S64x1_0_3) : (⟨S64x9, .f32⟩ : BufTy).Contents (Elt F) → (⟨S64x1, .f32⟩ : BufTy).Contents (Elt F))
  :: StableHlo.reshape main_v28 main_v29 rfl shapeCasts_S64x1_S64
  :: StableHlo.unary main_v21 main_v30 ((extractStridedSlice S64x1 ![0, 4] · slices_S64x9_S64x1_0_4) : (⟨S64x9, .f32⟩ : BufTy).Contents (Elt F) → (⟨S64x1, .f32⟩ : BufTy).Contents (Elt F))
  :: StableHlo.reshape main_v30 main_v31 rfl shapeCasts_S64x1_S64
  :: StableHlo.unary main_v21 main_v32 ((extractStridedSlice S64x1 ![0, 5] · slices_S64x9_S64x1_0_5) : (⟨S64x9, .f32⟩ : BufTy).Contents (Elt F) → (⟨S64x1, .f32⟩ : BufTy).Contents (Elt F))
  :: StableHlo.reshape main_v32 main_v33 rfl shapeCasts_S64x1_S64
  :: StableHlo.unary main_v21 main_v34 ((extractStridedSlice S64x1 ![0, 1] · slices_S64x9_S64x1_0_1) : (⟨S64x9, .f32⟩ : BufTy).Contents (Elt F) → (⟨S64x1, .f32⟩ : BufTy).Contents (Elt F))
  :: StableHlo.reshape main_v34 main_v35 rfl shapeCasts_S64x1_S64
  :: StableHlo.unary main_v21 main_v36 ((extractStridedSlice S64x1 ![0, 0] · slices_S64x9_S64x1_0_0) : (⟨S64x9, .f32⟩ : BufTy).Contents (Elt F) → (⟨S64x1, .f32⟩ : BufTy).Contents (Elt F))
  :: StableHlo.reshape main_v36 main_v37 rfl shapeCasts_S64x1_S64
  :: StableHlo.binary main_v35 main_v37 main_v38 (Host.divf : (⟨S64, .f32⟩ : BufTy).Contents (Elt F) → (⟨S64, .f32⟩ : BufTy).Contents (Elt F) → (⟨S64, .f32⟩ : BufTy).Contents (Elt F))
  :: StableHlo.unary main_v21 main_v39 ((extractStridedSlice S64x1 ![0, 3] · slices_S64x9_S64x1_0_3) : (⟨S64x9, .f32⟩ : BufTy).Contents (Elt F) → (⟨S64x1, .f32⟩ : BufTy).Contents (Elt F))
  :: StableHlo.reshape main_v39 main_v40 rfl shapeCasts_S64x1_S64
  :: StableHlo.unary main_v21 main_v41 ((extractStridedSlice S64x1 ![0, 2] · slices_S64x9_S64x1_0_2) : (⟨S64x9, .f32⟩ : BufTy).Contents (Elt F) → (⟨S64x1, .f32⟩ : BufTy).Contents (Elt F))
  :: StableHlo.reshape main_v41 main_v42 rfl shapeCasts_S64x1_S64
  :: StableHlo.binary main_v40 main_v42 main_v43 (Host.divf : (⟨S64, .f32⟩ : BufTy).Contents (Elt F) → (⟨S64, .f32⟩ : BufTy).Contents (Elt F) → (⟨S64, .f32⟩ : BufTy).Contents (Elt F))
  :: StableHlo.unary main_v21 main_v44 ((extractStridedSlice S64x1 ![0, 5] · slices_S64x9_S64x1_0_5) : (⟨S64x9, .f32⟩ : BufTy).Contents (Elt F) → (⟨S64x1, .f32⟩ : BufTy).Contents (Elt F))
  :: StableHlo.reshape main_v44 main_v45 rfl shapeCasts_S64x1_S64
  :: StableHlo.unary main_v21 main_v46 ((extractStridedSlice S64x1 ![0, 4] · slices_S64x9_S64x1_0_4) : (⟨S64x9, .f32⟩ : BufTy).Contents (Elt F) → (⟨S64x1, .f32⟩ : BufTy).Contents (Elt F))
  :: StableHlo.reshape main_v46 main_v47 rfl shapeCasts_S64x1_S64
  :: StableHlo.binary main_v45 main_v47 main_v48 (Host.divf : (⟨S64, .f32⟩ : BufTy).Contents (Elt F) → (⟨S64, .f32⟩ : BufTy).Contents (Elt F) → (⟨S64, .f32⟩ : BufTy).Contents (Elt F))
  :: StableHlo.unary main_v23 main_v49 (broadcastInDim S64x1 ![0] bcast_S64_S64x1_0 : (⟨S64, .f32⟩ : BufTy).Contents (Elt F) → (⟨S64x1, .f32⟩ : BufTy).Contents (Elt F))
  :: StableHlo.unary main_v25 main_v50 (broadcastInDim S64x1 ![0] bcast_S64_S64x1_0 : (⟨S64, .f32⟩ : BufTy).Contents (Elt F) → (⟨S64x1, .f32⟩ : BufTy).Contents (Elt F))
  :: StableHlo.unary main_v27 main_v51 (broadcastInDim S64x1 ![0] bcast_S64_S64x1_0 : (⟨S64, .f32⟩ : BufTy).Contents (Elt F) → (⟨S64x1, .f32⟩ : BufTy).Contents (Elt F))
  :: StableHlo.unary main_v29 main_v52 (broadcastInDim S64x1 ![0] bcast_S64_S64x1_0 : (⟨S64, .f32⟩ : BufTy).Contents (Elt F) → (⟨S64x1, .f32⟩ : BufTy).Contents (Elt F))
  :: StableHlo.unary main_v31 main_v53 (broadcastInDim S64x1 ![0] bcast_S64_S64x1_0 : (⟨S64, .f32⟩ : BufTy).Contents (Elt F) → (⟨S64x1, .f32⟩ : BufTy).Contents (Elt F))
  :: StableHlo.unary main_v33 main_v54 (broadcastInDim S64x1 ![0] bcast_S64_S64x1_0 : (⟨S64, .f32⟩ : BufTy).Contents (Elt F) → (⟨S64x1, .f32⟩ : BufTy).Contents (Elt F))
  :: StableHlo.unary main_v38 main_v55 (broadcastInDim S64x1 ![0] bcast_S64_S64x1_0 : (⟨S64, .f32⟩ : BufTy).Contents (Elt F) → (⟨S64x1, .f32⟩ : BufTy).Contents (Elt F))
  :: StableHlo.unary main_v43 main_v56 (broadcastInDim S64x1 ![0] bcast_S64_S64x1_0 : (⟨S64, .f32⟩ : BufTy).Contents (Elt F) → (⟨S64x1, .f32⟩ : BufTy).Contents (Elt F))
  :: StableHlo.unary main_v48 main_v57 (broadcastInDim S64x1 ![0] bcast_S64_S64x1_0 : (⟨S64, .f32⟩ : BufTy).Contents (Elt F) → (⟨S64x1, .f32⟩ : BufTy).Contents (Elt F))
  :: StableHlo.nary ![main_v49, main_v50, main_v51, main_v52, main_v53, main_v54, main_v55, main_v56, main_v57] main_v58 (fun u => concatenate S64x9 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩] concatenates_S64x1_S64x1_S64x1_S64x1_S64x1_S64x1_S64x1_S64x1_S64x1_S64x9_d1)
  :: StableHlo.unary main_arg4 main_v59 (broadcastInDim S1x9 ![1] bcast_S9_S1x9_1 : (⟨S9, .f32⟩ : BufTy).Contents (Elt F) → (⟨S1x9, .f32⟩ : BufTy).Contents (Elt F))
  :: StableHlo.unary main_v59 main_v60 (broadcastInDim S64x9 ![0, 1] bcast_S1x9_S64x9_0_1 : (⟨S1x9, .f32⟩ : BufTy).Contents (Elt F) → (⟨S64x9, .f32⟩ : BufTy).Contents (Elt F))
  :: StableHlo.binary main_v58 main_v60 main_v61 (subf : (⟨S64x9, .f32⟩ : BufTy).Contents (Elt F) → (⟨S64x9, .f32⟩ : BufTy).Contents (Elt F) → (⟨S64x9, .f32⟩ : BufTy).Contents (Elt F))
  :: StableHlo.binary main_arg3 main_arg4 main_v62 (subf : (⟨S9, .f32⟩ : BufTy).Contents (Elt F) → (⟨S9, .f32⟩ : BufTy).Contents (Elt F) → (⟨S9, .f32⟩ : BufTy).Contents (Elt F))
  :: StableHlo.unary main_v62 main_v63 (broadcastInDim S1x9 ![1] bcast_S9_S1x9_1 : (⟨S9, .f32⟩ : BufTy).Contents (Elt F) → (⟨S1x9, .f32⟩ : BufTy).Contents (Elt F))
  :: StableHlo.unary main_v63 main_v64 (broadcastInDim S64x9 ![0, 1] bcast_S1x9_S64x9_0_1 : (⟨S1x9, .f32⟩ : BufTy).Contents (Elt F) → (⟨S64x9, .f32⟩ : BufTy).Contents (Elt F))
  :: StableHlo.binary main_v61 main_v64 main_v65 (Host.divf : (⟨S64x9, .f32⟩ : BufTy).Contents (Elt F) → (⟨S64x9, .f32⟩ : BufTy).Contents (Elt F) → (⟨S64x9, .f32⟩ : BufTy).Contents (Elt F))
  :: StableHlo.binary main_v65 main_arg7 main_v66 ((fun l r => Host.dotGeneral dot_S64x9_S9x64_S64x64_1_0_0_1_n_n none l r) : (⟨S64x9, .f32⟩ : BufTy).Contents (Elt F) → (⟨S9x64, .f32⟩ : BufTy).Contents (Elt F) → (⟨S64x64, .f32⟩ : BufTy).Contents (Elt F))
  :: StableHlo.unary main_arg8 main_v67 (broadcastInDim S1x64 ![1] bcast_S64_S1x64_1 : (⟨S64, .f32⟩ : BufTy).Contents (Elt F) → (⟨S1x64, .f32⟩ : BufTy).Contents (Elt F))
  :: StableHlo.unary main_v67 main_v68 (broadcastInDim S64x64 ![0, 1] bcast_S1x64_S64x64_0_1 : (⟨S1x64, .f32⟩ : BufTy).Contents (Elt F) → (⟨S64x64, .f32⟩ : BufTy).Contents (Elt F))
  :: StableHlo.binary main_v66 main_v68 main_v69 (addf : (⟨S64x64, .f32⟩ : BufTy).Contents (Elt F) → (⟨S64x64, .f32⟩ : BufTy).Contents (Elt F) → (⟨S64x64, .f32⟩ : BufTy).Contents (Elt F))
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S64x64, .f32⟩) (broadcastInDim S64x64 ![] bcast_S_S64x64)
  :: StableHlo.TRef.binary (.of main_v69 : StableHlo.TRef sig ⟨S64x64, .f32⟩) (.of main_call0_v0 : StableHlo.TRef sig ⟨S64x64, .f32⟩) (.of main_v70 : StableHlo.TRef sig ⟨S64x64, .f32⟩) maximumf
  :: StableHlo.binary main_v70 main_arg9 main_v71 ((fun l r => Host.dotGeneral dot_S64x64_S64x4_S64x4_1_0_0_1_n_n none l r) : (⟨S64x64, .f32⟩ : BufTy).Contents (Elt F) → (⟨S64x4, .f32⟩ : BufTy).Contents (Elt F) → (⟨S64x4, .f32⟩ : BufTy).Contents (Elt F))
  :: StableHlo.unary main_arg10 main_v72 (broadcastInDim S1x4 ![1] bcast_S4_S1x4_1 : (⟨S4, .f32⟩ : BufTy).Contents (Elt F) → (⟨S1x4, .f32⟩ : BufTy).Contents (Elt F))
  :: StableHlo.unary main_v72 main_v73 (broadcastInDim S64x4 ![0, 1] bcast_S1x4_S64x4_0_1 : (⟨S1x4, .f32⟩ : BufTy).Contents (Elt F) → (⟨S64x4, .f32⟩ : BufTy).Contents (Elt F))
  :: StableHlo.binary main_v71 main_v73 main_v74 (addf : (⟨S64x4, .f32⟩ : BufTy).Contents (Elt F) → (⟨S64x4, .f32⟩ : BufTy).Contents (Elt F) → (⟨S64x4, .f32⟩ : BufTy).Contents (Elt F))
  :: StableHlo.unary main_v74 main_v75 (Host.negf : (⟨S64x4, .f32⟩ : BufTy).Contents (Elt F) → (⟨S64x4, .f32⟩ : BufTy).Contents (Elt F))
  :: StableHlo.unary main_v75 main_v76 (Host.exp : (⟨S64x4, .f32⟩ : BufTy).Contents (Elt F) → (⟨S64x4, .f32⟩ : BufTy).Contents (Elt F))
  :: StableHlo.nullary main_cst_7 (constant S_ .f32 0x3F800000#32)
  :: StableHlo.unary main_cst_7 main_v77 (broadcastInDim S64x4 ![] bcast_S_S64x4 : (⟨S_, .f32⟩ : BufTy).Contents (Elt F) → (⟨S64x4, .f32⟩ : BufTy).Contents (Elt F))
  :: StableHlo.binary main_v77 main_v76 main_v78 (addf : (⟨S64x4, .f32⟩ : BufTy).Contents (Elt F) → (⟨S64x4, .f32⟩ : BufTy).Contents (Elt F) → (⟨S64x4, .f32⟩ : BufTy).Contents (Elt F))
  :: StableHlo.nullary main_cst_8 (constant S_ .f32 0x3F800000#32)
  :: StableHlo.unary main_cst_8 main_v79 (broadcastInDim S64x4 ![] bcast_S_S64x4 : (⟨S_, .f32⟩ : BufTy).Contents (Elt F) → (⟨S64x4, .f32⟩ : BufTy).Contents (Elt F))
  :: StableHlo.binary main_v79 main_v78 main_v80 (Host.divf : (⟨S64x4, .f32⟩ : BufTy).Contents (Elt F) → (⟨S64x4, .f32⟩ : BufTy).Contents (Elt F) → (⟨S64x4, .f32⟩ : BufTy).Contents (Elt F))
  :: StableHlo.binary main_arg5 main_arg6 main_v81 (subf : (⟨S4, .f32⟩ : BufTy).Contents (Elt F) → (⟨S4, .f32⟩ : BufTy).Contents (Elt F) → (⟨S4, .f32⟩ : BufTy).Contents (Elt F))
  :: StableHlo.unary main_v81 main_v82 (broadcastInDim S1x4 ![1] bcast_S4_S1x4_1 : (⟨S4, .f32⟩ : BufTy).Contents (Elt F) → (⟨S1x4, .f32⟩ : BufTy).Contents (Elt F))
  :: StableHlo.unary main_v82 main_v83 (broadcastInDim S64x4 ![0, 1] bcast_S1x4_S64x4_0_1 : (⟨S1x4, .f32⟩ : BufTy).Contents (Elt F) → (⟨S64x4, .f32⟩ : BufTy).Contents (Elt F))
  :: StableHlo.binary main_v80 main_v83 main_v84 (mulf : (⟨S64x4, .f32⟩ : BufTy).Contents (Elt F) → (⟨S64x4, .f32⟩ : BufTy).Contents (Elt F) → (⟨S64x4, .f32⟩ : BufTy).Contents (Elt F))
  :: StableHlo.unary main_arg6 main_v85 (broadcastInDim S1x4 ![1] bcast_S4_S1x4_1 : (⟨S4, .f32⟩ : BufTy).Contents (Elt F) → (⟨S1x4, .f32⟩ : BufTy).Contents (Elt F))
  :: StableHlo.unary main_v85 main_v86 (broadcastInDim S64x4 ![0, 1] bcast_S1x4_S64x4_0_1 : (⟨S1x4, .f32⟩ : BufTy).Contents (Elt F) → (⟨S64x4, .f32⟩ : BufTy).Contents (Elt F))
  :: StableHlo.binary main_v84 main_v86 main_v87 (addf : (⟨S64x4, .f32⟩ : BufTy).Contents (Elt F) → (⟨S64x4, .f32⟩ : BufTy).Contents (Elt F) → (⟨S64x4, .f32⟩ : BufTy).Contents (Elt F))
  :: StableHlo.nullary main_c (constantI S_ 32 1#32)
  :: StableHlo.unary main_c main_v88 (broadcastInDim S4x512 ![] bcast_S_S4x512 : (⟨S_, .i32⟩ : BufTy).Contents (Elt F) → (⟨S4x512, .i32⟩ : BufTy).Contents (Elt F))
  :: StableHlo.binary main_arg11 main_v88 main_v89 (subi : (⟨S4x512, .i32⟩ : BufTy).Contents (Elt F) → (⟨S4x512, .i32⟩ : BufTy).Contents (Elt F) → (⟨S4x512, .i32⟩ : BufTy).Contents (Elt F))
  :: StableHlo.nullary main_c_9 (constantI S_ 32 0#32)
  :: StableHlo.unary main_c_9 main_v90 (broadcastInDim S4x512 ![] bcast_S_S4x512 : (⟨S_, .i32⟩ : BufTy).Contents (Elt F) → (⟨S4x512, .i32⟩ : BufTy).Contents (Elt F))
  :: StableHlo.binary main_v89 main_v90 main_v91 (maxsi : (⟨S4x512, .i32⟩ : BufTy).Contents (Elt F) → (⟨S4x512, .i32⟩ : BufTy).Contents (Elt F) → (⟨S4x512, .i32⟩ : BufTy).Contents (Elt F))
  :: StableHlo.nullary main_c_10 (constantI S_ 32 0#32)
  :: StableHlo.unary main_c_10 main_v92 (broadcastInDim S4x512 ![] bcast_S_S4x512 : (⟨S_, .i32⟩ : BufTy).Contents (Elt F) → (⟨S4x512, .i32⟩ : BufTy).Contents (Elt F))
  :: StableHlo.binary main_v91 main_v92 main_v93 (cmpi .slt : (⟨S4x512, .i32⟩ : BufTy).Contents (Elt F) → (⟨S4x512, .i32⟩ : BufTy).Contents (Elt F) → (⟨S4x512, .i1⟩ : BufTy).Contents (Elt F))
  :: StableHlo.nullary main_c_11 (constantI S_ 32 12#32)
  :: StableHlo.unary main_c_11 main_v94 (broadcastInDim S4x512 ![] bcast_S_S4x512 : (⟨S_, .i32⟩ : BufTy).Contents (Elt F) → (⟨S4x512, .i32⟩ : BufTy).Contents (Elt F))
  :: StableHlo.binary main_v91 main_v94 main_v95 (addi : (⟨S4x512, .i32⟩ : BufTy).Contents (Elt F) → (⟨S4x512, .i32⟩ : BufTy).Contents (Elt F) → (⟨S4x512, .i32⟩ : BufTy).Contents (Elt F))
  :: StableHlo.ternary main_v93 main_v95 main_v91 main_v96 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F))
  :: StableHlo.unary main_v96 main_v97 (broadcastInDim S4x512x1 ![0, 1] bcast_S4x512_S4x512x1_0_1 : (⟨S4x512, .i32⟩ : BufTy).Contents (Elt F) → (⟨S4x512x1, .i32⟩ : BufTy).Contents (Elt F))
  :: StableHlo.binary main_cst main_v97 main_v98 ((fun x i => Host.gather gather_S12x4_S4x512x1_S4x512x4_2_0_n_n_0_2_14 x i) : (⟨S12x4, .f32⟩ : BufTy).Contents (Elt F) → (⟨S4x512x1, .i32⟩ : BufTy).Contents (Elt F) → (⟨S4x512x4, .f32⟩ : BufTy).Contents (Elt F))
  :: [] )

set_option maxHeartbeats 40000000 in
/-- The 14 operations after them and before the region. -/
abbrev own : List (HloOp τ sig (Elt F)) :=
  ( StableHlo.unary main_v98 main_v99 ((transpose S4x4x512 [0, 2, 1] · transposes_S4x512x4_S4x4x512_0_2_1) : (⟨S4x512x4, .f32⟩ : BufTy).Contents (Elt F) → (⟨S4x4x512, .f32⟩ : BufTy).Contents (Elt F))
  :: StableHlo.nullary main_c_12 (constantI S_ 32 0#32)
  :: StableHlo.unary main_c_12 main_v100 (broadcastInDim S4x512 ![] bcast_S_S4x512 : (⟨S_, .i32⟩ : BufTy).Contents (Elt F) → (⟨S4x512, .i32⟩ : BufTy).Contents (Elt F))
  :: StableHlo.binary main_arg11 main_v100 main_v101 (cmpi .eq : (⟨S4x512, .i32⟩ : BufTy).Contents (Elt F) → (⟨S4x512, .i32⟩ : BufTy).Contents (Elt F) → (⟨S4x512, .i1⟩ : BufTy).Contents (Elt F))
  :: StableHlo.unary main_v87 main_v102 (broadcastInDim S1x64x4x1 ![1, 2] bcast_S64x4_S1x64x4x1_1_2 : (⟨S64x4, .f32⟩ : BufTy).Contents (Elt F) → (⟨S1x64x4x1, .f32⟩ : BufTy).Contents (Elt F))
  :: StableHlo.unary main_v99 main_v103 (broadcastInDim S4x1x4x512 ![0, 2, 3] bcast_S4x4x512_S4x1x4x512_0_2_3 : (⟨S4x4x512, .f32⟩ : BufTy).Contents (Elt F) → (⟨S4x1x4x512, .f32⟩ : BufTy).Contents (Elt F))
  :: StableHlo.unary main_v101 main_v104 (broadcastInDim S4x1x1x512 ![0, 3] bcast_S4x512_S4x1x1x512_0_3 : (⟨S4x512, .i1⟩ : BufTy).Contents (Elt F) → (⟨S4x1x1x512, .i1⟩ : BufTy).Contents (Elt F))
  :: StableHlo.TRef.unary (.of main_v104 : StableHlo.TRef sig ⟨S4x1x1x512, .i1⟩) (.of main_call1_v0 : StableHlo.TRef sig ⟨S4x64x4x512, .i1⟩) (broadcastInDim S4x64x4x512 ![0, 1, 2, 3] bcast_S4x1x1x512_S4x64x4x512_0_1_2_3)
  :: StableHlo.TRef.unary (.of main_v102 : StableHlo.TRef sig ⟨S1x64x4x1, .f32⟩) (.of main_call1_v1 : StableHlo.TRef sig ⟨S4x64x4x512, .f32⟩) (broadcastInDim S4x64x4x512 ![0, 1, 2, 3] bcast_S1x64x4x1_S4x64x4x512_0_1_2_3)
  :: StableHlo.TRef.unary (.of main_v103 : StableHlo.TRef sig ⟨S4x1x4x512, .f32⟩) (.of main_call1_v2 : StableHlo.TRef sig ⟨S4x64x4x512, .f32⟩) (broadcastInDim S4x64x4x512 ![0, 1, 2, 3] bcast_S4x1x4x512_S4x64x4x512_0_1_2_3)
  :: StableHlo.TRef.ternary (.of main_call1_v0 : StableHlo.TRef sig ⟨S4x64x4x512, .i1⟩) (.of main_call1_v1 : StableHlo.TRef sig ⟨S4x64x4x512, .f32⟩) (.of main_call1_v2 : StableHlo.TRef sig ⟨S4x64x4x512, .f32⟩) (.of main_v105 : StableHlo.TRef sig ⟨S4x64x4x512, .f32⟩) select
  :: StableHlo.reshape main_v105 main_v106 rfl shapeCasts_S4x64x4x512_S256x4x512
  :: StableHlo.reshape main_arg0 main_v107 rfl shapeCasts_S4x64x256x512_S256x256x512
  :: StableHlo.unary main_v107 main_v108 id
  :: [] )

end Cert.KernelIdeal.Line

end
-- ==== Proof.AffineTanh.lean ====
/-
  What both programs compute, as one function of four arrays, index by index.

  `z : [4, 64, 256, 512]` is the streamed input; `healthy : [4, 512]` flags the channels of each mask row whose mask
  word is 0; `eta : [64, 4]` holds the four affine coefficients of each of the 64 variation samples; `fault : [4, 512, 4]`
  holds, for each mask row and channel, the four coefficients of its fault-table row.

  At mask row `m`, sample `n`, channel `c` the coefficient `k` in force is `eta n k` on a healthy channel and
  `fault m c k` otherwise (`coeff`), and the output at `(m, n, b, c)` is
      e₀ + e₁ · tanh ((z m n b c − e₂) · e₃)
  over the extended reals (`valueAt`), the four `e` not depending on the batch position `b`.
-/
import Idealize.ShloMosaic.PureOps.Ideal
import Idealize.ShloMosaic.Lib.ValueIdx

noncomputable section

namespace Cert.AffineTanh

open Idealize.ShloMosaic Idealize.ShloMosaic.ValueIdx

abbrev ZShape : Shape := ⟨4, ![4, 64, 256, 512]⟩
abbrev MaskShape : Shape := ⟨2, ![4, 512]⟩
abbrev EtaShape : Shape := ⟨2, ![64, 4]⟩
abbrev FaultShape : Shape := ⟨3, ![4, 512, 4]⟩

/-- Coefficient `k` in force at mask row `m`, sample `n`, channel `c`. -/
def coeff (healthy : IVec MaskShape 1) (eta : FVec Ideal EtaShape .f32) (fault : FVec Ideal FaultShape .f32)
    (m : Fin 4) (n : Fin 64) (c : Fin 512) (k : Fin 4) : Ideal .f32 :=
  Scalar.select (healthy (ix2 m c)) (eta (ix2 n k)) (fault (ix3 m c k))

/-- The output at `(m, n, b, c)`. -/
def valueAt (z : FVec Ideal ZShape .f32) (healthy : IVec MaskShape 1) (eta : FVec Ideal EtaShape .f32)
    (fault : FVec Ideal FaultShape .f32) (m : Fin 4) (n : Fin 64) (b : Fin 256) (c : Fin 512) : Ideal .f32 :=
  coeff healthy eta fault m n c 0
    + coeff healthy eta fault m n c 1
      * Ideal.tanh ((z (ix4 m n b c) - coeff healthy eta fault m n c 2) * coeff healthy eta fault m n c 3)

/-- The whole output array. -/
def value (z : FVec Ideal ZShape .f32) (healthy : IVec MaskShape 1) (eta : FVec Ideal EtaShape .f32)
    (fault : FVec Ideal FaultShape .f32) : FVec Ideal ZShape .f32 :=
  fun j => valueAt z healthy eta fault (j 0) (j 1) (j 2) (j 3)

theorem value_apply (z : FVec Ideal ZShape .f32) (healthy : IVec MaskShape 1) (eta : FVec Ideal EtaShape .f32)
    (fault : FVec Ideal FaultShape .f32) (m : Fin 4) (n : Fin 64) (b : Fin 256) (c : Fin 512) :
    value z healthy eta fault (ix4 m n b c) = valueAt z healthy eta fault m n b c := rfl

end Cert.AffineTanh

end
-- ==== Proof.KernelCoefficients.lean ====
/-
  The two arrays the region reads, as the host line leaves them, read at an index.

  After the shared part of the line (`eta : [64, 4]`, `fault : [4, 512, 4]`) the kernel's program transposes the fault rows to
  `[4, 4, 512]`, flags the healthy channels (mask word 0), broadcasts the three to `[4, 64, 4, 512]`, selects, and reshapes
  the selection to the packed coefficients `e_all : [256, 4, 512]`; it reshapes `z` to `[256, 256, 512]`. Row `64 m + n` of
  either array is mask row `m`, sample `n`:
      e_all (64 m + n) k c = coeff m n c k,      z2 (64 m + n) b c = z m n b c.
-/
import proofs.«109087_j41085657153638_2_alg».proof.Proof.KernelIdealLine
import proofs.«109087_j41085657153638_2_alg».proof.Proof.AffineTanh
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.Line

open Idealize.ShloMosaic Idealize.ShloMosaic.TcCoe Idealize.ShloMosaic.ValueIdx Idealize.SL.Sem Idealize.ShloMosaic.StableHlo
open Cert.KernelIdeal Cert.KernelIdeal.Gen

/-- The channels of each mask row whose mask word is 0, as the program computes them. -/
def healthy (mask : (⟨S4x512, .i32⟩ : BufTy).Contents (Elt Ideal)) : IVec S4x512 1 :=
  cmpi .eq mask (broadcastInDim S4x512 ![] bcast_S_S4x512 (constantI S_ 32 0#32))

/-- The healthy flags broadcast over samples and coefficients. -/
def healthyAll (mask : (⟨S4x512, .i32⟩ : BufTy).Contents (Elt Ideal)) : IVec S4x64x4x512 1 :=
  broadcastInDim S4x64x4x512 ![0, 1, 2, 3] bcast_S4x1x1x512_S4x64x4x512_0_1_2_3
    (broadcastInDim S4x1x1x512 ![0, 3] bcast_S4x512_S4x1x1x512_0_3 (healthy mask))

/-- The samples' coefficients broadcast over mask rows and channels. -/
def etaAll (eta : FVec Ideal S64x4 .f32) : FVec Ideal S4x64x4x512 .f32 :=
  broadcastInDim S4x64x4x512 ![0, 1, 2, 3] bcast_S1x64x4x1_S4x64x4x512_0_1_2_3
    (broadcastInDim S1x64x4x1 ![1, 2] bcast_S64x4_S1x64x4x1_1_2 eta)

/-- The fault rows, coefficient axis before channel axis, broadcast over samples. -/
def faultAll (fault : FVec Ideal S4x512x4 .f32) : FVec Ideal S4x64x4x512 .f32 :=
  broadcastInDim S4x64x4x512 ![0, 1, 2, 3] bcast_S4x1x4x512_S4x64x4x512_0_1_2_3
    (broadcastInDim S4x1x4x512 ![0, 2, 3] bcast_S4x4x512_S4x1x4x512_0_2_3
      (transpose S4x4x512 [0, 2, 1] fault transposes_S4x512x4_S4x4x512_0_2_1))

/-- The packed coefficients as the line leaves them. -/
theorem packed_term (W : Valuation τ sig (Elt Ideal)) :
    after (own (F := Ideal)) W (Proc.devRef .tc main_v106)
      = shapeCast S256x4x512
          (select (healthyAll (W (Proc.devRef .tc main_arg11))) (etaAll (W (Proc.devRef .tc main_v87)))
            (faultAll (W (Proc.devRef .tc main_v98))))
          shapeCasts_S4x64x4x512_S256x4x512 := by
  after_results
  rfl

/-- The reshaped input as the line leaves it. -/
theorem rows_term (W : Valuation τ sig (Elt Ideal)) :
    after (own (F := Ideal)) W (Proc.devRef .tc main_v107)
      = shapeCast S256x256x512 (W (Proc.devRef .tc main_arg0)) shapeCasts_S4x64x256x512_S256x256x512 := by
  after_results
  rfl

theorem healthyAll_at (mask : (⟨S4x512, .i32⟩ : BufTy).Contents (Elt Ideal)) (m : Fin 4) (n : Fin 64) (k : Fin 4) (c : Fin 512) :
    healthyAll mask (ix4 m n k c) = healthy mask (ix2 m c) := by
  unfold healthyAll
  refine (broadcastInDim_apply _ _ _ (ix4 m n k c) (ix4 m 0 0 c) (fun a => match a with
    | ⟨0, _⟩ => rfl
    | ⟨1, _⟩ => rfl
    | ⟨2, _⟩ => rfl
    | ⟨3, _⟩ => rfl)).trans ?_
  exact broadcastInDim_apply _ _ _ (ix4 m 0 0 c) (ix2 m c) (fun a => match a with
    | ⟨0, _⟩ => rfl
    | ⟨1, _⟩ => rfl)

theorem etaAll_at (eta : FVec Ideal S64x4 .f32) (m : Fin 4) (n : Fin 64) (k : Fin 4) (c : Fin 512) :
    etaAll eta (ix4 m n k c) = eta (ix2 n k) := by
  unfold etaAll
  refine (broadcastInDim_apply _ _ _ (ix4 m n k c) (ix4 0 n k 0) (fun a => match a with
    | ⟨0, _⟩ => rfl
    | ⟨1, _⟩ => rfl
    | ⟨2, _⟩ => rfl
    | ⟨3, _⟩ => rfl)).trans ?_
  exact broadcastInDim_apply _ _ _ (ix4 0 n k 0) (ix2 n k) (fun a => match a with
    | ⟨0, _⟩ => rfl
    | ⟨1, _⟩ => rfl)

theorem faultAll_at (fault : FVec Ideal S4x512x4 .f32) (m : Fin 4) (n : Fin 64) (k : Fin 4) (c : Fin 512) :
    faultAll fault (ix4 m n k c) = fault (ix3 m c k) := by
  unfold faultAll
  refine (broadcastInDim_apply _ _ _ (ix4 m n k c) (ix4 m 0 k c) (fun a => match a with
    | ⟨0, _⟩ => rfl
    | ⟨1, _⟩ => rfl
    | ⟨2, _⟩ => rfl
    | ⟨3, _⟩ => rfl)).trans ?_
  refine (broadcastInDim_apply _ _ _ (ix4 m 0 k c) (ix3 m k c) (fun a => match a with
    | ⟨0, _⟩ => rfl
    | ⟨1, _⟩ => rfl
    | ⟨2, _⟩ => rfl)).trans ?_
  exact transpose_apply _ fault _ (ix3 m k c) (ix3 m c k) (fun b => match b with
    | ⟨0, _⟩ => rfl
    | ⟨1, _⟩ => rfl
    | ⟨2, _⟩ => rfl)

/-- Row `64 m + n` of the packed coefficients holds the coefficients in force at mask row `m`, sample `n`. -/
theorem coefficients_at (W : Valuation τ sig (Elt Ideal)) (m : Fin 4) (n : Fin 64) (c : Fin 512) (k : Fin 4)
    (r : Fin 256) (hr : r.val = 64 * m.val + n.val) :
    after (own (F := Ideal)) W (Proc.devRef .tc main_v106) (ix3 r k c)
      = Cert.AffineTanh.coeff (healthy (W (Proc.devRef .tc main_arg11))) (W (Proc.devRef .tc main_v87))
          (W (Proc.devRef .tc main_v98)) m n c k := by
  rw [packed_term]
  refine (shapeCast_apply _ _ (ix3 r k c) (ix4 m n k c) ?_).trans ?_
  · rw [Shape.rowMajor_val_four, Shape.rowMajor_val_three]
    show ((m.val * 64 + n.val) * 4 + k.val) * 512 + c.val = (r.val * 4 + k.val) * 512 + c.val
    omega
  refine (select_apply _ _ _ _).trans ?_
  rw [healthyAll_at, etaAll_at, faultAll_at]
  rfl

/-- Row `64 m + n` of the reshaped input is `z` at mask row `m`, sample `n`. -/
theorem input_rows_at (W : Valuation τ sig (Elt Ideal)) (m : Fin 4) (n : Fin 64) (b : Fin 256) (c : Fin 512)
    (r : Fin 256) (hr : r.val = 64 * m.val + n.val) :
    after (own (F := Ideal)) W (Proc.devRef .tc main_v107) (ix3 r b c) = W (Proc.devRef .tc main_arg0) (ix4 m n b c) := by
  rw [rows_term]
  refine shapeCast_apply _ _ (ix3 r b c) (ix4 m n b c) ?_
  rw [Shape.rowMajor_val_four, Shape.rowMajor_val_three]
  show ((m.val * 64 + n.val) * 256 + b.val) * 512 + c.val = (r.val * 256 + b.val) * 512 + c.val
  omega

end Cert.KernelIdeal.Line

end
-- ==== Proof.KernelValue.lean ====
/-
  What the kernel's program returns, as the specification's function of its arguments.

  The region leaves `rows z2 e_all` in the result array; the one host line after it reshapes `[256, 256, 512]` back to
  `[4, 64, 256, 512]`, so entry `(m, n, b, c)` of the result is row `64 m + n` of `rows` at `(b, c)`; that row of `e_all` holds
  the coefficients in force at `(m, n)` and that row of `z2` is `z m n`: the result is the specification's `value` of
  `z`, the healthy flags, and the arrays `eta`, `fault` the shared part of the host line computes.
-/
import proofs.«109087_j41085657153638_2_alg».proof.Proof.KernelIdealFrame
import proofs.«109087_j41085657153638_2_alg».proof.Proof.KernelRows
import proofs.«109087_j41085657153638_2_alg».proof.Proof.KernelCoefficients

set_option maxRecDepth 16384

noncomputable section

namespace Cert.KernelIdeal.Region

open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg)

/-- A line run in two parts. -/
theorem after_append {τ : Topo} {sig : RefSig} {Val : EltTy → Type} (a b : List (HloOp τ sig Val)) (V : Valuation τ sig Val) :
    after (a ++ b) V = after b (after a V) := by
  induction a generalizing V with
  | nil => rfl
  | cons op a ih => exact ih (op.result V)

/-- The host operations before the region are the shared line followed by the program's own. -/
theorem prefix_line : List.flatten (prefixStretches (F := Ideal)) = Line.shared ++ Line.own := rfl

/-- The contents the shared line leaves on core `c`. -/
abbrev afterShared (c : Dev nD) : Valuation τ sig (Elt Ideal) := after (Line.shared (F := Ideal)) (launchContents m c)

theorem entry_split (c : Dev nD) : entry m c = after (Line.own (F := Ideal)) (afterShared m c) := by
  show after (List.flatten (prefixStretches (F := Ideal))) (launchContents m c) = _
  rw [prefix_line, after_append]

/-- The shared line writes neither `z` nor the mask. -/
theorem shared_keeps_z (V : Valuation τ sig (Elt Ideal)) :
    after (Line.shared (F := Ideal)) V (Proc.devRef .tc main_arg0) = V (Proc.devRef .tc main_arg0) :=
  StableHlo.after_of_forall_not_mem (b := Proc.devRef .tc main_arg0) _ _ (List.forall_iff_forall_mem.mp (by
    simp only [Line.shared, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem shared_keeps_mask (V : Valuation τ sig (Elt Ideal)) :
    after (Line.shared (F := Ideal)) V (Proc.devRef .tc main_arg11) = V (Proc.devRef .tc main_arg11) :=
  StableHlo.after_of_forall_not_mem (b := Proc.devRef .tc main_arg11) _ _ (List.forall_iff_forall_mem.mp (by
    simp only [Line.shared, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- The line after the region reshapes the result array. -/
theorem tail_term (X : Valuation τ sig (Elt Ideal)) :
    after (hostOps1 (F := Ideal)) X (Proc.devRef .tc main_v109)
      = shapeCast S4x64x256x512 (X (Proc.devRef .tc main_v108)) shapeCasts_S256x256x512_S4x64x256x512 := by
  after_results
  rfl

/-- The program's result: the rows' function of the two arrays the region read, reshaped. -/
theorem result_term (c : Dev nD) :
    Pipeline.afterTail₀ cfgs (dats m) 0 (entry m) [hostOps1] c main_v109
      = shapeCast S4x64x256x512 (rows (entryAt m c main_v107) (entryAt m c main_v106))
          shapeCasts_S256x256x512_S4x64x256x512 := by
  unfold Pipeline.afterTail₀
  show StableHlo.after (hostOps1 (F := Ideal)) _ (Proc.devRef .tc main_v109) = _
  rw [tail_term]
  refine congrArg (fun x => shapeCast S4x64x256x512 x shapeCasts_S256x256x512_S4x64x256x512) ?_
  exact (Pipeline.withArrays_arr spec0 launch0.win.arr_inj c _ _ 2).trans (final_rows m c)

/-- The specification's function at this launch memory. -/
def resultOf (c : Dev nD) : FVec Ideal S4x64x256x512 .f32 :=
  Cert.AffineTanh.value (m ((c.tc : Thread nD τ).loc main_arg0)) (Line.healthy (m ((c.tc : Thread nD τ).loc main_arg11)))
    (afterShared m c (Proc.devRef .tc main_v87)) (afterShared m c (Proc.devRef .tc main_v98))

theorem result_value (c : Dev nD) :
    Pipeline.afterTail₀ cfgs (dats m) 0 (entry m) [hostOps1] c main_v109 = resultOf m c := by
  rw [result_term]
  funext j
  obtain ⟨mm, n, b, cc, rfl⟩ : ∃ (mm : Fin 4) (n : Fin 64) (b : Fin 256) (cc : Fin 512), j = ix4 mm n b cc :=
    ⟨j 0, j 1, j 2, j 3, eq_ix4 j⟩
  have hm : mm.val < 4 := mm.isLt
  have hn : n.val < 64 := n.isLt
  let r : Fin 256 := ⟨64 * mm.val + n.val, by omega⟩
  have hr : r.val = 64 * mm.val + n.val := rfl
  refine (shapeCast_apply _ _ (ix4 mm n b cc) (ix3 r b cc) ?_).trans ?_
  · rw [Shape.rowMajor_val_four, Shape.rowMajor_val_three]
    show (r.val * 256 + b.val) * 512 + cc.val = ((mm.val * 64 + n.val) * 256 + b.val) * 512 + cc.val
    omega
  rw [rows_apply]
  unfold rowAt entryAt
  rw [entry_split]
  rw [Line.coefficients_at _ mm n cc 0 r hr, Line.coefficients_at _ mm n cc 1 r hr, Line.coefficients_at _ mm n cc 2 r hr,
    Line.coefficients_at _ mm n cc 3 r hr, Line.input_rows_at _ mm n b cc r hr]
  unfold afterShared
  rw [shared_keeps_z, shared_keeps_mask]
  rfl

/-- THE RUN, READ: every execution of the kernel's program ends with the result at the specification's function of the launch
    memory, and the arguments unchanged. -/
theorem run_value : θ_run defs (onTc (τ := τ) (main (F := Ideal))) ⟨m, fun _ => 0, ρ⟩ (fun r => ∀ c : Dev nD,
      r.2.mem ((c.tc : Thread nD τ).loc main_v109) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨((h c).2 main_v109 (Pipeline.mem_restRefs_of main_v109 (by decide) (by decide))).trans (result_value m c),
      ((h c).2 main_arg0 (Pipeline.mem_restRefs_of main_arg0 (by decide) (by decide))).trans (exit_main_arg0 m c),
      ((h c).2 main_arg1 (Pipeline.mem_restRefs_of main_arg1 (by decide) (by decide))).trans (exit_main_arg1 m c),
      ((h c).2 main_arg2 (Pipeline.mem_restRefs_of main_arg2 (by decide) (by decide))).trans (exit_main_arg2 m c),
      ((h c).2 main_arg3 (Pipeline.mem_restRefs_of main_arg3 (by decide) (by decide))).trans (exit_main_arg3 m c),
      ((h c).2 main_arg4 (Pipeline.mem_restRefs_of main_arg4 (by decide) (by decide))).trans (exit_main_arg4 m c),
      ((h c).2 main_arg5 (Pipeline.mem_restRefs_of main_arg5 (by decide) (by decide))).trans (exit_main_arg5 m c),
      ((h c).2 main_arg6 (Pipeline.mem_restRefs_of main_arg6 (by decide) (by decide))).trans (exit_main_arg6 m c),
      ((h c).2 main_arg7 (Pipeline.mem_restRefs_of main_arg7 (by decide) (by decide))).trans (exit_main_arg7 m c),
      ((h c).2 main_arg8 (Pipeline.mem_restRefs_of main_arg8 (by decide) (by decide))).trans (exit_main_arg8 m c),
      ((h c).2 main_arg9 (Pipeline.mem_restRefs_of main_arg9 (by decide) (by decide))).trans (exit_main_arg9 m c),
      ((h c).2 main_arg10 (Pipeline.mem_restRefs_of main_arg10 (by decide) (by decide))).trans (exit_main_arg10 m c),
      ((h c).2 main_arg11 (Pipeline.mem_restRefs_of main_arg11 (by decide) (by decide))).trans (exit_main_arg11 m c)⟩)
    (run_main m ρ)

end Cert.KernelIdeal.Region

end
-- ==== Proof.ReferenceLine.lean ====
/-
  @main of `ReferenceIdeal` written as lists of its host operations, in program order, the two outlined functions
  (`relu`, `_where`) inlined at their calls over the calls' own buffers.

  `shared` is the part both programs of this certificate spell alike, operation for operation: the coefficient
  preprocessing up to `eta : [64, 4]` (`main_v87`) and the fault-table rows `fault : [4, 512, 4]` gathered by the mask
  (`main_v98`). `own` is what this program does with them afterwards.
-/
import proofs.«109087_j41085657153638_2_alg».proof.Proof.Gen.ReferenceIdeal
import Idealize.ShloMosaic.Lib.StableHlo.Run

set_option maxRecDepth 4096

noncomputable section

namespace Cert.ReferenceIdeal.Line

open Idealize.ShloMosaic Idealize.ShloMosaic.TcCoe Idealize.SL.Sem
open Cert.ReferenceIdeal Cert.ReferenceIdeal.Facts₀

variable {F : FTy → Type} [FloatOps F]

set_option maxHeartbeats 40000000 in
/-- The 115 operations up to `eta` and `fault`. -/
abbrev shared : List (HloOp τ sig (Elt F)) :=
  ( StableHlo.nullary main_cst (fun i => FloatOps.ofBits .f32 (lit0 (S12x4.rowMajor i)))
  :: StableHlo.unary main_arg1 main_v0 (Host.negf : (⟨S6, .f32⟩ : BufTy).Contents (Elt F) → (⟨S6, .f32⟩ : BufTy).Contents (Elt F))
  :: StableHlo.unary main_v0 main_v1 (Host.exp : (⟨S6, .f32⟩ : BufTy).Contents (Elt F) → (⟨S6, .f32⟩ : BufTy).Contents (Elt F))
  :: StableHlo.nullary main_cst_0 (constant S_ .f32 0x3F800000#32)
  :: StableHlo.unary main_cst_0 main_v2 (broadcastInDim S6 ![] bcast_S_S6 : (⟨S_, .f32⟩ : BufTy).Contents (Elt F) → (⟨S6, .f32⟩ : BufTy).Contents (Elt F))
  :: StableHlo.binary main_v2 main_v1 main_v3 (addf : (⟨S6, .f32⟩ : BufTy).Contents (Elt F) → (⟨S6, .f32⟩ : BufTy).Contents (Elt F) → (⟨S6, .f32⟩ : BufTy).Contents (Elt F))
  :: StableHlo.nullary main_cst_1 (constant S_ .f32 0x3F800000#32)
  :: StableHlo.unary main_cst_1 main_v4 (broadcastInDim S6 ![] bcast_S_S6 : (⟨S_, .f32⟩ : BufTy).Contents (Elt F) → (⟨S6, .f32⟩ : BufTy).Contents (Elt F))
  :: StableHlo.binary main_v4 main_v3 main_v5 (Host.divf : (⟨S6, .f32⟩ : BufTy).Contents (Elt F) → (⟨S6, .f32⟩ : BufTy).Contents (Elt F) → (⟨S6, .f32⟩ : BufTy).Contents (Elt F))
  :: StableHlo.nullary main_cst_2 (constant S_ .f32 0x00000000#32)
  :: StableHlo.unary main_cst_2 main_v6 (broadcastInDim S3 ![] bcast_S_S3 : (⟨S_, .f32⟩ : BufTy).Contents (Elt F) → (⟨S3, .f32⟩ : BufTy).Contents (Elt F))
  :: StableHlo.binary main_v5 main_v6 main_v7 ((fun a b => concatenate S9 0 [⟨S6, a⟩, ⟨S3, b⟩] concatenates_S6_S3_S9_d0) : (⟨S6, .f32⟩ : BufTy).Contents (Elt F) → (⟨S3, .f32⟩ : BufTy).Contents (Elt F) → (⟨S9, .f32⟩ : BufTy).Contents (Elt F))
  :: StableHlo.binary main_arg3 main_arg4 main_v8 (subf : (⟨S9, .f32⟩ : BufTy).Contents (Elt F) → (⟨S9, .f32⟩ : BufTy).Contents (Elt F) → (⟨S9, .f32⟩ : BufTy).Contents (Elt F))
  :: StableHlo.binary main_v7 main_v8 main_v9 (mulf : (⟨S9, .f32⟩ : BufTy).Contents (Elt F) → (⟨S9, .f32⟩ : BufTy).Contents (Elt F) → (⟨S9, .f32⟩ : BufTy).Contents (Elt F))
  :: StableHlo.binary main_v9 main_arg4 main_v10 (addf : (⟨S9, .f32⟩ : BufTy).Contents (Elt F) → (⟨S9, .f32⟩ : BufTy).Contents (Elt F) → (⟨S9, .f32⟩ : BufTy).Contents (Elt F))
  :: StableHlo.nullary main_cst_3 (constant S_ .f32 0x40000000#32)
  :: StableHlo.unary main_cst_3 main_v11 (broadcastInDim S64x9 ![] bcast_S_S64x9 : (⟨S_, .f32⟩ : BufTy).Contents (Elt F) → (⟨S64x9, .f32⟩ : BufTy).Contents (Elt F))
  :: StableHlo.binary main_arg2 main_v11 main_v12 (mulf : (⟨S64x9, .f32⟩ : BufTy).Contents (Elt F) → (⟨S64x9, .f32⟩ : BufTy).Contents (Elt F) → (⟨S64x9, .f32⟩ : BufTy).Contents (Elt F))
  :: StableHlo.nullary main_cst_4 (constant S_ .f32 0x3F800000#32)
  :: StableHlo.unary main_cst_4 main_v13 (broadcastInDim S64x9 ![] bcast_S_S64x9 : (⟨S_, .f32⟩ : BufTy).Contents (Elt F) → (⟨S64x9, .f32⟩ : BufTy).Contents (Elt F))
  :: StableHlo.binary main_v12 main_v13 main_v14 (subf : (⟨S64x9, .f32⟩ : BufTy).Contents (Elt F) → (⟨S64x9, .f32⟩ : BufTy).Contents (Elt F) → (⟨S64x9, .f32⟩ : BufTy).Contents (Elt F))
  :: StableHlo.nullary main_cst_5 (constant S_ .f32 0x3DCCCCCD#32)
  :: StableHlo.unary main_cst_5 main_v15 (broadcastInDim S64x9 ![] bcast_S_S64x9 : (⟨S_, .f32⟩ : BufTy).Contents (Elt F) → (⟨S64x9, .f32⟩ : BufTy).Contents (Elt F))
  :: StableHlo.binary main_v14 main_v15 main_v16 (mulf : (⟨S64x9, .f32⟩ : BufTy).Contents (Elt F) → (⟨S64x9, .f32⟩ : BufTy).Contents (Elt F) → (⟨S64x9, .f32⟩ : BufTy).Contents (Elt F))
  :: StableHlo.nullary main_cst_6 (constant S_ .f32 0x3F800000#32)
  :: StableHlo.unary main_cst_6 main_v17 (broadcastInDim S64x9 ![] bcast_S_S64x9 : (⟨S_, .f32⟩ : BufTy).Contents (Elt F) → (⟨S64x9, .f32⟩ : BufTy).Contents (Elt F))
  :: StableHlo.binary main_v16 main_v17 main_v18 (addf : (⟨S64x9, .f32⟩ : BufTy).Contents (Elt F) → (⟨S64x9, .f32⟩ : BufTy).Contents (Elt F) → (⟨S64x9, .f32⟩ : BufTy).Contents (Elt F))
  :: StableHlo.unary main_v10 main_v19 (broadcastInDim S1x9 ![1] bcast_S9_S1x9_1 : (⟨S9, .f32⟩ : BufTy).Contents (Elt F) → (⟨S1x9, .f32⟩ : BufTy).Contents (Elt F))
  :: StableHlo.unary main_v19 main_v20 (broadcastInDim S64x9 ![0, 1] bcast_S1x9_S64x9_0_1 : (⟨S1x9, .f32⟩ : BufTy).Contents (Elt F) → (⟨S64x9, .f32⟩ : BufTy).Contents (Elt F))
  :: StableHlo.binary main_v20 main_v18 main_v21 (mulf : (⟨S64x9, .f32⟩ : BufTy).Contents (Elt F) → (⟨S64x9, .f32⟩ : BufTy).Contents (Elt F) → (⟨S64x9, .f32⟩ : BufTy).Contents (Elt F))
  :: StableHlo.unary main_v21 main_v22 ((extractStridedSlice S64x1 ![0, 0] · slices_S64x9_S64x1_0_0) : (⟨S64x9, .f32⟩ : BufTy).Contents (Elt F) → (⟨S64x1, .f32⟩ : BufTy).Contents (Elt F))
  :: StableHlo.reshape main_v22 main_v23 rfl shapeCasts_S64x1_S64
  :: StableHlo.unary main_v21 main_v24 ((extractStridedSlice S64x1 ![0, 1] · slices_S64x9_S64x1_0_1) : (⟨S64x9, .f32⟩ : BufTy).Contents (Elt F) → (⟨S64x1, .f32⟩ : BufTy).Contents (Elt F))
  :: StableHlo.reshape main_v24 main_v25 rfl shapeCasts_S64x1_S64
  :: StableHlo.unary main_v21 main_v26 ((extractStridedSlice S64x1 ![0, 2] · slices_S64x9_S64x1_0_2) : (⟨S64x9, .f32⟩ : BufTy).Contents (Elt F) → (⟨S64x1, .f32⟩ : BufTy).Contents (Elt F))
  :: StableHlo.reshape main_v26 main_v27 rfl shapeCasts_S64x1_S64
  :: StableHlo.unary main_v21 main_v28 ((extractStridedSlice S64x1 ![0, 3] · slices_S64x9_S64x1_0_3) : (⟨S64x9, .f32⟩ : BufTy).Contents (Elt F) → (⟨S64x1, .f32⟩ : BufTy).Contents (Elt F))
  :: StableHlo.reshape main_v28 main_v29 rfl shapeCasts_S64x1_S64
  :: StableHlo.unary main_v21 main_v30 ((extractStridedSlice S64x1 ![0, 4] · slices_S64x9_S64x1_0_4) : (⟨S64x9, .f32⟩ : BufTy).Contents (Elt F) → (⟨S64x1, .f32⟩ : BufTy).Contents (Elt F))
  :: StableHlo.reshape main_v30 main_v31 rfl shapeCasts_S64x1_S64
  :: StableHlo.unary main_v21 main_v32 ((extractStridedSlice S64x1 ![0, 5] · slices_S64x9_S64x1_0_5) : (⟨S64x9, .f32⟩ : BufTy).Contents (Elt F) → (⟨S64x1, .f32⟩ : BufTy).Contents (Elt F))
  :: StableHlo.reshape main_v32 main_v33 rfl shapeCasts_S64x1_S64
  :: StableHlo.unary main_v21 main_v34 ((extractStridedSlice S64x1 ![0, 1] · slices_S64x9_S64x1_0_1) : (⟨S64x9, .f32⟩ : BufTy).Contents (Elt F) → (⟨S64x1, .f32⟩ : BufTy).Contents (Elt F))
  :: StableHlo.reshape main_v34 main_v35 rfl shapeCasts_S64x1_S64
  :: StableHlo.unary main_v21 main_v36 ((extractStridedSlice S64x1 ![0, 0] · slices_S64x9_S64x1_0_0) : (⟨S64x9, .f32⟩ : BufTy).Contents (Elt F) → (⟨S64x1, .f32⟩ : BufTy).Contents (Elt F))
  :: StableHlo.reshape main_v36 main_v37 rfl shapeCasts_S64x1_S64
  :: StableHlo.binary main_v35 main_v37 main_v38 (Host.divf : (⟨S64, .f32⟩ : BufTy).Contents (Elt F) → (⟨S64, .f32⟩ : BufTy).Contents (Elt F) → (⟨S64, .f32⟩ : BufTy).Contents (Elt F))
  :: StableHlo.unary main_v21 main_v39 ((extractStridedSlice S64x1 ![0, 3] · slices_S64x9_S64x1_0_3) : (⟨S64x9, .f32⟩ : BufTy).Contents (Elt F) → (⟨S64x1, .f32⟩ : BufTy).Contents (Elt F))
  :: StableHlo.reshape main_v39 main_v40 rfl shapeCasts_S64x1_S64
  :: StableHlo.unary main_v21 main_v41 ((extractStridedSlice S64x1 ![0, 2] · slices_S64x9_S64x1_0_2) : (⟨S64x9, .f32⟩ : BufTy).Contents (Elt F) → (⟨S64x1, .f32⟩ : BufTy).Contents (Elt F))
  :: StableHlo.reshape main_v41 main_v42 rfl shapeCasts_S64x1_S64
  :: StableHlo.binary main_v40 main_v42 main_v43 (Host.divf : (⟨S64, .f32⟩ : BufTy).Contents (Elt F) → (⟨S64, .f32⟩ : BufTy).Contents (Elt F) → (⟨S64, .f32⟩ : BufTy).Contents (Elt F))
  :: StableHlo.unary main_v21 main_v44 ((extractStridedSlice S64x1 ![0, 5] · slices_S64x9_S64x1_0_5) : (⟨S64x9, .f32⟩ : BufTy).Contents (Elt F) → (⟨S64x1, .f32⟩ : BufTy).Contents (Elt F))
  :: StableHlo.reshape main_v44 main_v45 rfl shapeCasts_S64x1_S64
  :: StableHlo.unary main_v21 main_v46 ((extractStridedSlice S64x1 ![0, 4] · slices_S64x9_S64x1_0_4) : (⟨S64x9, .f32⟩ : BufTy).Contents (Elt F) → (⟨S64x1, .f32⟩ : BufTy).Contents (Elt F))
  :: StableHlo.reshape main_v46 main_v47 rfl shapeCasts_S64x1_S64
  :: StableHlo.binary main_v45 main_v47 main_v48 (Host.divf : (⟨S64, .f32⟩ : BufTy).Contents (Elt F) → (⟨S64, .f32⟩ : BufTy).Contents (Elt F) → (⟨S64, .f32⟩ : BufTy).Contents (Elt F))
  :: StableHlo.unary main_v23 main_v49 (broadcastInDim S64x1 ![0] bcast_S64_S64x1_0 : (⟨S64, .f32⟩ : BufTy).Contents (Elt F) → (⟨S64x1, .f32⟩ : BufTy).Contents (Elt F))
  :: StableHlo.unary main_v25 main_v50 (broadcastInDim S64x1 ![0] bcast_S64_S64x1_0 : (⟨S64, .f32⟩ : BufTy).Contents (Elt F) → (⟨S64x1, .f32⟩ : BufTy).Contents (Elt F))
  :: StableHlo.unary main_v27 main_v51 (broadcastInDim S64x1 ![0] bcast_S64_S64x1_0 : (⟨S64, .f32⟩ : BufTy).Contents (Elt F) → (⟨S64x1, .f32⟩ : BufTy).Contents (Elt F))
  :: StableHlo.unary main_v29 main_v52 (broadcastInDim S64x1 ![0] bcast_S64_S64x1_0 : (⟨S64, .f32⟩ : BufTy).Contents (Elt F) → (⟨S64x1, .f32⟩ : BufTy).Contents (Elt F))
  :: StableHlo.unary main_v31 main_v53 (broadcastInDim S64x1 ![0] bcast_S64_S64x1_0 : (⟨S64, .f32⟩ : BufTy).Contents (Elt F) → (⟨S64x1, .f32⟩ : BufTy).Contents (Elt F))
  :: StableHlo.unary main_v33 main_v54 (broadcastInDim S64x1 ![0] bcast_S64_S64x1_0 : (⟨S64, .f32⟩ : BufTy).Contents (Elt F) → (⟨S64x1, .f32⟩ : BufTy).Contents (Elt F))
  :: StableHlo.unary main_v38 main_v55 (broadcastInDim S64x1 ![0] bcast_S64_S64x1_0 : (⟨S64, .f32⟩ : BufTy).Contents (Elt F) → (⟨S64x1, .f32⟩ : BufTy).Contents (Elt F))
  :: StableHlo.unary main_v43 main_v56 (broadcastInDim S64x1 ![0] bcast_S64_S64x1_0 : (⟨S64, .f32⟩ : BufTy).Contents (Elt F) → (⟨S64x1, .f32⟩ : BufTy).Contents (Elt F))
  :: StableHlo.unary main_v48 main_v57 (broadcastInDim S64x1 ![0] bcast_S64_S64x1_0 : (⟨S64, .f32⟩ : BufTy).Contents (Elt F) → (⟨S64x1, .f32⟩ : BufTy).Contents (Elt F))
  :: StableHlo.nary ![main_v49, main_v50, main_v51, main_v52, main_v53, main_v54, main_v55, main_v56, main_v57] main_v58 (fun u => concatenate S64x9 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩] concatenates_S64x1_S64x1_S64x1_S64x1_S64x1_S64x1_S64x1_S64x1_S64x1_S64x9_d1)
  :: StableHlo.unary main_arg4 main_v59 (broadcastInDim S1x9 ![1] bcast_S9_S1x9_1 : (⟨S9, .f32⟩ : BufTy).Contents (Elt F) → (⟨S1x9, .f32⟩ : BufTy).Contents (Elt F))
  :: StableHlo.unary main_v59 main_v60 (broadcastInDim S64x9 ![0, 1] bcast_S1x9_S64x9_0_1 : (⟨S1x9, .f32⟩ : BufTy).Contents (Elt F) → (⟨S64x9, .f32⟩ : BufTy).Contents (Elt F))
  :: StableHlo.binary main_v58 main_v60 main_v61 (subf : (⟨S64x9, .f32⟩ : BufTy).Contents (Elt F) → (⟨S64x9, .f32⟩ : BufTy).Contents (Elt F) → (⟨S64x9, .f32⟩ : BufTy).Contents (Elt F))
  :: StableHlo.binary main_arg3 main_arg4 main_v62 (subf : (⟨S9, .f32⟩ : BufTy).Contents (Elt F) → (⟨S9, .f32⟩ : BufTy).Contents (Elt F) → (⟨S9, .f32⟩ : BufTy).Contents (Elt F))
  :: StableHlo.unary main_v62 main_v63 (broadcastInDim S1x9 ![1] bcast_S9_S1x9_1 : (⟨S9, .f32⟩ : BufTy).Contents (Elt F) → (⟨S1x9, .f32⟩ : BufTy).Contents (Elt F))
  :: StableHlo.unary main_v63 main_v64 (broadcastInDim S64x9 ![0, 1] bcast_S1x9_S64x9_0_1 : (⟨S1x9, .f32⟩ : BufTy).Contents (Elt F) → (⟨S64x9, .f32⟩ : BufTy).Contents (Elt F))
  :: StableHlo.binary main_v61 main_v64 main_v65 (Host.divf : (⟨S64x9, .f32⟩ : BufTy).Contents (Elt F) → (⟨S64x9, .f32⟩ : BufTy).Contents (Elt F) → (⟨S64x9, .f32⟩ : BufTy).Contents (Elt F))
  :: StableHlo.binary main_v65 main_arg7 main_v66 ((fun l r => Host.dotGeneral dot_S64x9_S9x64_S64x64_1_0_0_1_n_n none l r) : (⟨S64x9, .f32⟩ : BufTy).Contents (Elt F) → (⟨S9x64, .f32⟩ : BufTy).Contents (Elt F) → (⟨S64x64, .f32⟩ : BufTy).Contents (Elt F))
  :: StableHlo.unary main_arg8 main_v67 (broadcastInDim S1x64 ![1] bcast_S64_S1x64_1 : (⟨S64, .f32⟩ : BufTy).Contents (Elt F) → (⟨S1x64, .f32⟩ : BufTy).Contents (Elt F))
  :: StableHlo.unary main_v67 main_v68 (broadcastInDim S64x64 ![0, 1] bcast_S1x64_S64x64_0_1 : (⟨S1x64, .f32⟩ : BufTy).Contents (Elt F) → (⟨S64x64, .f32⟩ : BufTy).Contents (Elt F))
  :: StableHlo.binary main_v66 main_v68 main_v69 (addf : (⟨S64x64, .f32⟩ : BufTy).Contents (Elt F) → (⟨S64x64, .f32⟩ : BufTy).Contents (Elt F) → (⟨S64x64, .f32⟩ : BufTy).Contents (Elt F))
  :: StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S64x64, .f32⟩) (broadcastInDim S64x64 ![] bcast_S_S64x64)
  :: StableHlo.TRef.binary (.of main_v69 : StableHlo.TRef sig ⟨S64x64, .f32⟩) (.of main_call0_v0 : StableHlo.TRef sig ⟨S64x64, .f32⟩) (.of main_v70 : StableHlo.TRef sig ⟨S64x64, .f32⟩) maximumf
  :: StableHlo.binary main_v70 main_arg9 main_v71 ((fun l r => Host.dotGeneral dot_S64x64_S64x4_S64x4_1_0_0_1_n_n none l r) : (⟨S64x64, .f32⟩ : BufTy).Contents (Elt F) → (⟨S64x4, .f32⟩ : BufTy).Contents (Elt F) → (⟨S64x4, .f32⟩ : BufTy).Contents (Elt F))
  :: StableHlo.unary main_arg10 main_v72 (broadcastInDim S1x4 ![1] bcast_S4_S1x4_1 : (⟨S4, .f32⟩ : BufTy).Contents (Elt F) → (⟨S1x4, .f32⟩ : BufTy).Contents (Elt F))
  :: StableHlo.unary main_v72 main_v73 (broadcastInDim S64x4 ![0, 1] bcast_S1x4_S64x4_0_1 : (⟨S1x4, .f32⟩ : BufTy).Contents (Elt F) → (⟨S64x4, .f32⟩ : BufTy).Contents (Elt F))
  :: StableHlo.binary main_v71 main_v73 main_v74 (addf : (⟨S64x4, .f32⟩ : BufTy).Contents (Elt F) → (⟨S64x4, .f32⟩ : BufTy).Contents (Elt F) → (⟨S64x4, .f32⟩ : BufTy).Contents (Elt F))
  :: StableHlo.unary main_v74 main_v75 (Host.negf : (⟨S64x4, .f32⟩ : BufTy).Contents (Elt F) → (⟨S64x4, .f32⟩ : BufTy).Contents (Elt F))
  :: StableHlo.unary main_v75 main_v76 (Host.exp : (⟨S64x4, .f32⟩ : BufTy).Contents (Elt F) → (⟨S64x4, .f32⟩ : BufTy).Contents (Elt F))
  :: StableHlo.nullary main_cst_7 (constant S_ .f32 0x3F800000#32)
  :: StableHlo.unary main_cst_7 main_v77 (broadcastInDim S64x4 ![] bcast_S_S64x4 : (⟨S_, .f32⟩ : BufTy).Contents (Elt F) → (⟨S64x4, .f32⟩ : BufTy).Contents (Elt F))
  :: StableHlo.binary main_v77 main_v76 main_v78 (addf : (⟨S64x4, .f32⟩ : BufTy).Contents (Elt F) → (⟨S64x4, .f32⟩ : BufTy).Contents (Elt F) → (⟨S64x4, .f32⟩ : BufTy).Contents (Elt F))
  :: StableHlo.nullary main_cst_8 (constant S_ .f32 0x3F800000#32)
  :: StableHlo.unary main_cst_8 main_v79 (broadcastInDim S64x4 ![] bcast_S_S64x4 : (⟨S_, .f32⟩ : BufTy).Contents (Elt F) → (⟨S64x4, .f32⟩ : BufTy).Contents (Elt F))
  :: StableHlo.binary main_v79 main_v78 main_v80 (Host.divf : (⟨S64x4, .f32⟩ : BufTy).Contents (Elt F) → (⟨S64x4, .f32⟩ : BufTy).Contents (Elt F) → (⟨S64x4, .f32⟩ : BufTy).Contents (Elt F))
  :: StableHlo.binary main_arg5 main_arg6 main_v81 (subf : (⟨S4, .f32⟩ : BufTy).Contents (Elt F) → (⟨S4, .f32⟩ : BufTy).Contents (Elt F) → (⟨S4, .f32⟩ : BufTy).Contents (Elt F))
  :: StableHlo.unary main_v81 main_v82 (broadcastInDim S1x4 ![1] bcast_S4_S1x4_1 : (⟨S4, .f32⟩ : BufTy).Contents (Elt F) → (⟨S1x4, .f32⟩ : BufTy).Contents (Elt F))
  :: StableHlo.unary main_v82 main_v83 (broadcastInDim S64x4 ![0, 1] bcast_S1x4_S64x4_0_1 : (⟨S1x4, .f32⟩ : BufTy).Contents (Elt F) → (⟨S64x4, .f32⟩ : BufTy).Contents (Elt F))
  :: StableHlo.binary main_v80 main_v83 main_v84 (mulf : (⟨S64x4, .f32⟩ : BufTy).Contents (Elt F) → (⟨S64x4, .f32⟩ : BufTy).Contents (Elt F) → (⟨S64x4, .f32⟩ : BufTy).Contents (Elt F))
  :: StableHlo.unary main_arg6 main_v85 (broadcastInDim S1x4 ![1] bcast_S4_S1x4_1 : (⟨S4, .f32⟩ : BufTy).Contents (Elt F) → (⟨S1x4, .f32⟩ : BufTy).Contents (Elt F))
  :: StableHlo.unary main_v85 main_v86 (broadcastInDim S64x4 ![0, 1] bcast_S1x4_S64x4_0_1 : (⟨S1x4, .f32⟩ : BufTy).Contents (Elt F) → (⟨S64x4, .f32⟩ : BufTy).Contents (Elt F))
  :: StableHlo.binary main_v84 main_v86 main_v87 (addf : (⟨S64x4, .f32⟩ : BufTy).Contents (Elt F) → (⟨S64x4, .f32⟩ : BufTy).Contents (Elt F) → (⟨S64x4, .f32⟩ : BufTy).Contents (Elt F))
  :: StableHlo.nullary main_c (constantI S_ 32 1#32)
  :: StableHlo.unary main_c main_v88 (broadcastInDim S4x512 ![] bcast_S_S4x512 : (⟨S_, .i32⟩ : BufTy).Contents (Elt F) → (⟨S4x512, .i32⟩ : BufTy).Contents (Elt F))
  :: StableHlo.binary main_arg11 main_v88 main_v89 (subi : (⟨S4x512, .i32⟩ : BufTy).Contents (Elt F) → (⟨S4x512, .i32⟩ : BufTy).Contents (Elt F) → (⟨S4x512, .i32⟩ : BufTy).Contents (Elt F))
  :: StableHlo.nullary main_c_9 (constantI S_ 32 0#32)
  :: StableHlo.unary main_c_9 main_v90 (broadcastInDim S4x512 ![] bcast_S_S4x512 : (⟨S_, .i32⟩ : BufTy).Contents (Elt F) → (⟨S4x512, .i32⟩ : BufTy).Contents (Elt F))
  :: StableHlo.binary main_v89 main_v90 main_v91 (maxsi : (⟨S4x512, .i32⟩ : BufTy).Contents (Elt F) → (⟨S4x512, .i32⟩ : BufTy).Contents (Elt F) → (⟨S4x512, .i32⟩ : BufTy).Contents (Elt F))
  :: StableHlo.nullary main_c_10 (constantI S_ 32 0#32)
  :: StableHlo.unary main_c_10 main_v92 (broadcastInDim S4x512 ![] bcast_S_S4x512 : (⟨S_, .i32⟩ : BufTy).Contents (Elt F) → (⟨S4x512, .i32⟩ : BufTy).Contents (Elt F))
  :: StableHlo.binary main_v91 main_v92 main_v93 (cmpi .slt : (⟨S4x512, .i32⟩ : BufTy).Contents (Elt F) → (⟨S4x512, .i32⟩ : BufTy).Contents (Elt F) → (⟨S4x512, .i1⟩ : BufTy).Contents (Elt F))
  :: StableHlo.nullary main_c_11 (constantI S_ 32 12#32)
  :: StableHlo.unary main_c_11 main_v94 (broadcastInDim S4x512 ![] bcast_S_S4x512 : (⟨S_, .i32⟩ : BufTy).Contents (Elt F) → (⟨S4x512, .i32⟩ : BufTy).Contents (Elt F))
  :: StableHlo.binary main_v91 main_v94 main_v95 (addi : (⟨S4x512, .i32⟩ : BufTy).Contents (Elt F) → (⟨S4x512, .i32⟩ : BufTy).Contents (Elt F) → (⟨S4x512, .i32⟩ : BufTy).Contents (Elt F))
  :: StableHlo.ternary main_v93 main_v95 main_v91 main_v96 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F))
  :: StableHlo.unary main_v96 main_v97 (broadcastInDim S4x512x1 ![0, 1] bcast_S4x512_S4x512x1_0_1 : (⟨S4x512, .i32⟩ : BufTy).Contents (Elt F) → (⟨S4x512x1, .i32⟩ : BufTy).Contents (Elt F))
  :: StableHlo.binary main_cst main_v97 main_v98 ((fun x i => Host.gather gather_S12x4_S4x512x1_S4x512x4_2_0_n_n_0_2_14 x i) : (⟨S12x4, .f32⟩ : BufTy).Contents (Elt F) → (⟨S4x512x1, .i32⟩ : BufTy).Contents (Elt F) → (⟨S4x512x4, .f32⟩ : BufTy).Contents (Elt F))
  :: [] )

set_option maxHeartbeats 40000000 in
/-- The 32 operations after them. -/
abbrev own : List (HloOp τ sig (Elt F)) :=
  ( StableHlo.nullary main_c_12 (constantI S_ 32 0#32)
  :: StableHlo.unary main_c_12 main_v99 (broadcastInDim S4x512 ![] bcast_S_S4x512 : (⟨S_, .i32⟩ : BufTy).Contents (Elt F) → (⟨S4x512, .i32⟩ : BufTy).Contents (Elt F))
  :: StableHlo.binary main_arg11 main_v99 main_v100 (cmpi .eq : (⟨S4x512, .i32⟩ : BufTy).Contents (Elt F) → (⟨S4x512, .i32⟩ : BufTy).Contents (Elt F) → (⟨S4x512, .i1⟩ : BufTy).Contents (Elt F))
  :: StableHlo.unary main_v100 main_v101 (broadcastInDim S4x512x1x1 ![0, 1] bcast_S4x512_S4x512x1x1_0_1 : (⟨S4x512, .i1⟩ : BufTy).Contents (Elt F) → (⟨S4x512x1x1, .i1⟩ : BufTy).Contents (Elt F))
  :: StableHlo.unary main_v87 main_v102 (broadcastInDim S1x1x64x4 ![2, 3] bcast_S64x4_S1x1x64x4_2_3 : (⟨S64x4, .f32⟩ : BufTy).Contents (Elt F) → (⟨S1x1x64x4, .f32⟩ : BufTy).Contents (Elt F))
  :: StableHlo.unary main_v98 main_v103 (broadcastInDim S4x512x1x4 ![0, 1, 3] bcast_S4x512x4_S4x512x1x4_0_1_3 : (⟨S4x512x4, .f32⟩ : BufTy).Contents (Elt F) → (⟨S4x512x1x4, .f32⟩ : BufTy).Contents (Elt F))
  :: StableHlo.TRef.unary (.of main_v101 : StableHlo.TRef sig ⟨S4x512x1x1, .i1⟩) (.of main_call1_v0 : StableHlo.TRef sig ⟨S4x512x64x4, .i1⟩) (broadcastInDim S4x512x64x4 ![0, 1, 2, 3] bcast_S4x512x1x1_S4x512x64x4_0_1_2_3)
  :: StableHlo.TRef.unary (.of main_v102 : StableHlo.TRef sig ⟨S1x1x64x4, .f32⟩) (.of main_call1_v1 : StableHlo.TRef sig ⟨S4x512x64x4, .f32⟩) (broadcastInDim S4x512x64x4 ![0, 1, 2, 3] bcast_S1x1x64x4_S4x512x64x4_0_1_2_3)
  :: StableHlo.TRef.unary (.of main_v103 : StableHlo.TRef sig ⟨S4x512x1x4, .f32⟩) (.of main_call1_v2 : StableHlo.TRef sig ⟨S4x512x64x4, .f32⟩) (broadcastInDim S4x512x64x4 ![0, 1, 2, 3] bcast_S4x512x1x4_S4x512x64x4_0_1_2_3)
  :: StableHlo.TRef.ternary (.of main_call1_v0 : StableHlo.TRef sig ⟨S4x512x64x4, .i1⟩) (.of main_call1_v1 : StableHlo.TRef sig ⟨S4x512x64x4, .f32⟩) (.of main_call1_v2 : StableHlo.TRef sig ⟨S4x512x64x4, .f32⟩) (.of main_v104 : StableHlo.TRef sig ⟨S4x512x64x4, .f32⟩) select
  :: StableHlo.unary main_v104 main_v105 ((transpose S4x64x512x4 [0, 2, 1, 3] · transposes_S4x512x64x4_S4x64x512x4_0_2_1_3) : (⟨S4x512x64x4, .f32⟩ : BufTy).Contents (Elt F) → (⟨S4x64x512x4, .f32⟩ : BufTy).Contents (Elt F))
  :: StableHlo.unary main_v105 main_v106 ((extractStridedSlice S4x64x512x1 ![0, 0, 0, 0] · slices_S4x64x512x4_S4x64x512x1_0_0_0_0) : (⟨S4x64x512x4, .f32⟩ : BufTy).Contents (Elt F) → (⟨S4x64x512x1, .f32⟩ : BufTy).Contents (Elt F))
  :: StableHlo.reshape main_v106 main_v107 rfl shapeCasts_S4x64x512x1_S4x64x512
  :: StableHlo.unary main_v107 main_v108 (broadcastInDim S4x64x1x512 ![0, 1, 3] bcast_S4x64x512_S4x64x1x512_0_1_3 : (⟨S4x64x512, .f32⟩ : BufTy).Contents (Elt F) → (⟨S4x64x1x512, .f32⟩ : BufTy).Contents (Elt F))
  :: StableHlo.unary main_v105 main_v109 ((extractStridedSlice S4x64x512x1 ![0, 0, 0, 1] · slices_S4x64x512x4_S4x64x512x1_0_0_0_1) : (⟨S4x64x512x4, .f32⟩ : BufTy).Contents (Elt F) → (⟨S4x64x512x1, .f32⟩ : BufTy).Contents (Elt F))
  :: StableHlo.reshape main_v109 main_v110 rfl shapeCasts_S4x64x512x1_S4x64x512
  :: StableHlo.unary main_v110 main_v111 (broadcastInDim S4x64x1x512 ![0, 1, 3] bcast_S4x64x512_S4x64x1x512_0_1_3 : (⟨S4x64x512, .f32⟩ : BufTy).Contents (Elt F) → (⟨S4x64x1x512, .f32⟩ : BufTy).Contents (Elt F))
  :: StableHlo.unary main_v105 main_v112 ((extractStridedSlice S4x64x512x1 ![0, 0, 0, 2] · slices_S4x64x512x4_S4x64x512x1_0_0_0_2) : (⟨S4x64x512x4, .f32⟩ : BufTy).Contents (Elt F) → (⟨S4x64x512x1, .f32⟩ : BufTy).Contents (Elt F))
  :: StableHlo.reshape main_v112 main_v113 rfl shapeCasts_S4x64x512x1_S4x64x512
  :: StableHlo.unary main_v113 main_v114 (broadcastInDim S4x64x1x512 ![0, 1, 3] bcast_S4x64x512_S4x64x1x512_0_1_3 : (⟨S4x64x512, .f32⟩ : BufTy).Contents (Elt F) → (⟨S4x64x1x512, .f32⟩ : BufTy).Contents (Elt F))
  :: StableHlo.unary main_v105 main_v115 ((extractStridedSlice S4x64x512x1 ![0, 0, 0, 3] · slices_S4x64x512x4_S4x64x512x1_0_0_0_3) : (⟨S4x64x512x4, .f32⟩ : BufTy).Contents (Elt F) → (⟨S4x64x512x1, .f32⟩ : BufTy).Contents (Elt F))
  :: StableHlo.reshape main_v115 main_v116 rfl shapeCasts_S4x64x512x1_S4x64x512
  :: StableHlo.unary main_v116 main_v117 (broadcastInDim S4x64x1x512 ![0, 1, 3] bcast_S4x64x512_S4x64x1x512_0_1_3 : (⟨S4x64x512, .f32⟩ : BufTy).Contents (Elt F) → (⟨S4x64x1x512, .f32⟩ : BufTy).Contents (Elt F))
  :: StableHlo.unary main_v114 main_v118 (broadcastInDim S4x64x256x512 ![0, 1, 2, 3] bcast_S4x64x1x512_S4x64x256x512_0_1_2_3 : (⟨S4x64x1x512, .f32⟩ : BufTy).Contents (Elt F) → (⟨S4x64x256x512, .f32⟩ : BufTy).Contents (Elt F))
  :: StableHlo.binary main_arg0 main_v118 main_v119 (subf : (⟨S4x64x256x512, .f32⟩ : BufTy).Contents (Elt F) → (⟨S4x64x256x512, .f32⟩ : BufTy).Contents (Elt F) → (⟨S4x64x256x512, .f32⟩ : BufTy).Contents (Elt F))
  :: StableHlo.unary main_v117 main_v120 (broadcastInDim S4x64x256x512 ![0, 1, 2, 3] bcast_S4x64x1x512_S4x64x256x512_0_1_2_3 : (⟨S4x64x1x512, .f32⟩ : BufTy).Contents (Elt F) → (⟨S4x64x256x512, .f32⟩ : BufTy).Contents (Elt F))
  :: StableHlo.binary main_v119 main_v120 main_v121 (mulf : (⟨S4x64x256x512, .f32⟩ : BufTy).Contents (Elt F) → (⟨S4x64x256x512, .f32⟩ : BufTy).Contents (Elt F) → (⟨S4x64x256x512, .f32⟩ : BufTy).Contents (Elt F))
  :: StableHlo.unary main_v121 main_v122 (Host.tanh : (⟨S4x64x256x512, .f32⟩ : BufTy).Contents (Elt F) → (⟨S4x64x256x512, .f32⟩ : BufTy).Contents (Elt F))
  :: StableHlo.unary main_v111 main_v123 (broadcastInDim S4x64x256x512 ![0, 1, 2, 3] bcast_S4x64x1x512_S4x64x256x512_0_1_2_3 : (⟨S4x64x1x512, .f32⟩ : BufTy).Contents (Elt F) → (⟨S4x64x256x512, .f32⟩ : BufTy).Contents (Elt F))
  :: StableHlo.binary main_v123 main_v122 main_v124 (mulf : (⟨S4x64x256x512, .f32⟩ : BufTy).Contents (Elt F) → (⟨S4x64x256x512, .f32⟩ : BufTy).Contents (Elt F) → (⟨S4x64x256x512, .f32⟩ : BufTy).Contents (Elt F))
  :: StableHlo.unary main_v108 main_v125 (broadcastInDim S4x64x256x512 ![0, 1, 2, 3] bcast_S4x64x1x512_S4x64x256x512_0_1_2_3 : (⟨S4x64x1x512, .f32⟩ : BufTy).Contents (Elt F) → (⟨S4x64x256x512, .f32⟩ : BufTy).Contents (Elt F))
  :: StableHlo.binary main_v125 main_v124 main_v126 (addf : (⟨S4x64x256x512, .f32⟩ : BufTy).Contents (Elt F) → (⟨S4x64x256x512, .f32⟩ : BufTy).Contents (Elt F) → (⟨S4x64x256x512, .f32⟩ : BufTy).Contents (Elt F))
  :: [] )

end Cert.ReferenceIdeal.Line

end
-- ==== Proof.ReferenceRun.lean ====
/-
  The run of the reference program. Its @main is a straight line of host operations: three windows run in order,
  with two outlined functions (a rectifier and a three-way select) called once each, and a call means the callee's
  body over the call's own buffers. Written out, that line is the 147 operations of `shared ++ own`.

  Proved here, for any float values:
  * `main_eq`: the program equals the line run as one sequence;
  * `line_sub`: every buffer the line touches is a TensorCore reference;
  * `run_all`: from any memory with zero counters every weakly fair execution terminates, and every TensorCore
    buffer ends at the fold of the operations' results over the launch contents;
  * `line_keeps_arg0` … `line_keeps_arg11`: that fold leaves each argument buffer as it was, because every
    operation writes exactly one buffer and none of those is an argument;
  * `frame`: hence the program terminates with its twelve argument arrays unchanged.
-/
import proofs.«109087_j41085657153638_2_alg».proof.Proof.ReferenceLine
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-! ## The program is the line -/

-- both sides are one chain of 147 host steps; unfolding the three windows and the two outlined functions at
-- their calls nests one bind per step, so the comparison recurses that deep
set_option maxRecDepth 16384 in
/-- @main runs its three windows in order, and a call is its callee's body over the call's buffers: read that way
    the program is the straight line of the 147 operations of `shared ++ own`. Sequencing in this free monad
    computes (a bind grafts the continuation at the leaves), so the two programs are the same term once both are
    evaluated. -/
theorem main_eq (c : Dev nD) : main (F := F) c = seq (shared ++ own) := rfl

/-! ## Every buffer the line touches is a TensorCore reference -/

theorem shared_sub : (shared : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    binary_bufs_sub .., binary_bufs_sub .., binary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., binary_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub .., binary_bufs_sub .., unary_bufs_sub ..,
    reshape_bufs_sub .., unary_bufs_sub .., reshape_bufs_sub .., binary_bufs_sub .., unary_bufs_sub .., reshape_bufs_sub ..,
    unary_bufs_sub .., reshape_bufs_sub .., binary_bufs_sub .., unary_bufs_sub .., unary_bufs_sub .., unary_bufs_sub ..,
    unary_bufs_sub .., unary_bufs_sub .., unary_bufs_sub .., unary_bufs_sub .., unary_bufs_sub .., unary_bufs_sub ..,
    nary_bufs_sub .., unary_bufs_sub .., unary_bufs_sub .., binary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub ..⟩

theorem own_sub : (own : List (HloOp τ sig (Elt F))).Forall fun op => op.bufs ⊆ tcRefs τ sig :=
  ⟨nullary_bufs_sub .., unary_bufs_sub .., binary_bufs_sub .., unary_bufs_sub .., unary_bufs_sub .., unary_bufs_sub ..,
    unary_bufs_sub .., unary_bufs_sub .., unary_bufs_sub .., ternary_bufs_sub .., unary_bufs_sub .., unary_bufs_sub ..,
    reshape_bufs_sub .., unary_bufs_sub .., unary_bufs_sub .., reshape_bufs_sub .., unary_bufs_sub .., unary_bufs_sub ..,
    reshape_bufs_sub .., unary_bufs_sub .., unary_bufs_sub .., reshape_bufs_sub .., unary_bufs_sub .., unary_bufs_sub ..,
    binary_bufs_sub .., unary_bufs_sub .., binary_bufs_sub .., unary_bufs_sub .., unary_bufs_sub .., binary_bufs_sub ..,
    unary_bufs_sub .., binary_bufs_sub ..⟩

theorem line_sub : (shared ++ own : List (HloOp τ sig (Elt F))).Forall fun op => op.bufs ⊆ tcRefs τ sig :=
  List.forall_append.mpr ⟨shared_sub, own_sub⟩

/-! ## The run -/

theorem scopedRefs_eq : (Finset.univ.filter fun b : Ref sig .tc => b.isScoped) = ∅ := by decide
theorem scopedSems_eq : (Finset.univ.filter fun sm : SemLoc sig => sm.isScoped .tc) = ∅ := by decide

/-- No operation of the line leaves a result undetermined (none allocates a buffer of unspecified contents). -/
theorem shared_fresh : (shared : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

theorem own_fresh : (own : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

theorem line_fresh : ∀ op ∈ (shared ++ own : List (HloOp τ sig (Elt F))), op.fresh = ∅ :=
  List.forall_iff_forall_mem.mp (List.forall_append.mpr ⟨shared_fresh, own_fresh⟩)

/-- From any memory with zero counters every weakly fair execution of @main terminates, and each TensorCore
    buffer ends at the fold of the line's results over what the launch put there. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after (shared ++ own) (launchContents m c) (Proc.devRef .tc b) :=
  run_seq scopedRefs_eq scopedSems_eq defs main (fun _ => shared ++ own) main_eq (fun _ => line_sub) m ρ
    (fun _ => line_fresh)

/-! ## The arguments are never written

The arguments are the references 0 … 11 of HBM; every operation writes exactly one buffer, and the 147 result
buffers are the references 12 … 158 in order. So a reference below 12 is no operation's result. -/

theorem shared_writes : (shared : List (HloOp τ sig (Elt F))).Forall fun op =>
    ∃ y : Ref sig .tc, 12 ≤ y.idx.val ∧ op.writes = {Proc.devRef .tc y} :=
  ⟨⟨main_cst, by decide, rfl⟩, ⟨main_v0, by decide, rfl⟩, ⟨main_v1, by decide, rfl⟩, ⟨main_cst_0, by decide, rfl⟩, ⟨main_v2, by decide, rfl⟩,
    ⟨main_v3, by decide, rfl⟩, ⟨main_cst_1, by decide, rfl⟩, ⟨main_v4, by decide, rfl⟩, ⟨main_v5, by decide, rfl⟩, ⟨main_cst_2, by decide, rfl⟩,
    ⟨main_v6, by decide, rfl⟩, ⟨main_v7, by decide, rfl⟩, ⟨main_v8, by decide, rfl⟩, ⟨main_v9, by decide, rfl⟩, ⟨main_v10, by decide, rfl⟩,
    ⟨main_cst_3, by decide, rfl⟩, ⟨main_v11, by decide, rfl⟩, ⟨main_v12, by decide, rfl⟩, ⟨main_cst_4, by decide, rfl⟩, ⟨main_v13, by decide, rfl⟩,
    ⟨main_v14, by decide, rfl⟩, ⟨main_cst_5, by decide, rfl⟩, ⟨main_v15, by decide, rfl⟩, ⟨main_v16, by decide, rfl⟩, ⟨main_cst_6, by decide, rfl⟩,
    ⟨main_v17, by decide, rfl⟩, ⟨main_v18, by decide, rfl⟩, ⟨main_v19, by decide, rfl⟩, ⟨main_v20, by decide, rfl⟩, ⟨main_v21, by decide, rfl⟩,
    ⟨main_v22, by decide, rfl⟩, ⟨main_v23, by decide, rfl⟩, ⟨main_v24, by decide, rfl⟩, ⟨main_v25, by decide, rfl⟩, ⟨main_v26, by decide, rfl⟩,
    ⟨main_v27, by decide, rfl⟩, ⟨main_v28, by decide, rfl⟩, ⟨main_v29, by decide, rfl⟩, ⟨main_v30, by decide, rfl⟩, ⟨main_v31, by decide, rfl⟩,
    ⟨main_v32, by decide, rfl⟩, ⟨main_v33, by decide, rfl⟩, ⟨main_v34, by decide, rfl⟩, ⟨main_v35, by decide, rfl⟩, ⟨main_v36, by decide, rfl⟩,
    ⟨main_v37, by decide, rfl⟩, ⟨main_v38, by decide, rfl⟩, ⟨main_v39, by decide, rfl⟩, ⟨main_v40, by decide, rfl⟩, ⟨main_v41, by decide, rfl⟩,
    ⟨main_v42, by decide, rfl⟩, ⟨main_v43, by decide, rfl⟩, ⟨main_v44, by decide, rfl⟩, ⟨main_v45, by decide, rfl⟩, ⟨main_v46, by decide, rfl⟩,
    ⟨main_v47, by decide, rfl⟩, ⟨main_v48, by decide, rfl⟩, ⟨main_v49, by decide, rfl⟩, ⟨main_v50, by decide, rfl⟩, ⟨main_v51, by decide, rfl⟩,
    ⟨main_v52, by decide, rfl⟩, ⟨main_v53, by decide, rfl⟩, ⟨main_v54, by decide, rfl⟩, ⟨main_v55, by decide, rfl⟩, ⟨main_v56, by decide, rfl⟩,
    ⟨main_v57, by decide, rfl⟩, ⟨main_v58, by decide, rfl⟩, ⟨main_v59, by decide, rfl⟩, ⟨main_v60, by decide, rfl⟩, ⟨main_v61, by decide, rfl⟩,
    ⟨main_v62, by decide, rfl⟩, ⟨main_v63, by decide, rfl⟩, ⟨main_v64, by decide, rfl⟩, ⟨main_v65, by decide, rfl⟩, ⟨main_v66, by decide, rfl⟩,
    ⟨main_v67, by decide, rfl⟩, ⟨main_v68, by decide, rfl⟩, ⟨main_v69, by decide, rfl⟩, ⟨main_call0_cst, by decide, rfl⟩, ⟨main_call0_v0, by decide, rfl⟩,
    ⟨main_v70, by decide, rfl⟩, ⟨main_v71, by decide, rfl⟩, ⟨main_v72, by decide, rfl⟩, ⟨main_v73, by decide, rfl⟩, ⟨main_v74, by decide, rfl⟩,
    ⟨main_v75, by decide, rfl⟩, ⟨main_v76, by decide, rfl⟩, ⟨main_cst_7, by decide, rfl⟩, ⟨main_v77, by decide, rfl⟩, ⟨main_v78, by decide, rfl⟩,
    ⟨main_cst_8, by decide, rfl⟩, ⟨main_v79, by decide, rfl⟩, ⟨main_v80, by decide, rfl⟩, ⟨main_v81, by decide, rfl⟩, ⟨main_v82, by decide, rfl⟩,
    ⟨main_v83, by decide, rfl⟩, ⟨main_v84, by decide, rfl⟩, ⟨main_v85, by decide, rfl⟩, ⟨main_v86, by decide, rfl⟩, ⟨main_v87, by decide, rfl⟩,
    ⟨main_c, by decide, rfl⟩, ⟨main_v88, by decide, rfl⟩, ⟨main_v89, by decide, rfl⟩, ⟨main_c_9, by decide, rfl⟩, ⟨main_v90, by decide, rfl⟩,
    ⟨main_v91, by decide, rfl⟩, ⟨main_c_10, by decide, rfl⟩, ⟨main_v92, by decide, rfl⟩, ⟨main_v93, by decide, rfl⟩, ⟨main_c_11, by decide, rfl⟩,
    ⟨main_v94, by decide, rfl⟩, ⟨main_v95, by decide, rfl⟩, ⟨main_v96, by decide, rfl⟩, ⟨main_v97, by decide, rfl⟩, ⟨main_v98, by decide, rfl⟩⟩

theorem own_writes : (own : List (HloOp τ sig (Elt F))).Forall fun op =>
    ∃ y : Ref sig .tc, 12 ≤ y.idx.val ∧ op.writes = {Proc.devRef .tc y} :=
  ⟨⟨main_c_12, by decide, rfl⟩, ⟨main_v99, by decide, rfl⟩, ⟨main_v100, by decide, rfl⟩, ⟨main_v101, by decide, rfl⟩, ⟨main_v102, by decide, rfl⟩,
    ⟨main_v103, by decide, rfl⟩, ⟨main_call1_v0, by decide, rfl⟩, ⟨main_call1_v1, by decide, rfl⟩, ⟨main_call1_v2, by decide, rfl⟩, ⟨main_v104, by decide, rfl⟩,
    ⟨main_v105, by decide, rfl⟩, ⟨main_v106, by decide, rfl⟩, ⟨main_v107, by decide, rfl⟩, ⟨main_v108, by decide, rfl⟩, ⟨main_v109, by decide, rfl⟩,
    ⟨main_v110, by decide, rfl⟩, ⟨main_v111, by decide, rfl⟩, ⟨main_v112, by decide, rfl⟩, ⟨main_v113, by decide, rfl⟩, ⟨main_v114, by decide, rfl⟩,
    ⟨main_v115, by decide, rfl⟩, ⟨main_v116, by decide, rfl⟩, ⟨main_v117, by decide, rfl⟩, ⟨main_v118, by decide, rfl⟩, ⟨main_v119, by decide, rfl⟩,
    ⟨main_v120, by decide, rfl⟩, ⟨main_v121, by decide, rfl⟩, ⟨main_v122, by decide, rfl⟩, ⟨main_v123, by decide, rfl⟩, ⟨main_v124, by decide, rfl⟩,
    ⟨main_v125, by decide, rfl⟩, ⟨main_v126, by decide, rfl⟩⟩

/-- A reference below 12 keeps its contents through the whole line. -/
theorem line_keeps (V : Valuation τ sig (Elt F)) (r : Ref sig .tc) (hr : r.idx.val < 12) :
    after (shared ++ own) V (Proc.devRef .tc r) = V (Proc.devRef .tc r) :=
  after_of_forall_not_mem _ V fun op hop hb => by
    obtain ⟨y, hy, hw⟩ := List.forall_iff_forall_mem.mp (List.forall_append.mpr ⟨shared_writes, own_writes⟩) op hop
    rw [hw, Finset.mem_singleton] at hb
    have hry : r = y := Proc.devRef_injective _ hb
    subst hry
    omega

theorem line_keeps_arg0 (V : Valuation τ sig (Elt F)) :
    after (shared ++ own) V (Proc.devRef .tc main_arg0) = V (Proc.devRef .tc main_arg0) :=
  line_keeps V main_arg0 (by decide)
theorem line_keeps_arg1 (V : Valuation τ sig (Elt F)) :
    after (shared ++ own) V (Proc.devRef .tc main_arg1) = V (Proc.devRef .tc main_arg1) :=
  line_keeps V main_arg1 (by decide)
theorem line_keeps_arg2 (V : Valuation τ sig (Elt F)) :
    after (shared ++ own) V (Proc.devRef .tc main_arg2) = V (Proc.devRef .tc main_arg2) :=
  line_keeps V main_arg2 (by decide)
theorem line_keeps_arg3 (V : Valuation τ sig (Elt F)) :
    after (shared ++ own) V (Proc.devRef .tc main_arg3) = V (Proc.devRef .tc main_arg3) :=
  line_keeps V main_arg3 (by decide)
theorem line_keeps_arg4 (V : Valuation τ sig (Elt F)) :
    after (shared ++ own) V (Proc.devRef .tc main_arg4) = V (Proc.devRef .tc main_arg4) :=
  line_keeps V main_arg4 (by decide)
theorem line_keeps_arg5 (V : Valuation τ sig (Elt F)) :
    after (shared ++ own) V (Proc.devRef .tc main_arg5) = V (Proc.devRef .tc main_arg5) :=
  line_keeps V main_arg5 (by decide)
theorem line_keeps_arg6 (V : Valuation τ sig (Elt F)) :
    after (shared ++ own) V (Proc.devRef .tc main_arg6) = V (Proc.devRef .tc main_arg6) :=
  line_keeps V main_arg6 (by decide)
theorem line_keeps_arg7 (V : Valuation τ sig (Elt F)) :
    after (shared ++ own) V (Proc.devRef .tc main_arg7) = V (Proc.devRef .tc main_arg7) :=
  line_keeps V main_arg7 (by decide)
theorem line_keeps_arg8 (V : Valuation τ sig (Elt F)) :
    after (shared ++ own) V (Proc.devRef .tc main_arg8) = V (Proc.devRef .tc main_arg8) :=
  line_keeps V main_arg8 (by decide)
theorem line_keeps_arg9 (V : Valuation τ sig (Elt F)) :
    after (shared ++ own) V (Proc.devRef .tc main_arg9) = V (Proc.devRef .tc main_arg9) :=
  line_keeps V main_arg9 (by decide)
theorem line_keeps_arg10 (V : Valuation τ sig (Elt F)) :
    after (shared ++ own) V (Proc.devRef .tc main_arg10) = V (Proc.devRef .tc main_arg10) :=
  line_keeps V main_arg10 (by decide)
theorem line_keeps_arg11 (V : Valuation τ sig (Elt F)) :
    after (shared ++ own) V (Proc.devRef .tc main_arg11) = V (Proc.devRef .tc main_arg11) :=
  line_keeps V main_arg11 (by decide)

/-! ## The frame -/

/-- @main runs to its end from any memory with zero counters, and its twelve argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c main_arg0).trans (line_keeps_arg0 _),
     (h c main_arg1).trans (line_keeps_arg1 _),
     (h c main_arg2).trans (line_keeps_arg2 _),
     (h c main_arg3).trans (line_keeps_arg3 _),
     (h c main_arg4).trans (line_keeps_arg4 _),
     (h c main_arg5).trans (line_keeps_arg5 _),
     (h c main_arg6).trans (line_keeps_arg6 _),
     (h c main_arg7).trans (line_keeps_arg7 _),
     (h c main_arg8).trans (line_keeps_arg8 _),
     (h c main_arg9).trans (line_keeps_arg9 _),
     (h c main_arg10).trans (line_keeps_arg10 _),
     (h c main_arg11).trans (line_keeps_arg11 _)⟩)
    (run_all m ρ)

end Cert.ReferenceIdeal.Line

end
-- ==== Proof.ReferenceValue.lean ====
/-
  The reference's own operations, read at one index of the result.

  From the streamed input `z`, the mask, the per-sample coefficients `eta : [64, 4]` and the fault-table rows
  `fault : [4, 512, 4]`, the reference builds the selected coefficients as one `[4, 512, 64, 4]` array (the healthy
  flag, `eta` and `fault` each broadcast to that shape, then `select`), transposes it to `[4, 64, 512, 4]`, and for
  each `k` takes plane `k` of the last axis, drops that axis, and broadcasts along a new batch axis to the input's
  shape; the result is plane 0 + plane 1 · tanh ((z − plane 2) · plane 3).

  Every one of these layout operations reads, at an index, its operand at one index; followed through, the entry at
  `(m, n, b, c)` of plane `k` is the coefficient `k` in force at mask row `m`, sample `n`, channel `c`, whatever `b`,
  and the result's entry there is the specification's.
-/
import proofs.«109087_j41085657153638_2_alg».proof.Proof.ReferenceLine
import proofs.«109087_j41085657153638_2_alg».proof.Proof.AffineTanh
import Idealize.ShloMosaic.Lib.Pipeline.Value
import Idealize.ShloMosaic.Lib.ValueIdx
import Idealize.ShloMosaic.PureOps.Ideal
import Idealize.ShloMosaic.Lib.StableHlo.Run

set_option maxRecDepth 16384

noncomputable section

namespace Cert.ReferenceIdeal.Line

open Idealize.ShloMosaic Idealize.ShloMosaic.TcCoe Idealize.ShloMosaic.ValueIdx Idealize.ShloMosaic.StableHlo
open Idealize.SL.Sem
open Cert.ReferenceIdeal Cert.ReferenceIdeal.Gen

/-! ## The result as one term over the four arrays -/

/-- The channels of each mask row whose mask word is 0, as the program computes them. -/
def healthy (mask : (⟨S4x512, .i32⟩ : BufTy).Contents (Elt Ideal)) : IVec S4x512 1 :=
  cmpi .eq mask (broadcastInDim S4x512 ![] bcast_S_S4x512 (constantI S_ 32 0#32))

/-- The coefficient in force at every (mask row, channel, sample, k): the healthy flag, the per-sample coefficients and
    the fault-table rows each spread over the axes they do not depend on, then chosen between. -/
def selected (hl : IVec S4x512 1) (eta : FVec Ideal S64x4 .f32) (fault : FVec Ideal S4x512x4 .f32) : FVec Ideal S4x512x64x4 .f32 :=
  select
    (broadcastInDim S4x512x64x4 ![0, 1, 2, 3] bcast_S4x512x1x1_S4x512x64x4_0_1_2_3
      (broadcastInDim S4x512x1x1 ![0, 1] bcast_S4x512_S4x512x1x1_0_1 hl))
    (broadcastInDim S4x512x64x4 ![0, 1, 2, 3] bcast_S1x1x64x4_S4x512x64x4_0_1_2_3
      (broadcastInDim S1x1x64x4 ![2, 3] bcast_S64x4_S1x1x64x4_2_3 eta))
    (broadcastInDim S4x512x64x4 ![0, 1, 2, 3] bcast_S4x512x1x4_S4x512x64x4_0_1_2_3
      (broadcastInDim S4x512x1x4 ![0, 1, 3] bcast_S4x512x4_S4x512x1x4_0_1_3 fault))

/-- Plane `k` of the selected coefficients, transposed to (mask row, sample, channel) and spread along the batch axis. -/
def plane (k : Nat) (h : S4x64x512x4.Slices ![0, 0, 0, k] S4x64x512x1) (sel : FVec Ideal S4x512x64x4 .f32) : FVec Ideal S4x64x256x512 .f32 :=
  broadcastInDim S4x64x256x512 ![0, 1, 2, 3] bcast_S4x64x1x512_S4x64x256x512_0_1_2_3
    (broadcastInDim S4x64x1x512 ![0, 1, 3] bcast_S4x64x512_S4x64x1x512_0_1_3
      (shapeCast S4x64x512
        (extractStridedSlice S4x64x512x1 ![0, 0, 0, k]
          (transpose S4x64x512x4 [0, 2, 1, 3] sel transposes_S4x512x64x4_S4x64x512x4_0_2_1_3) h)
        shapeCasts_S4x64x512x1_S4x64x512))

/-- The four planes combined with the input: plane 0 + plane 1 · tanh ((z − plane 2) · plane 3), elementwise. -/
def combined (z : FVec Ideal S4x64x256x512 .f32) (sel : FVec Ideal S4x512x64x4 .f32) : FVec Ideal S4x64x256x512 .f32 :=
  addf (plane 0 slices_S4x64x512x4_S4x64x512x1_0_0_0_0 sel)
    (mulf (plane 1 slices_S4x64x512x4_S4x64x512x1_0_0_0_1 sel)
      (Host.tanh (mulf (subf z (plane 2 slices_S4x64x512x4_S4x64x512x1_0_0_0_2 sel))
        (plane 3 slices_S4x64x512x4_S4x64x512x1_0_0_0_3 sel))))

/-- The result buffer after the reference's own operations, over the contents of the four buffers they start from:
    each operation's result substituted into its consumers. -/
theorem result_term (W : Valuation τ sig (Elt Ideal)) :
    after (own (F := Ideal)) W (Proc.devRef .tc main_v126)
      = combined (W (Proc.devRef .tc main_arg0))
          (selected (healthy (W (Proc.devRef .tc main_arg11))) (W (Proc.devRef .tc main_v87)) (W (Proc.devRef .tc main_v98))) := by
  after_results_simp
  rfl

/-! ## The selected coefficients at an index -/

/-- The healthy flag spread over samples and coefficients reads the flag of its mask row and channel. -/
theorem healthy_spread_at (hl : IVec S4x512 1) (m : Fin 4) (c : Fin 512) (n : Fin 64) (k : Fin 4) :
    broadcastInDim S4x512x64x4 ![0, 1, 2, 3] bcast_S4x512x1x1_S4x512x64x4_0_1_2_3
        (broadcastInDim S4x512x1x1 ![0, 1] bcast_S4x512_S4x512x1x1_0_1 hl) (ix4 m c n k) = hl (ix2 m c) :=
  (broadcastInDim_apply _ _ _ (ix4 m c n k) (ix4 m c 0 0) (fun a => match a with
    | ⟨0, _⟩ => rfl
    | ⟨1, _⟩ => rfl
    | ⟨2, _⟩ => rfl
    | ⟨3, _⟩ => rfl)).trans
  (broadcastInDim_apply _ _ _ (ix4 m c 0 0) (ix2 m c) (fun a => match a with
    | ⟨0, _⟩ => rfl
    | ⟨1, _⟩ => rfl))

/-- The per-sample coefficients spread over mask rows and channels read the coefficient of their sample. -/
theorem eta_spread_at (eta : FVec Ideal S64x4 .f32) (m : Fin 4) (c : Fin 512) (n : Fin 64) (k : Fin 4) :
    broadcastInDim S4x512x64x4 ![0, 1, 2, 3] bcast_S1x1x64x4_S4x512x64x4_0_1_2_3
        (broadcastInDim S1x1x64x4 ![2, 3] bcast_S64x4_S1x1x64x4_2_3 eta) (ix4 m c n k) = eta (ix2 n k) :=
  (broadcastInDim_apply _ _ _ (ix4 m c n k) (ix4 0 0 n k) (fun a => match a with
    | ⟨0, _⟩ => rfl
    | ⟨1, _⟩ => rfl
    | ⟨2, _⟩ => rfl
    | ⟨3, _⟩ => rfl)).trans
  (broadcastInDim_apply _ _ _ (ix4 0 0 n k) (ix2 n k) (fun a => match a with
    | ⟨0, _⟩ => rfl
    | ⟨1, _⟩ => rfl))

/-- The fault-table rows spread over samples read the row of their mask row and channel. -/
theorem fault_spread_at (fault : FVec Ideal S4x512x4 .f32) (m : Fin 4) (c : Fin 512) (n : Fin 64) (k : Fin 4) :
    broadcastInDim S4x512x64x4 ![0, 1, 2, 3] bcast_S4x512x1x4_S4x512x64x4_0_1_2_3
        (broadcastInDim S4x512x1x4 ![0, 1, 3] bcast_S4x512x4_S4x512x1x4_0_1_3 fault) (ix4 m c n k) = fault (ix3 m c k) :=
  (broadcastInDim_apply _ _ _ (ix4 m c n k) (ix4 m c 0 k) (fun a => match a with
    | ⟨0, _⟩ => rfl
    | ⟨1, _⟩ => rfl
    | ⟨2, _⟩ => rfl
    | ⟨3, _⟩ => rfl)).trans
  (broadcastInDim_apply _ _ _ (ix4 m c 0 k) (ix3 m c k) (fun a => match a with
    | ⟨0, _⟩ => rfl
    | ⟨1, _⟩ => rfl
    | ⟨2, _⟩ => rfl))

/-- The selected coefficient at (mask row, channel, sample, k): the sample's on a healthy channel, the fault row's otherwise. -/
theorem selected_at (hl : IVec S4x512 1) (eta : FVec Ideal S64x4 .f32) (fault : FVec Ideal S4x512x4 .f32)
    (m : Fin 4) (c : Fin 512) (n : Fin 64) (k : Fin 4) :
    selected hl eta fault (ix4 m c n k) = Scalar.select (hl (ix2 m c)) (eta (ix2 n k)) (fault (ix3 m c k)) := by
  unfold selected
  show Scalar.select _ _ _ = _
  rw [healthy_spread_at hl m c n k, eta_spread_at eta m c n k, fault_spread_at fault m c n k]

/-! ## A plane at an index -/

/-- Plane `k` at (mask row, sample, batch position, channel) is the selected coefficient `k` of that mask row, channel
    and sample, whatever the batch position: the two broadcasts drop the batch coordinate, the reshape and the slice put
    `k` on the last axis, and the transpose swaps sample and channel back. -/
theorem plane_at (k : Nat) (hk : k < 4) (h : S4x64x512x4.Slices ![0, 0, 0, k] S4x64x512x1) (sel : FVec Ideal S4x512x64x4 .f32)
    (m : Fin 4) (n : Fin 64) (b : Fin 256) (c : Fin 512) :
    plane k h sel (ix4 m n b c) = sel (ix4 m c n ⟨k, hk⟩) := by
  unfold plane
  refine (broadcastInDim_apply _ _ _ (ix4 m n b c) (ix4 m n 0 c) (fun a => match a with
    | ⟨0, _⟩ => rfl
    | ⟨1, _⟩ => rfl
    | ⟨2, _⟩ => rfl
    | ⟨3, _⟩ => rfl)).trans ?_
  refine (broadcastInDim_apply _ _ _ (ix4 m n 0 c) (ix3 m n c) (fun a => match a with
    | ⟨0, _⟩ => rfl
    | ⟨1, _⟩ => rfl
    | ⟨2, _⟩ => rfl)).trans ?_
  refine (shapeCast_apply _ _ (ix3 m n c) (ix4 m n c 0) (by
    rw [Shape.rowMajor_val_four, Shape.rowMajor_val_three]
    show ((m.val * 64 + n.val) * 512 + c.val) * 1 + 0 = (m.val * 64 + n.val) * 512 + c.val
    omega)).trans ?_
  refine (extractStridedSlice_apply _ _ h (ix4 m n c 0) (ix4 m n c ⟨k, hk⟩) (fun a => match a with
    | ⟨0, _⟩ => by show m.val = 0 + m.val; omega
    | ⟨1, _⟩ => by show n.val = 0 + n.val; omega
    | ⟨2, _⟩ => by show c.val = 0 + c.val; omega
    | ⟨3, _⟩ => by show k = k + 0; omega)).trans ?_
  exact transpose_apply _ _ _ (ix4 m n c ⟨k, hk⟩) (ix4 m c n ⟨k, hk⟩) (fun a => match a with
    | ⟨0, _⟩ => rfl
    | ⟨1, _⟩ => rfl
    | ⟨2, _⟩ => rfl
    | ⟨3, _⟩ => rfl)

/-! ## The result at an index -/

theorem tanh_at {s : Shape} {φ : FTy} (a : FVec Ideal s φ) (i : s.Idx) : Host.tanh a i = Ideal.tanh (a i) := rfl

/-- The combination at (mask row, sample, batch position, channel), over the selected coefficients there. -/
theorem combined_at (z : FVec Ideal S4x64x256x512 .f32) (sel : FVec Ideal S4x512x64x4 .f32)
    (m : Fin 4) (n : Fin 64) (b : Fin 256) (c : Fin 512) :
    combined z sel (ix4 m n b c)
      = sel (ix4 m c n 0) + sel (ix4 m c n 1) * Ideal.tanh ((z (ix4 m n b c) - sel (ix4 m c n 2)) * sel (ix4 m c n 3)) := by
  have e0 := plane_at 0 (by omega) slices_S4x64x512x4_S4x64x512x1_0_0_0_0 sel m n b c
  have e1 := plane_at 1 (by omega) slices_S4x64x512x4_S4x64x512x1_0_0_0_1 sel m n b c
  have e2 := plane_at 2 (by omega) slices_S4x64x512x4_S4x64x512x1_0_0_0_2 sel m n b c
  have e3 := plane_at 3 (by omega) slices_S4x64x512x4_S4x64x512x1_0_0_0_3 sel m n b c
  unfold combined
  simp only [addf_apply, mulf_apply, subf_apply, tanh_at]
  rw [e0, e1, e2, e3]
  rfl

/-- THE RESULT at (mask row, sample, batch position, channel) is the specification's value there, of the input, the
    healthy flags, the per-sample coefficients and the fault-table rows as the reference's own operations find them. -/
theorem result_at (W : Valuation τ sig (Elt Ideal)) (m : Fin 4) (n : Fin 64) (b : Fin 256) (c : Fin 512) :
    after (own (F := Ideal)) W (Proc.devRef .tc main_v126) (ValueIdx.ix4 m n b c)
      = Cert.AffineTanh.valueAt (W (Proc.devRef .tc main_arg0)) (healthy (W (Proc.devRef .tc main_arg11)))
          (W (Proc.devRef .tc main_v87)) (W (Proc.devRef .tc main_v98)) m n b c := by
  rw [result_term, combined_at, selected_at, selected_at, selected_at, selected_at]
  rfl

end Cert.ReferenceIdeal.Line

end
-- ==== Proof.SharedFault.lean ====
/-
  The fault-table rows both programs gather are the same array.

  Both host lines start by writing the same 12 × 4 table of constants, and near their end compute, from the mask words
  alone, a row index for every (mask row, channel) — the mask word less one, clamped below at 0, with 12 added when
  negative (which after the clamp it never is) — and gather the table's rows at those indices. The ninety-nine
  operations in between write neither the table nor anything the index computation reads. So when the two memories hold
  the same mask, the two gathered `[4, 512, 4]` arrays are equal: the same function of the same mask and the same table.
-/
import proofs.«109087_j41085657153638_2_alg».proof.Proof.KernelIdealLine
import proofs.«109087_j41085657153638_2_alg».proof.Proof.ReferenceLine
import Idealize.ShloMosaic.PureOps.Ideal
import Idealize.ShloMosaic.Lib.StableHlo.Run

set_option maxRecDepth 16384

noncomputable section

namespace Cert.SharedFault

open Idealize.ShloMosaic Idealize.ShloMosaic.TcCoe Idealize.ShloMosaic.StableHlo
open Idealize.SL.Sem

/-- The two programs' tables of constants have the same 48 words. -/
theorem table_words : Cert.ReferenceIdeal.lit0 = Cert.KernelIdeal.lit0 := by
  funext i; fin_cases i <;> rfl

set_option maxHeartbeats 8000000 in
/-- With the same mask in the two memories, the two lines leave the same gathered rows: each side's result, its
    operations' results substituted into their consumers, is the gather of the table at the indices computed from
    the mask, and the two spellings are the same term once the masks and the tables are identified. -/
theorem fault_agree (Vk : Valuation Cert.KernelIdeal.τ Cert.KernelIdeal.sig (Elt Ideal)) (Vr : Valuation Cert.ReferenceIdeal.τ Cert.ReferenceIdeal.sig (Elt Ideal))
    (h11 : Vr (Proc.devRef .tc Cert.ReferenceIdeal.main_arg11) = Vk (Proc.devRef .tc Cert.KernelIdeal.main_arg11)) :
    after (Cert.ReferenceIdeal.Line.shared (F := Ideal)) Vr (Proc.devRef .tc Cert.ReferenceIdeal.main_v98)
      = after (Cert.KernelIdeal.Line.shared (F := Ideal)) Vk (Proc.devRef .tc Cert.KernelIdeal.main_v98) := by
  after_results_simp
  rw [h11, table_words]
  rfl

end Cert.SharedFault

end
-- ==== Proof.Agreement.lean ====
/-
  The reference's result is the kernel program's result, from launch memories that agree on the arguments.

  Both results are the specification's `value` (module AffineTanh) of `z`, the healthy flags of the mask, and the arrays `eta`
  and `fault` that the shared part of the host line leaves. The shared line writes no argument, so `z` and the mask are the
  launch contents, on which the two memories agree; the two programs spell the healthy flags alike; and `eta`, `fault` are
  equal in the two programs because the shared lines are the same operations of arguments that agree (`heta`, taken as a
  hypothesis here, and `SharedFault.fault_agree`).
-/
import proofs.«109087_j41085657153638_2_alg».proof.Proof.KernelValue
import proofs.«109087_j41085657153638_2_alg».proof.Proof.ReferenceRun
import proofs.«109087_j41085657153638_2_alg».proof.Proof.ReferenceValue
import proofs.«109087_j41085657153638_2_alg».proof.Proof.SharedFault

set_option maxRecDepth 16384

noncomputable section

namespace Cert.Agreement

open Idealize.ShloMosaic Idealize.ShloMosaic.TcCoe Idealize.ShloMosaic.ValueIdx Idealize.SL.Sem Idealize.ShloMosaic.StableHlo

/-- The two programs compute the healthy flags by the same comparison. -/
theorem healthy_agree (x : (⟨Cert.ReferenceIdeal.S4x512, .i32⟩ : BufTy).Contents (Elt Ideal)) :
    Cert.ReferenceIdeal.Line.healthy x = Cert.KernelIdeal.Line.healthy x := rfl

/-- The reference's shared line writes neither `z` nor the mask. -/
theorem ref_shared_keeps_z (V : Valuation Cert.ReferenceIdeal.τ Cert.ReferenceIdeal.sig (Elt Ideal)) :
    after (Cert.ReferenceIdeal.Line.shared (F := Ideal)) V (Proc.devRef .tc Cert.ReferenceIdeal.main_arg0) = V (Proc.devRef .tc Cert.ReferenceIdeal.main_arg0) :=
  StableHlo.after_of_forall_not_mem (b := Proc.devRef .tc Cert.ReferenceIdeal.main_arg0) _ _ (List.forall_iff_forall_mem.mp (by
    simp only [Cert.ReferenceIdeal.Line.shared, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
theorem ref_shared_keeps_mask (V : Valuation Cert.ReferenceIdeal.τ Cert.ReferenceIdeal.sig (Elt Ideal)) :
    after (Cert.ReferenceIdeal.Line.shared (F := Ideal)) V (Proc.devRef .tc Cert.ReferenceIdeal.main_arg11) = V (Proc.devRef .tc Cert.ReferenceIdeal.main_arg11) :=
  StableHlo.after_of_forall_not_mem (b := Proc.devRef .tc Cert.ReferenceIdeal.main_arg11) _ _ (List.forall_iff_forall_mem.mp (by
    simp only [Cert.ReferenceIdeal.Line.shared, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-- The reference's whole line, read at its result, is the kernel program's result. -/
theorem reference_result
    (heta : ∀ (Vk : Valuation Cert.KernelIdeal.τ Cert.KernelIdeal.sig (Elt Ideal)) (Vr : Valuation Cert.ReferenceIdeal.τ Cert.ReferenceIdeal.sig (Elt Ideal)) (h1 : Vr (Proc.devRef .tc Cert.ReferenceIdeal.main_arg1) = Vk (Proc.devRef .tc Cert.KernelIdeal.main_arg1)) (h2 : Vr (Proc.devRef .tc Cert.ReferenceIdeal.main_arg2) = Vk (Proc.devRef .tc Cert.KernelIdeal.main_arg2)) (h3 : Vr (Proc.devRef .tc Cert.ReferenceIdeal.main_arg3) = Vk (Proc.devRef .tc Cert.KernelIdeal.main_arg3)) (h4 : Vr (Proc.devRef .tc Cert.ReferenceIdeal.main_arg4) = Vk (Proc.devRef .tc Cert.KernelIdeal.main_arg4)) (h5 : Vr (Proc.devRef .tc Cert.ReferenceIdeal.main_arg5) = Vk (Proc.devRef .tc Cert.KernelIdeal.main_arg5)) (h6 : Vr (Proc.devRef .tc Cert.ReferenceIdeal.main_arg6) = Vk (Proc.devRef .tc Cert.KernelIdeal.main_arg6)) (h7 : Vr (Proc.devRef .tc Cert.ReferenceIdeal.main_arg7) = Vk (Proc.devRef .tc Cert.KernelIdeal.main_arg7)) (h8 : Vr (Proc.devRef .tc Cert.ReferenceIdeal.main_arg8) = Vk (Proc.devRef .tc Cert.KernelIdeal.main_arg8)) (h9 : Vr (Proc.devRef .tc Cert.ReferenceIdeal.main_arg9) = Vk (Proc.devRef .tc Cert.KernelIdeal.main_arg9)) (h10 : Vr (Proc.devRef .tc Cert.ReferenceIdeal.main_arg10) = Vk (Proc.devRef .tc Cert.KernelIdeal.main_arg10)) (h11 : Vr (Proc.devRef .tc Cert.ReferenceIdeal.main_arg11) = Vk (Proc.devRef .tc Cert.KernelIdeal.main_arg11)),
      after (Cert.ReferenceIdeal.Line.shared (F := Ideal)) Vr (Proc.devRef .tc Cert.ReferenceIdeal.main_v87) = after (Cert.KernelIdeal.Line.shared (F := Ideal)) Vk (Proc.devRef .tc Cert.KernelIdeal.main_v87))
    (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    after (Cert.ReferenceIdeal.Line.shared (F := Ideal) ++ Cert.ReferenceIdeal.Line.own (F := Ideal)) (launchContents m' c) (Proc.devRef .tc Cert.ReferenceIdeal.main_v126)
      = Cert.KernelIdeal.Region.resultOf m c := by
  rw [Cert.KernelIdeal.Region.after_append]
  funext j
  obtain ⟨mm, n, b, cc, rfl⟩ : ∃ (mm : Fin 4) (n : Fin 64) (b : Fin 256) (cc : Fin 512), j = ix4 mm n b cc :=
    ⟨j 0, j 1, j 2, j 3, eq_ix4 j⟩
  refine (Cert.ReferenceIdeal.Line.result_at _ mm n b cc).trans ?_
  unfold Cert.KernelIdeal.Region.resultOf Cert.KernelIdeal.Region.afterShared
  rw [Cert.AffineTanh.value_apply, ref_shared_keeps_z, ref_shared_keeps_mask, healthy_agree,
    heta (launchContents m c) (launchContents m' c) a1 a2 a3 a4 a5 a6 a7 a8 a9 a10 a11,
    Cert.SharedFault.fault_agree (launchContents m c) (launchContents m' c) a11]
  show Cert.AffineTanh.valueAt (m' ((c.tc : Thread Cert.ReferenceIdeal.nD Cert.ReferenceIdeal.τ).loc Cert.ReferenceIdeal.main_arg0))
      (Cert.KernelIdeal.Line.healthy (m' ((c.tc : Thread Cert.ReferenceIdeal.nD Cert.ReferenceIdeal.τ).loc Cert.ReferenceIdeal.main_arg11))) _ _ mm n b cc = _
  rw [a0, a11]

end Cert.Agreement

end
-- ==== Proof.SharedParts.lean ====
/-
  The coefficient preprocessing that the kernel program and the reference program share — the 115 host operations up
  to `eta : [64, 4]` and the gathered fault rows — cut, in each program, into ten consecutive parts. The cuts are where
  few values are live, and each concatenation is a part of its own. For every part: what it writes (so what it
  leaves alone), and the buffers' contents when it starts.
-/
import proofs.«109087_j41085657153638_2_alg».proof.Proof.KernelIdealLine
import proofs.«109087_j41085657153638_2_alg».proof.Proof.ReferenceLine
import Idealize.ShloMosaic.Lib.StableHlo.Run

noncomputable section

namespace Cert.SharedCoefficients

open Idealize.ShloMosaic Idealize.ShloMosaic.TcCoe Idealize.SL.Sem Idealize.ShloMosaic.StableHlo

variable {F : FTy → Type} [FloatOps F]

/-! ## Two general facts about a line's fold -/

section General

variable {τ : Topo} {sig : RefSig} {Val : EltTy → Type}

/-- Running a concatenation is running the first line, then the second from where the first ended. -/
theorem after_append (a b : List (HloOp τ sig Val)) (V : Valuation τ sig Val) :
    after (a ++ b) V = after b (after a V) := by
  induction a generalizing V with
  | nil => rfl
  | cons op a ih => simp only [List.cons_append, after_cons, ih]

/-- If every operation of a line writes exactly one buffer, a TensorCore reference of index at least `n`, then a
    reference of index below `n` is no operation's result and keeps its contents through the line. -/
theorem keeps_of_writes (ops : List (HloOp τ sig Val)) (n : Nat)
    (hw : ops.Forall fun op => ∃ y : Ref sig .tc, n ≤ y.idx.val ∧ op.writes = {Proc.devRef .tc y})
    (V : Valuation τ sig Val) (r : Ref sig .tc) (hr : r.idx.val < n) :
    after ops V (Proc.devRef .tc r) = V (Proc.devRef .tc r) :=
  after_of_forall_not_mem ops V fun op hop hb => by
    obtain ⟨y, hy, hwr⟩ := List.forall_iff_forall_mem.mp hw op hop
    rw [hwr, Finset.mem_singleton] at hb
    have hry : r = y := Proc.devRef_injective _ hb
    subst hry
    omega

end General

/-! ## The shared line in ten parts, in each program

The two programs spell the shared line alike, operation for operation, over buffers of the same indices: the parts
below are the same text read in each program's own vocabulary. -/

namespace R

open Cert.ReferenceIdeal Cert.ReferenceIdeal.Facts₀

set_option maxHeartbeats 40000000 in
/-- Operations 1 … 11 of the shared line. -/
abbrev partA : List (HloOp τ sig (Elt F)) :=
  ( StableHlo.nullary main_cst (fun i => FloatOps.ofBits .f32 (lit0 (S12x4.rowMajor i)))
  :: StableHlo.unary main_arg1 main_v0 (Host.negf : (⟨S6, .f32⟩ : BufTy).Contents (Elt F) → (⟨S6, .f32⟩ : BufTy).Contents (Elt F))
  :: StableHlo.unary main_v0 main_v1 (Host.exp : (⟨S6, .f32⟩ : BufTy).Contents (Elt F) → (⟨S6, .f32⟩ : BufTy).Contents (Elt F))
  :: StableHlo.nullary main_cst_0 (constant S_ .f32 0x3F800000#32)
  :: StableHlo.unary main_cst_0 main_v2 (broadcastInDim S6 ![] bcast_S_S6 : (⟨S_, .f32⟩ : BufTy).Contents (Elt F) → (⟨S6, .f32⟩ : BufTy).Contents (Elt F))
  :: StableHlo.binary main_v2 main_v1 main_v3 (addf : (⟨S6, .f32⟩ : BufTy).Contents (Elt F) → (⟨S6, .f32⟩ : BufTy).Contents (Elt F) → (⟨S6, .f32⟩ : BufTy).Contents (Elt F))
  :: StableHlo.nullary main_cst_1 (constant S_ .f32 0x3F800000#32)
  :: StableHlo.unary main_cst_1 main_v4 (broadcastInDim S6 ![] bcast_S_S6 : (⟨S_, .f32⟩ : BufTy).Contents (Elt F) → (⟨S6, .f32⟩ : BufTy).Contents (Elt F))
  :: StableHlo.binary main_v4 main_v3 main_v5 (Host.divf : (⟨S6, .f32⟩ : BufTy).Contents (Elt F) → (⟨S6, .f32⟩ : BufTy).Contents (Elt F) → (⟨S6, .f32⟩ : BufTy).Contents (Elt F))
  :: StableHlo.nullary main_cst_2 (constant S_ .f32 0x00000000#32)
  :: StableHlo.unary main_cst_2 main_v6 (broadcastInDim S3 ![] bcast_S_S3 : (⟨S_, .f32⟩ : BufTy).Contents (Elt F) → (⟨S3, .f32⟩ : BufTy).Contents (Elt F))
  :: [] )

theorem partA_writes : (partA : List (HloOp τ sig (Elt F))).Forall fun op =>
    ∃ y : Ref sig .tc, 12 ≤ y.idx.val ∧ op.writes = {Proc.devRef .tc y} :=
  ⟨⟨main_cst, by decide, rfl⟩, ⟨main_v0, by decide, rfl⟩, ⟨main_v1, by decide, rfl⟩, ⟨main_cst_0, by decide, rfl⟩, ⟨main_v2, by decide, rfl⟩,
    ⟨main_v3, by decide, rfl⟩, ⟨main_cst_1, by decide, rfl⟩, ⟨main_v4, by decide, rfl⟩, ⟨main_v5, by decide, rfl⟩, ⟨main_cst_2, by decide, rfl⟩,
    ⟨main_v6, by decide, rfl⟩⟩

/-- These operations write the references 12 … 22 only: a reference below 12 keeps its contents. -/
theorem keepsA (V : Valuation τ sig (Elt F)) (r : Ref sig .tc) (hr : r.idx.val < 12) :
    after partA V (Proc.devRef .tc r) = V (Proc.devRef .tc r) :=
  keeps_of_writes partA 12 partA_writes V r hr

set_option maxHeartbeats 40000000 in
/-- Operation 12 of the shared line. -/
abbrev partP : List (HloOp τ sig (Elt F)) :=
  ( StableHlo.binary main_v5 main_v6 main_v7 ((fun a b => concatenate S9 0 [⟨S6, a⟩, ⟨S3, b⟩] concatenates_S6_S3_S9_d0) : (⟨S6, .f32⟩ : BufTy).Contents (Elt F) → (⟨S3, .f32⟩ : BufTy).Contents (Elt F) → (⟨S9, .f32⟩ : BufTy).Contents (Elt F))
  :: [] )

theorem partP_writes : (partP : List (HloOp τ sig (Elt F))).Forall fun op =>
    ∃ y : Ref sig .tc, 23 ≤ y.idx.val ∧ op.writes = {Proc.devRef .tc y} :=
  ⟨main_v7, by decide, rfl⟩

/-- These operations write the references 23 … 23 only: a reference below 23 keeps its contents. -/
theorem keepsP (V : Valuation τ sig (Elt F)) (r : Ref sig .tc) (hr : r.idx.val < 23) :
    after partP V (Proc.devRef .tc r) = V (Proc.devRef .tc r) :=
  keeps_of_writes partP 23 partP_writes V r hr

set_option maxHeartbeats 40000000 in
/-- Operations 13 … 30 of the shared line. -/
abbrev partQ : List (HloOp τ sig (Elt F)) :=
  ( StableHlo.binary main_arg3 main_arg4 main_v8 (subf : (⟨S9, .f32⟩ : BufTy).Contents (Elt F) → (⟨S9, .f32⟩ : BufTy).Contents (Elt F) → (⟨S9, .f32⟩ : BufTy).Contents (Elt F))
  :: StableHlo.binary main_v7 main_v8 main_v9 (mulf : (⟨S9, .f32⟩ : BufTy).Contents (Elt F) → (⟨S9, .f32⟩ : BufTy).Contents (Elt F) → (⟨S9, .f32⟩ : BufTy).Contents (Elt F))
  :: StableHlo.binary main_v9 main_arg4 main_v10 (addf : (⟨S9, .f32⟩ : BufTy).Contents (Elt F) → (⟨S9, .f32⟩ : BufTy).Contents (Elt F) → (⟨S9, .f32⟩ : BufTy).Contents (Elt F))
  :: StableHlo.nullary main_cst_3 (constant S_ .f32 0x40000000#32)
  :: StableHlo.unary main_cst_3 main_v11 (broadcastInDim S64x9 ![] bcast_S_S64x9 : (⟨S_, .f32⟩ : BufTy).Contents (Elt F) → (⟨S64x9, .f32⟩ : BufTy).Contents (Elt F))
  :: StableHlo.binary main_arg2 main_v11 main_v12 (mulf : (⟨S64x9, .f32⟩ : BufTy).Contents (Elt F) → (⟨S64x9, .f32⟩ : BufTy).Contents (Elt F) → (⟨S64x9, .f32⟩ : BufTy).Contents (Elt F))
  :: StableHlo.nullary main_cst_4 (constant S_ .f32 0x3F800000#32)
  :: StableHlo.unary main_cst_4 main_v13 (broadcastInDim S64x9 ![] bcast_S_S64x9 : (⟨S_, .f32⟩ : BufTy).Contents (Elt F) → (⟨S64x9, .f32⟩ : BufTy).Contents (Elt F))
  :: StableHlo.binary main_v12 main_v13 main_v14 (subf : (⟨S64x9, .f32⟩ : BufTy).Contents (Elt F) → (⟨S64x9, .f32⟩ : BufTy).Contents (Elt F) → (⟨S64x9, .f32⟩ : BufTy).Contents (Elt F))
  :: StableHlo.nullary main_cst_5 (constant S_ .f32 0x3DCCCCCD#32)
  :: StableHlo.unary main_cst_5 main_v15 (broadcastInDim S64x9 ![] bcast_S_S64x9 : (⟨S_, .f32⟩ : BufTy).Contents (Elt F) → (⟨S64x9, .f32⟩ : BufTy).Contents (Elt F))
  :: StableHlo.binary main_v14 main_v15 main_v16 (mulf : (⟨S64x9, .f32⟩ : BufTy).Contents (Elt F) → (⟨S64x9, .f32⟩ : BufTy).Contents (Elt F) → (⟨S64x9, .f32⟩ : BufTy).Contents (Elt F))
  :: StableHlo.nullary main_cst_6 (constant S_ .f32 0x3F800000#32)
  :: StableHlo.unary main_cst_6 main_v17 (broadcastInDim S64x9 ![] bcast_S_S64x9 : (⟨S_, .f32⟩ : BufTy).Contents (Elt F) → (⟨S64x9, .f32⟩ : BufTy).Contents (Elt F))
  :: StableHlo.binary main_v16 main_v17 main_v18 (addf : (⟨S64x9, .f32⟩ : BufTy).Contents (Elt F) → (⟨S64x9, .f32⟩ : BufTy).Contents (Elt F) → (⟨S64x9, .f32⟩ : BufTy).Contents (Elt F))
  :: StableHlo.unary main_v10 main_v19 (broadcastInDim S1x9 ![1] bcast_S9_S1x9_1 : (⟨S9, .f32⟩ : BufTy).Contents (Elt F) → (⟨S1x9, .f32⟩ : BufTy).Contents (Elt F))
  :: StableHlo.unary main_v19 main_v20 (broadcastInDim S64x9 ![0, 1] bcast_S1x9_S64x9_0_1 : (⟨S1x9, .f32⟩ : BufTy).Contents (Elt F) → (⟨S64x9, .f32⟩ : BufTy).Contents (Elt F))
  :: StableHlo.binary main_v20 main_v18 main_v21 (mulf : (⟨S64x9, .f32⟩ : BufTy).Contents (Elt F) → (⟨S64x9, .f32⟩ : BufTy).Contents (Elt F) → (⟨S64x9, .f32⟩ : BufTy).Contents (Elt F))
  :: [] )

theorem partQ_writes : (partQ : List (HloOp τ sig (Elt F))).Forall fun op =>
    ∃ y : Ref sig .tc, 24 ≤ y.idx.val ∧ op.writes = {Proc.devRef .tc y} :=
  ⟨⟨main_v8, by decide, rfl⟩, ⟨main_v9, by decide, rfl⟩, ⟨main_v10, by decide, rfl⟩, ⟨main_cst_3, by decide, rfl⟩, ⟨main_v11, by decide, rfl⟩,
    ⟨main_v12, by decide, rfl⟩, ⟨main_cst_4, by decide, rfl⟩, ⟨main_v13, by decide, rfl⟩, ⟨main_v14, by decide, rfl⟩, ⟨main_cst_5, by decide, rfl⟩,
    ⟨main_v15, by decide, rfl⟩, ⟨main_v16, by decide, rfl⟩, ⟨main_cst_6, by decide, rfl⟩, ⟨main_v17, by decide, rfl⟩, ⟨main_v18, by decide, rfl⟩,
    ⟨main_v19, by decide, rfl⟩, ⟨main_v20, by decide, rfl⟩, ⟨main_v21, by decide, rfl⟩⟩

/-- These operations write the references 24 … 41 only: a reference below 24 keeps its contents. -/
theorem keepsQ (V : Valuation τ sig (Elt F)) (r : Ref sig .tc) (hr : r.idx.val < 24) :
    after partQ V (Proc.devRef .tc r) = V (Proc.devRef .tc r) :=
  keeps_of_writes partQ 24 partQ_writes V r hr

set_option maxHeartbeats 40000000 in
/-- Operations 31 … 57 of the shared line. -/
abbrev partB1 : List (HloOp τ sig (Elt F)) :=
  ( StableHlo.unary main_v21 main_v22 ((extractStridedSlice S64x1 ![0, 0] · slices_S64x9_S64x1_0_0) : (⟨S64x9, .f32⟩ : BufTy).Contents (Elt F) → (⟨S64x1, .f32⟩ : BufTy).Contents (Elt F))
  :: StableHlo.reshape main_v22 main_v23 rfl shapeCasts_S64x1_S64
  :: StableHlo.unary main_v21 main_v24 ((extractStridedSlice S64x1 ![0, 1] · slices_S64x9_S64x1_0_1) : (⟨S64x9, .f32⟩ : BufTy).Contents (Elt F) → (⟨S64x1, .f32⟩ : BufTy).Contents (Elt F))
  :: StableHlo.reshape main_v24 main_v25 rfl shapeCasts_S64x1_S64
  :: StableHlo.unary main_v21 main_v26 ((extractStridedSlice S64x1 ![0, 2] · slices_S64x9_S64x1_0_2) : (⟨S64x9, .f32⟩ : BufTy).Contents (Elt F) → (⟨S64x1, .f32⟩ : BufTy).Contents (Elt F))
  :: StableHlo.reshape main_v26 main_v27 rfl shapeCasts_S64x1_S64
  :: StableHlo.unary main_v21 main_v28 ((extractStridedSlice S64x1 ![0, 3] · slices_S64x9_S64x1_0_3) : (⟨S64x9, .f32⟩ : BufTy).Contents (Elt F) → (⟨S64x1, .f32⟩ : BufTy).Contents (Elt F))
  :: StableHlo.reshape main_v28 main_v29 rfl shapeCasts_S64x1_S64
  :: StableHlo.unary main_v21 main_v30 ((extractStridedSlice S64x1 ![0, 4] · slices_S64x9_S64x1_0_4) : (⟨S64x9, .f32⟩ : BufTy).Contents (Elt F) → (⟨S64x1, .f32⟩ : BufTy).Contents (Elt F))
  :: StableHlo.reshape main_v30 main_v31 rfl shapeCasts_S64x1_S64
  :: StableHlo.unary main_v21 main_v32 ((extractStridedSlice S64x1 ![0, 5] · slices_S64x9_S64x1_0_5) : (⟨S64x9, .f32⟩ : BufTy).Contents (Elt F) → (⟨S64x1, .f32⟩ : BufTy).Contents (Elt F))
  :: StableHlo.reshape main_v32 main_v33 rfl shapeCasts_S64x1_S64
  :: StableHlo.unary main_v21 main_v34 ((extractStridedSlice S64x1 ![0, 1] · slices_S64x9_S64x1_0_1) : (⟨S64x9, .f32⟩ : BufTy).Contents (Elt F) → (⟨S64x1, .f32⟩ : BufTy).Contents (Elt F))
  :: StableHlo.reshape main_v34 main_v35 rfl shapeCasts_S64x1_S64
  :: StableHlo.unary main_v21 main_v36 ((extractStridedSlice S64x1 ![0, 0] · slices_S64x9_S64x1_0_0) : (⟨S64x9, .f32⟩ : BufTy).Contents (Elt F) → (⟨S64x1, .f32⟩ : BufTy).Contents (Elt F))
  :: StableHlo.reshape main_v36 main_v37 rfl shapeCasts_S64x1_S64
  :: StableHlo.binary main_v35 main_v37 main_v38 (Host.divf : (⟨S64, .f32⟩ : BufTy).Contents (Elt F) → (⟨S64, .f32⟩ : BufTy).Contents (Elt F) → (⟨S64, .f32⟩ : BufTy).Contents (Elt F))
  :: StableHlo.unary main_v21 main_v39 ((extractStridedSlice S64x1 ![0, 3] · slices_S64x9_S64x1_0_3) : (⟨S64x9, .f32⟩ : BufTy).Contents (Elt F) → (⟨S64x1, .f32⟩ : BufTy).Contents (Elt F))
  :: StableHlo.reshape main_v39 main_v40 rfl shapeCasts_S64x1_S64
  :: StableHlo.unary main_v21 main_v41 ((extractStridedSlice S64x1 ![0, 2] · slices_S64x9_S64x1_0_2) : (⟨S64x9, .f32⟩ : BufTy).Contents (Elt F) → (⟨S64x1, .f32⟩ : BufTy).Contents (Elt F))
  :: StableHlo.reshape main_v41 main_v42 rfl shapeCasts_S64x1_S64
  :: StableHlo.binary main_v40 main_v42 main_v43 (Host.divf : (⟨S64, .f32⟩ : BufTy).Contents (Elt F) → (⟨S64, .f32⟩ : BufTy).Contents (Elt F) → (⟨S64, .f32⟩ : BufTy).Contents (Elt F))
  :: StableHlo.unary main_v21 main_v44 ((extractStridedSlice S64x1 ![0, 5] · slices_S64x9_S64x1_0_5) : (⟨S64x9, .f32⟩ : BufTy).Contents (Elt F) → (⟨S64x1, .f32⟩ : BufTy).Contents (Elt F))
  :: StableHlo.reshape main_v44 main_v45 rfl shapeCasts_S64x1_S64
  :: StableHlo.unary main_v21 main_v46 ((extractStridedSlice S64x1 ![0, 4] · slices_S64x9_S64x1_0_4) : (⟨S64x9, .f32⟩ : BufTy).Contents (Elt F) → (⟨S64x1, .f32⟩ : BufTy).Contents (Elt F))
  :: StableHlo.reshape main_v46 main_v47 rfl shapeCasts_S64x1_S64
  :: StableHlo.binary main_v45 main_v47 main_v48 (Host.divf : (⟨S64, .f32⟩ : BufTy).Contents (Elt F) → (⟨S64, .f32⟩ : BufTy).Contents (Elt F) → (⟨S64, .f32⟩ : BufTy).Contents (Elt F))
  :: [] )

theorem partB1_writes : (partB1 : List (HloOp τ sig (Elt F))).Forall fun op =>
    ∃ y : Ref sig .tc, 42 ≤ y.idx.val ∧ op.writes = {Proc.devRef .tc y} :=
  ⟨⟨main_v22, by decide, rfl⟩, ⟨main_v23, by decide, rfl⟩, ⟨main_v24, by decide, rfl⟩, ⟨main_v25, by decide, rfl⟩, ⟨main_v26, by decide, rfl⟩,
    ⟨main_v27, by decide, rfl⟩, ⟨main_v28, by decide, rfl⟩, ⟨main_v29, by decide, rfl⟩, ⟨main_v30, by decide, rfl⟩, ⟨main_v31, by decide, rfl⟩,
    ⟨main_v32, by decide, rfl⟩, ⟨main_v33, by decide, rfl⟩, ⟨main_v34, by decide, rfl⟩, ⟨main_v35, by decide, rfl⟩, ⟨main_v36, by decide, rfl⟩,
    ⟨main_v37, by decide, rfl⟩, ⟨main_v38, by decide, rfl⟩, ⟨main_v39, by decide, rfl⟩, ⟨main_v40, by decide, rfl⟩, ⟨main_v41, by decide, rfl⟩,
    ⟨main_v42, by decide, rfl⟩, ⟨main_v43, by decide, rfl⟩, ⟨main_v44, by decide, rfl⟩, ⟨main_v45, by decide, rfl⟩, ⟨main_v46, by decide, rfl⟩,
    ⟨main_v47, by decide, rfl⟩, ⟨main_v48, by decide, rfl⟩⟩

/-- These operations write the references 42 … 68 only: a reference below 42 keeps its contents. -/
theorem keepsB1 (V : Valuation τ sig (Elt F)) (r : Ref sig .tc) (hr : r.idx.val < 42) :
    after partB1 V (Proc.devRef .tc r) = V (Proc.devRef .tc r) :=
  keeps_of_writes partB1 42 partB1_writes V r hr

set_option maxHeartbeats 40000000 in
/-- Operations 58 … 66 of the shared line. -/
abbrev partB2 : List (HloOp τ sig (Elt F)) :=
  ( StableHlo.unary main_v23 main_v49 (broadcastInDim S64x1 ![0] bcast_S64_S64x1_0 : (⟨S64, .f32⟩ : BufTy).Contents (Elt F) → (⟨S64x1, .f32⟩ : BufTy).Contents (Elt F))
  :: StableHlo.unary main_v25 main_v50 (broadcastInDim S64x1 ![0] bcast_S64_S64x1_0 : (⟨S64, .f32⟩ : BufTy).Contents (Elt F) → (⟨S64x1, .f32⟩ : BufTy).Contents (Elt F))
  :: StableHlo.unary main_v27 main_v51 (broadcastInDim S64x1 ![0] bcast_S64_S64x1_0 : (⟨S64, .f32⟩ : BufTy).Contents (Elt F) → (⟨S64x1, .f32⟩ : BufTy).Contents (Elt F))
  :: StableHlo.unary main_v29 main_v52 (broadcastInDim S64x1 ![0] bcast_S64_S64x1_0 : (⟨S64, .f32⟩ : BufTy).Contents (Elt F) → (⟨S64x1, .f32⟩ : BufTy).Contents (Elt F))
  :: StableHlo.unary main_v31 main_v53 (broadcastInDim S64x1 ![0] bcast_S64_S64x1_0 : (⟨S64, .f32⟩ : BufTy).Contents (Elt F) → (⟨S64x1, .f32⟩ : BufTy).Contents (Elt F))
  :: StableHlo.unary main_v33 main_v54 (broadcastInDim S64x1 ![0] bcast_S64_S64x1_0 : (⟨S64, .f32⟩ : BufTy).Contents (Elt F) → (⟨S64x1, .f32⟩ : BufTy).Contents (Elt F))
  :: StableHlo.unary main_v38 main_v55 (broadcastInDim S64x1 ![0] bcast_S64_S64x1_0 : (⟨S64, .f32⟩ : BufTy).Contents (Elt F) → (⟨S64x1, .f32⟩ : BufTy).Contents (Elt F))
  :: StableHlo.unary main_v43 main_v56 (broadcastInDim S64x1 ![0] bcast_S64_S64x1_0 : (⟨S64, .f32⟩ : BufTy).Contents (Elt F) → (⟨S64x1, .f32⟩ : BufTy).Contents (Elt F))
  :: StableHlo.unary main_v48 main_v57 (broadcastInDim S64x1 ![0] bcast_S64_S64x1_0 : (⟨S64, .f32⟩ : BufTy).Contents (Elt F) → (⟨S64x1, .f32⟩ : BufTy).Contents (Elt F))
  :: [] )

theorem partB2_writes : (partB2 : List (HloOp τ sig (Elt F))).Forall fun op =>
    ∃ y : Ref sig .tc, 69 ≤ y.idx.val ∧ op.writes = {Proc.devRef .tc y} :=
  ⟨⟨main_v49, by decide, rfl⟩, ⟨main_v50, by decide, rfl⟩, ⟨main_v51, by decide, rfl⟩, ⟨main_v52, by decide, rfl⟩, ⟨main_v53, by decide, rfl⟩,
    ⟨main_v54, by decide, rfl⟩, ⟨main_v55, by decide, rfl⟩, ⟨main_v56, by decide, rfl⟩, ⟨main_v57, by decide, rfl⟩⟩

/-- These operations write the references 69 … 77 only: a reference below 69 keeps its contents. -/
theorem keepsB2 (V : Valuation τ sig (Elt F)) (r : Ref sig .tc) (hr : r.idx.val < 69) :
    after partB2 V (Proc.devRef .tc r) = V (Proc.devRef .tc r) :=
  keeps_of_writes partB2 69 partB2_writes V r hr

set_option maxHeartbeats 40000000 in
/-- Operation 67 of the shared line. -/
abbrev partN : List (HloOp τ sig (Elt F)) :=
  ( StableHlo.nary ![main_v49, main_v50, main_v51, main_v52, main_v53, main_v54, main_v55, main_v56, main_v57] main_v58 (fun u => concatenate S64x9 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩] concatenates_S64x1_S64x1_S64x1_S64x1_S64x1_S64x1_S64x1_S64x1_S64x1_S64x9_d1)
  :: [] )

theorem partN_writes : (partN : List (HloOp τ sig (Elt F))).Forall fun op =>
    ∃ y : Ref sig .tc, 78 ≤ y.idx.val ∧ op.writes = {Proc.devRef .tc y} :=
  ⟨main_v58, by decide, rfl⟩

/-- These operations write the references 78 … 78 only: a reference below 78 keeps its contents. -/
theorem keepsN (V : Valuation τ sig (Elt F)) (r : Ref sig .tc) (hr : r.idx.val < 78) :
    after partN V (Proc.devRef .tc r) = V (Proc.devRef .tc r) :=
  keeps_of_writes partN 78 partN_writes V r hr

set_option maxHeartbeats 40000000 in
/-- Operations 68 … 78 of the shared line. -/
abbrev partC1 : List (HloOp τ sig (Elt F)) :=
  ( StableHlo.unary main_arg4 main_v59 (broadcastInDim S1x9 ![1] bcast_S9_S1x9_1 : (⟨S9, .f32⟩ : BufTy).Contents (Elt F) → (⟨S1x9, .f32⟩ : BufTy).Contents (Elt F))
  :: StableHlo.unary main_v59 main_v60 (broadcastInDim S64x9 ![0, 1] bcast_S1x9_S64x9_0_1 : (⟨S1x9, .f32⟩ : BufTy).Contents (Elt F) → (⟨S64x9, .f32⟩ : BufTy).Contents (Elt F))
  :: StableHlo.binary main_v58 main_v60 main_v61 (subf : (⟨S64x9, .f32⟩ : BufTy).Contents (Elt F) → (⟨S64x9, .f32⟩ : BufTy).Contents (Elt F) → (⟨S64x9, .f32⟩ : BufTy).Contents (Elt F))
  :: StableHlo.binary main_arg3 main_arg4 main_v62 (subf : (⟨S9, .f32⟩ : BufTy).Contents (Elt F) → (⟨S9, .f32⟩ : BufTy).Contents (Elt F) → (⟨S9, .f32⟩ : BufTy).Contents (Elt F))
  :: StableHlo.unary main_v62 main_v63 (broadcastInDim S1x9 ![1] bcast_S9_S1x9_1 : (⟨S9, .f32⟩ : BufTy).Contents (Elt F) → (⟨S1x9, .f32⟩ : BufTy).Contents (Elt F))
  :: StableHlo.unary main_v63 main_v64 (broadcastInDim S64x9 ![0, 1] bcast_S1x9_S64x9_0_1 : (⟨S1x9, .f32⟩ : BufTy).Contents (Elt F) → (⟨S64x9, .f32⟩ : BufTy).Contents (Elt F))
  :: StableHlo.binary main_v61 main_v64 main_v65 (Host.divf : (⟨S64x9, .f32⟩ : BufTy).Contents (Elt F) → (⟨S64x9, .f32⟩ : BufTy).Contents (Elt F) → (⟨S64x9, .f32⟩ : BufTy).Contents (Elt F))
  :: StableHlo.binary main_v65 main_arg7 main_v66 ((fun l r => Host.dotGeneral dot_S64x9_S9x64_S64x64_1_0_0_1_n_n none l r) : (⟨S64x9, .f32⟩ : BufTy).Contents (Elt F) → (⟨S9x64, .f32⟩ : BufTy).Contents (Elt F) → (⟨S64x64, .f32⟩ : BufTy).Contents (Elt F))
  :: StableHlo.unary main_arg8 main_v67 (broadcastInDim S1x64 ![1] bcast_S64_S1x64_1 : (⟨S64, .f32⟩ : BufTy).Contents (Elt F) → (⟨S1x64, .f32⟩ : BufTy).Contents (Elt F))
  :: StableHlo.unary main_v67 main_v68 (broadcastInDim S64x64 ![0, 1] bcast_S1x64_S64x64_0_1 : (⟨S1x64, .f32⟩ : BufTy).Contents (Elt F) → (⟨S64x64, .f32⟩ : BufTy).Contents (Elt F))
  :: StableHlo.binary main_v66 main_v68 main_v69 (addf : (⟨S64x64, .f32⟩ : BufTy).Contents (Elt F) → (⟨S64x64, .f32⟩ : BufTy).Contents (Elt F) → (⟨S64x64, .f32⟩ : BufTy).Contents (Elt F))
  :: [] )

theorem partC1_writes : (partC1 : List (HloOp τ sig (Elt F))).Forall fun op =>
    ∃ y : Ref sig .tc, 79 ≤ y.idx.val ∧ op.writes = {Proc.devRef .tc y} :=
  ⟨⟨main_v59, by decide, rfl⟩, ⟨main_v60, by decide, rfl⟩, ⟨main_v61, by decide, rfl⟩, ⟨main_v62, by decide, rfl⟩, ⟨main_v63, by decide, rfl⟩,
    ⟨main_v64, by decide, rfl⟩, ⟨main_v65, by decide, rfl⟩, ⟨main_v66, by decide, rfl⟩, ⟨main_v67, by decide, rfl⟩, ⟨main_v68, by decide, rfl⟩,
    ⟨main_v69, by decide, rfl⟩⟩

/-- These operations write the references 79 … 89 only: a reference below 79 keeps its contents. -/
theorem keepsC1 (V : Valuation τ sig (Elt F)) (r : Ref sig .tc) (hr : r.idx.val < 79) :
    after partC1 V (Proc.devRef .tc r) = V (Proc.devRef .tc r) :=
  keeps_of_writes partC1 79 partC1_writes V r hr

set_option maxHeartbeats 40000000 in
/-- Operations 79 … 81 of the shared line. -/
abbrev partC2 : List (HloOp τ sig (Elt F)) :=
  ( StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S64x64, .f32⟩) (broadcastInDim S64x64 ![] bcast_S_S64x64)
  :: StableHlo.TRef.binary (.of main_v69 : StableHlo.TRef sig ⟨S64x64, .f32⟩) (.of main_call0_v0 : StableHlo.TRef sig ⟨S64x64, .f32⟩) (.of main_v70 : StableHlo.TRef sig ⟨S64x64, .f32⟩) maximumf
  :: [] )

theorem partC2_writes : (partC2 : List (HloOp τ sig (Elt F))).Forall fun op =>
    ∃ y : Ref sig .tc, 90 ≤ y.idx.val ∧ op.writes = {Proc.devRef .tc y} :=
  ⟨⟨main_call0_cst, by decide, rfl⟩, ⟨main_call0_v0, by decide, rfl⟩, ⟨main_v70, by decide, rfl⟩⟩

/-- These operations write the references 90 … 92 only: a reference below 90 keeps its contents. -/
theorem keepsC2 (V : Valuation τ sig (Elt F)) (r : Ref sig .tc) (hr : r.idx.val < 90) :
    after partC2 V (Proc.devRef .tc r) = V (Proc.devRef .tc r) :=
  keeps_of_writes partC2 90 partC2_writes V r hr

set_option maxHeartbeats 40000000 in
/-- Operations 82 … 100 of the shared line. -/
abbrev partC3 : List (HloOp τ sig (Elt F)) :=
  ( StableHlo.binary main_v70 main_arg9 main_v71 ((fun l r => Host.dotGeneral dot_S64x64_S64x4_S64x4_1_0_0_1_n_n none l r) : (⟨S64x64, .f32⟩ : BufTy).Contents (Elt F) → (⟨S64x4, .f32⟩ : BufTy).Contents (Elt F) → (⟨S64x4, .f32⟩ : BufTy).Contents (Elt F))
  :: StableHlo.unary main_arg10 main_v72 (broadcastInDim S1x4 ![1] bcast_S4_S1x4_1 : (⟨S4, .f32⟩ : BufTy).Contents (Elt F) → (⟨S1x4, .f32⟩ : BufTy).Contents (Elt F))
  :: StableHlo.unary main_v72 main_v73 (broadcastInDim S64x4 ![0, 1] bcast_S1x4_S64x4_0_1 : (⟨S1x4, .f32⟩ : BufTy).Contents (Elt F) → (⟨S64x4, .f32⟩ : BufTy).Contents (Elt F))
  :: StableHlo.binary main_v71 main_v73 main_v74 (addf : (⟨S64x4, .f32⟩ : BufTy).Contents (Elt F) → (⟨S64x4, .f32⟩ : BufTy).Contents (Elt F) → (⟨S64x4, .f32⟩ : BufTy).Contents (Elt F))
  :: StableHlo.unary main_v74 main_v75 (Host.negf : (⟨S64x4, .f32⟩ : BufTy).Contents (Elt F) → (⟨S64x4, .f32⟩ : BufTy).Contents (Elt F))
  :: StableHlo.unary main_v75 main_v76 (Host.exp : (⟨S64x4, .f32⟩ : BufTy).Contents (Elt F) → (⟨S64x4, .f32⟩ : BufTy).Contents (Elt F))
  :: StableHlo.nullary main_cst_7 (constant S_ .f32 0x3F800000#32)
  :: StableHlo.unary main_cst_7 main_v77 (broadcastInDim S64x4 ![] bcast_S_S64x4 : (⟨S_, .f32⟩ : BufTy).Contents (Elt F) → (⟨S64x4, .f32⟩ : BufTy).Contents (Elt F))
  :: StableHlo.binary main_v77 main_v76 main_v78 (addf : (⟨S64x4, .f32⟩ : BufTy).Contents (Elt F) → (⟨S64x4, .f32⟩ : BufTy).Contents (Elt F) → (⟨S64x4, .f32⟩ : BufTy).Contents (Elt F))
  :: StableHlo.nullary main_cst_8 (constant S_ .f32 0x3F800000#32)
  :: StableHlo.unary main_cst_8 main_v79 (broadcastInDim S64x4 ![] bcast_S_S64x4 : (⟨S_, .f32⟩ : BufTy).Contents (Elt F) → (⟨S64x4, .f32⟩ : BufTy).Contents (Elt F))
  :: StableHlo.binary main_v79 main_v78 main_v80 (Host.divf : (⟨S64x4, .f32⟩ : BufTy).Contents (Elt F) → (⟨S64x4, .f32⟩ : BufTy).Contents (Elt F) → (⟨S64x4, .f32⟩ : BufTy).Contents (Elt F))
  :: StableHlo.binary main_arg5 main_arg6 main_v81 (subf : (⟨S4, .f32⟩ : BufTy).Contents (Elt F) → (⟨S4, .f32⟩ : BufTy).Contents (Elt F) → (⟨S4, .f32⟩ : BufTy).Contents (Elt F))
  :: StableHlo.unary main_v81 main_v82 (broadcastInDim S1x4 ![1] bcast_S4_S1x4_1 : (⟨S4, .f32⟩ : BufTy).Contents (Elt F) → (⟨S1x4, .f32⟩ : BufTy).Contents (Elt F))
  :: StableHlo.unary main_v82 main_v83 (broadcastInDim S64x4 ![0, 1] bcast_S1x4_S64x4_0_1 : (⟨S1x4, .f32⟩ : BufTy).Contents (Elt F) → (⟨S64x4, .f32⟩ : BufTy).Contents (Elt F))
  :: StableHlo.binary main_v80 main_v83 main_v84 (mulf : (⟨S64x4, .f32⟩ : BufTy).Contents (Elt F) → (⟨S64x4, .f32⟩ : BufTy).Contents (Elt F) → (⟨S64x4, .f32⟩ : BufTy).Contents (Elt F))
  :: StableHlo.unary main_arg6 main_v85 (broadcastInDim S1x4 ![1] bcast_S4_S1x4_1 : (⟨S4, .f32⟩ : BufTy).Contents (Elt F) → (⟨S1x4, .f32⟩ : BufTy).Contents (Elt F))
  :: StableHlo.unary main_v85 main_v86 (broadcastInDim S64x4 ![0, 1] bcast_S1x4_S64x4_0_1 : (⟨S1x4, .f32⟩ : BufTy).Contents (Elt F) → (⟨S64x4, .f32⟩ : BufTy).Contents (Elt F))
  :: StableHlo.binary main_v84 main_v86 main_v87 (addf : (⟨S64x4, .f32⟩ : BufTy).Contents (Elt F) → (⟨S64x4, .f32⟩ : BufTy).Contents (Elt F) → (⟨S64x4, .f32⟩ : BufTy).Contents (Elt F))
  :: [] )

theorem partC3_writes : (partC3 : List (HloOp τ sig (Elt F))).Forall fun op =>
    ∃ y : Ref sig .tc, 93 ≤ y.idx.val ∧ op.writes = {Proc.devRef .tc y} :=
  ⟨⟨main_v71, by decide, rfl⟩, ⟨main_v72, by decide, rfl⟩, ⟨main_v73, by decide, rfl⟩, ⟨main_v74, by decide, rfl⟩, ⟨main_v75, by decide, rfl⟩,
    ⟨main_v76, by decide, rfl⟩, ⟨main_cst_7, by decide, rfl⟩, ⟨main_v77, by decide, rfl⟩, ⟨main_v78, by decide, rfl⟩, ⟨main_cst_8, by decide, rfl⟩,
    ⟨main_v79, by decide, rfl⟩, ⟨main_v80, by decide, rfl⟩, ⟨main_v81, by decide, rfl⟩, ⟨main_v82, by decide, rfl⟩, ⟨main_v83, by decide, rfl⟩,
    ⟨main_v84, by decide, rfl⟩, ⟨main_v85, by decide, rfl⟩, ⟨main_v86, by decide, rfl⟩, ⟨main_v87, by decide, rfl⟩⟩

/-- These operations write the references 93 … 111 only: a reference below 93 keeps its contents. -/
theorem keepsC3 (V : Valuation τ sig (Elt F)) (r : Ref sig .tc) (hr : r.idx.val < 93) :
    after partC3 V (Proc.devRef .tc r) = V (Proc.devRef .tc r) :=
  keeps_of_writes partC3 93 partC3_writes V r hr

set_option maxHeartbeats 40000000 in
/-- Operations 101 … 115 of the shared line. -/
abbrev partD : List (HloOp τ sig (Elt F)) :=
  ( StableHlo.nullary main_c (constantI S_ 32 1#32)
  :: StableHlo.unary main_c main_v88 (broadcastInDim S4x512 ![] bcast_S_S4x512 : (⟨S_, .i32⟩ : BufTy).Contents (Elt F) → (⟨S4x512, .i32⟩ : BufTy).Contents (Elt F))
  :: StableHlo.binary main_arg11 main_v88 main_v89 (subi : (⟨S4x512, .i32⟩ : BufTy).Contents (Elt F) → (⟨S4x512, .i32⟩ : BufTy).Contents (Elt F) → (⟨S4x512, .i32⟩ : BufTy).Contents (Elt F))
  :: StableHlo.nullary main_c_9 (constantI S_ 32 0#32)
  :: StableHlo.unary main_c_9 main_v90 (broadcastInDim S4x512 ![] bcast_S_S4x512 : (⟨S_, .i32⟩ : BufTy).Contents (Elt F) → (⟨S4x512, .i32⟩ : BufTy).Contents (Elt F))
  :: StableHlo.binary main_v89 main_v90 main_v91 (maxsi : (⟨S4x512, .i32⟩ : BufTy).Contents (Elt F) → (⟨S4x512, .i32⟩ : BufTy).Contents (Elt F) → (⟨S4x512, .i32⟩ : BufTy).Contents (Elt F))
  :: StableHlo.nullary main_c_10 (constantI S_ 32 0#32)
  :: StableHlo.unary main_c_10 main_v92 (broadcastInDim S4x512 ![] bcast_S_S4x512 : (⟨S_, .i32⟩ : BufTy).Contents (Elt F) → (⟨S4x512, .i32⟩ : BufTy).Contents (Elt F))
  :: StableHlo.binary main_v91 main_v92 main_v93 (cmpi .slt : (⟨S4x512, .i32⟩ : BufTy).Contents (Elt F) → (⟨S4x512, .i32⟩ : BufTy).Contents (Elt F) → (⟨S4x512, .i1⟩ : BufTy).Contents (Elt F))
  :: StableHlo.nullary main_c_11 (constantI S_ 32 12#32)
  :: StableHlo.unary main_c_11 main_v94 (broadcastInDim S4x512 ![] bcast_S_S4x512 : (⟨S_, .i32⟩ : BufTy).Contents (Elt F) → (⟨S4x512, .i32⟩ : BufTy).Contents (Elt F))
  :: StableHlo.binary main_v91 main_v94 main_v95 (addi : (⟨S4x512, .i32⟩ : BufTy).Contents (Elt F) → (⟨S4x512, .i32⟩ : BufTy).Contents (Elt F) → (⟨S4x512, .i32⟩ : BufTy).Contents (Elt F))
  :: StableHlo.ternary main_v93 main_v95 main_v91 main_v96 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F))
  :: StableHlo.unary main_v96 main_v97 (broadcastInDim S4x512x1 ![0, 1] bcast_S4x512_S4x512x1_0_1 : (⟨S4x512, .i32⟩ : BufTy).Contents (Elt F) → (⟨S4x512x1, .i32⟩ : BufTy).Contents (Elt F))
  :: StableHlo.binary main_cst main_v97 main_v98 ((fun x i => Host.gather gather_S12x4_S4x512x1_S4x512x4_2_0_n_n_0_2_14 x i) : (⟨S12x4, .f32⟩ : BufTy).Contents (Elt F) → (⟨S4x512x1, .i32⟩ : BufTy).Contents (Elt F) → (⟨S4x512x4, .f32⟩ : BufTy).Contents (Elt F))
  :: [] )

theorem partD_writes : (partD : List (HloOp τ sig (Elt F))).Forall fun op =>
    ∃ y : Ref sig .tc, 112 ≤ y.idx.val ∧ op.writes = {Proc.devRef .tc y} :=
  ⟨⟨main_c, by decide, rfl⟩, ⟨main_v88, by decide, rfl⟩, ⟨main_v89, by decide, rfl⟩, ⟨main_c_9, by decide, rfl⟩, ⟨main_v90, by decide, rfl⟩,
    ⟨main_v91, by decide, rfl⟩, ⟨main_c_10, by decide, rfl⟩, ⟨main_v92, by decide, rfl⟩, ⟨main_v93, by decide, rfl⟩, ⟨main_c_11, by decide, rfl⟩,
    ⟨main_v94, by decide, rfl⟩, ⟨main_v95, by decide, rfl⟩, ⟨main_v96, by decide, rfl⟩, ⟨main_v97, by decide, rfl⟩, ⟨main_v98, by decide, rfl⟩⟩

/-- These operations write the references 112 … 126 only: a reference below 112 keeps its contents. -/
theorem keepsD (V : Valuation τ sig (Elt F)) (r : Ref sig .tc) (hr : r.idx.val < 112) :
    after partD V (Proc.devRef .tc r) = V (Proc.devRef .tc r) :=
  keeps_of_writes partD 112 partD_writes V r hr

/-! The buffers when each part starts: the parts before it, run in order from `V`. -/

abbrev atP (V : Valuation τ sig (Elt F)) : Valuation τ sig (Elt F) := after partA V

theorem atP_keeps (V : Valuation τ sig (Elt F)) (r : Ref sig .tc) (hr : r.idx.val < 12) :
    atP V (Proc.devRef .tc r) = V (Proc.devRef .tc r) :=
  keepsA V r hr

abbrev atQ (V : Valuation τ sig (Elt F)) : Valuation τ sig (Elt F) := after partP (atP V)

theorem atQ_keeps (V : Valuation τ sig (Elt F)) (r : Ref sig .tc) (hr : r.idx.val < 12) :
    atQ V (Proc.devRef .tc r) = V (Proc.devRef .tc r) :=
  (keepsP (atP V) r (by omega)).trans (atP_keeps V r hr)

abbrev atB1 (V : Valuation τ sig (Elt F)) : Valuation τ sig (Elt F) := after partQ (atQ V)

theorem atB1_keeps (V : Valuation τ sig (Elt F)) (r : Ref sig .tc) (hr : r.idx.val < 12) :
    atB1 V (Proc.devRef .tc r) = V (Proc.devRef .tc r) :=
  (keepsQ (atQ V) r (by omega)).trans (atQ_keeps V r hr)

abbrev atB2 (V : Valuation τ sig (Elt F)) : Valuation τ sig (Elt F) := after partB1 (atB1 V)

theorem atB2_keeps (V : Valuation τ sig (Elt F)) (r : Ref sig .tc) (hr : r.idx.val < 12) :
    atB2 V (Proc.devRef .tc r) = V (Proc.devRef .tc r) :=
  (keepsB1 (atB1 V) r (by omega)).trans (atB1_keeps V r hr)

abbrev atN (V : Valuation τ sig (Elt F)) : Valuation τ sig (Elt F) := after partB2 (atB2 V)

theorem atN_keeps (V : Valuation τ sig (Elt F)) (r : Ref sig .tc) (hr : r.idx.val < 12) :
    atN V (Proc.devRef .tc r) = V (Proc.devRef .tc r) :=
  (keepsB2 (atB2 V) r (by omega)).trans (atB2_keeps V r hr)

abbrev atC1 (V : Valuation τ sig (Elt F)) : Valuation τ sig (Elt F) := after partN (atN V)

theorem atC1_keeps (V : Valuation τ sig (Elt F)) (r : Ref sig .tc) (hr : r.idx.val < 12) :
    atC1 V (Proc.devRef .tc r) = V (Proc.devRef .tc r) :=
  (keepsN (atN V) r (by omega)).trans (atN_keeps V r hr)

abbrev atC2 (V : Valuation τ sig (Elt F)) : Valuation τ sig (Elt F) := after partC1 (atC1 V)

theorem atC2_keeps (V : Valuation τ sig (Elt F)) (r : Ref sig .tc) (hr : r.idx.val < 12) :
    atC2 V (Proc.devRef .tc r) = V (Proc.devRef .tc r) :=
  (keepsC1 (atC1 V) r (by omega)).trans (atC1_keeps V r hr)

abbrev atC3 (V : Valuation τ sig (Elt F)) : Valuation τ sig (Elt F) := after partC2 (atC2 V)

theorem atC3_keeps (V : Valuation τ sig (Elt F)) (r : Ref sig .tc) (hr : r.idx.val < 12) :
    atC3 V (Proc.devRef .tc r) = V (Proc.devRef .tc r) :=
  (keepsC2 (atC2 V) r (by omega)).trans (atC2_keeps V r hr)

abbrev atD (V : Valuation τ sig (Elt F)) : Valuation τ sig (Elt F) := after partC3 (atC3 V)

theorem atD_keeps (V : Valuation τ sig (Elt F)) (r : Ref sig .tc) (hr : r.idx.val < 12) :
    atD V (Proc.devRef .tc r) = V (Proc.devRef .tc r) :=
  (keepsC3 (atC3 V) r (by omega)).trans (atC3_keeps V r hr)

set_option maxRecDepth 16384 in
/-- The shared line is its parts in order. -/
theorem shared_eq : (Line.shared : List (HloOp τ sig (Elt F))) = partA ++ (partP ++ (partQ ++ (partB1 ++ (partB2 ++ (partN ++ (partC1 ++ (partC2 ++ (partC3 ++ (partD))))))))) := rfl

/-- The shared line run from `V` is its last part run from where the others end. -/
theorem after_shared (V : Valuation τ sig (Elt F)) :
    after (Line.shared (F := F)) V = after partD (atD V) := by
  rw [shared_eq]
  simp only [after_append, atP, atQ, atB1, atB2, atN, atC1, atC2, atC3, atD]

/-- The shared line writes the references 12 … 126 only: a reference below 12 keeps its contents. -/
theorem shared_keeps (V : Valuation τ sig (Elt F)) (r : Ref sig .tc) (hr : r.idx.val < 12) :
    after (Line.shared (F := F)) V (Proc.devRef .tc r) = V (Proc.devRef .tc r) := by
  rw [after_shared]
  exact (keepsD (atD V) r (by omega)).trans (atD_keeps V r hr)

end R

namespace K

open Cert.KernelIdeal Cert.KernelIdeal.Facts₀

set_option maxHeartbeats 40000000 in
/-- Operations 1 … 11 of the shared line. -/
abbrev partA : List (HloOp τ sig (Elt F)) :=
  ( StableHlo.nullary main_cst (fun i => FloatOps.ofBits .f32 (lit0 (S12x4.rowMajor i)))
  :: StableHlo.unary main_arg1 main_v0 (Host.negf : (⟨S6, .f32⟩ : BufTy).Contents (Elt F) → (⟨S6, .f32⟩ : BufTy).Contents (Elt F))
  :: StableHlo.unary main_v0 main_v1 (Host.exp : (⟨S6, .f32⟩ : BufTy).Contents (Elt F) → (⟨S6, .f32⟩ : BufTy).Contents (Elt F))
  :: StableHlo.nullary main_cst_0 (constant S_ .f32 0x3F800000#32)
  :: StableHlo.unary main_cst_0 main_v2 (broadcastInDim S6 ![] bcast_S_S6 : (⟨S_, .f32⟩ : BufTy).Contents (Elt F) → (⟨S6, .f32⟩ : BufTy).Contents (Elt F))
  :: StableHlo.binary main_v2 main_v1 main_v3 (addf : (⟨S6, .f32⟩ : BufTy).Contents (Elt F) → (⟨S6, .f32⟩ : BufTy).Contents (Elt F) → (⟨S6, .f32⟩ : BufTy).Contents (Elt F))
  :: StableHlo.nullary main_cst_1 (constant S_ .f32 0x3F800000#32)
  :: StableHlo.unary main_cst_1 main_v4 (broadcastInDim S6 ![] bcast_S_S6 : (⟨S_, .f32⟩ : BufTy).Contents (Elt F) → (⟨S6, .f32⟩ : BufTy).Contents (Elt F))
  :: StableHlo.binary main_v4 main_v3 main_v5 (Host.divf : (⟨S6, .f32⟩ : BufTy).Contents (Elt F) → (⟨S6, .f32⟩ : BufTy).Contents (Elt F) → (⟨S6, .f32⟩ : BufTy).Contents (Elt F))
  :: StableHlo.nullary main_cst_2 (constant S_ .f32 0x00000000#32)
  :: StableHlo.unary main_cst_2 main_v6 (broadcastInDim S3 ![] bcast_S_S3 : (⟨S_, .f32⟩ : BufTy).Contents (Elt F) → (⟨S3, .f32⟩ : BufTy).Contents (Elt F))
  :: [] )

theorem partA_writes : (partA : List (HloOp τ sig (Elt F))).Forall fun op =>
    ∃ y : Ref sig .tc, 12 ≤ y.idx.val ∧ op.writes = {Proc.devRef .tc y} :=
  ⟨⟨main_cst, by decide, rfl⟩, ⟨main_v0, by decide, rfl⟩, ⟨main_v1, by decide, rfl⟩, ⟨main_cst_0, by decide, rfl⟩, ⟨main_v2, by decide, rfl⟩,
    ⟨main_v3, by decide, rfl⟩, ⟨main_cst_1, by decide, rfl⟩, ⟨main_v4, by decide, rfl⟩, ⟨main_v5, by decide, rfl⟩, ⟨main_cst_2, by decide, rfl⟩,
    ⟨main_v6, by decide, rfl⟩⟩

/-- These operations write the references 12 … 22 only: a reference below 12 keeps its contents. -/
theorem keepsA (V : Valuation τ sig (Elt F)) (r : Ref sig .tc) (hr : r.idx.val < 12) :
    after partA V (Proc.devRef .tc r) = V (Proc.devRef .tc r) :=
  keeps_of_writes partA 12 partA_writes V r hr

set_option maxHeartbeats 40000000 in
/-- Operation 12 of the shared line. -/
abbrev partP : List (HloOp τ sig (Elt F)) :=
  ( StableHlo.binary main_v5 main_v6 main_v7 ((fun a b => concatenate S9 0 [⟨S6, a⟩, ⟨S3, b⟩] concatenates_S6_S3_S9_d0) : (⟨S6, .f32⟩ : BufTy).Contents (Elt F) → (⟨S3, .f32⟩ : BufTy).Contents (Elt F) → (⟨S9, .f32⟩ : BufTy).Contents (Elt F))
  :: [] )

theorem partP_writes : (partP : List (HloOp τ sig (Elt F))).Forall fun op =>
    ∃ y : Ref sig .tc, 23 ≤ y.idx.val ∧ op.writes = {Proc.devRef .tc y} :=
  ⟨main_v7, by decide, rfl⟩

/-- These operations write the references 23 … 23 only: a reference below 23 keeps its contents. -/
theorem keepsP (V : Valuation τ sig (Elt F)) (r : Ref sig .tc) (hr : r.idx.val < 23) :
    after partP V (Proc.devRef .tc r) = V (Proc.devRef .tc r) :=
  keeps_of_writes partP 23 partP_writes V r hr

set_option maxHeartbeats 40000000 in
/-- Operations 13 … 30 of the shared line. -/
abbrev partQ : List (HloOp τ sig (Elt F)) :=
  ( StableHlo.binary main_arg3 main_arg4 main_v8 (subf : (⟨S9, .f32⟩ : BufTy).Contents (Elt F) → (⟨S9, .f32⟩ : BufTy).Contents (Elt F) → (⟨S9, .f32⟩ : BufTy).Contents (Elt F))
  :: StableHlo.binary main_v7 main_v8 main_v9 (mulf : (⟨S9, .f32⟩ : BufTy).Contents (Elt F) → (⟨S9, .f32⟩ : BufTy).Contents (Elt F) → (⟨S9, .f32⟩ : BufTy).Contents (Elt F))
  :: StableHlo.binary main_v9 main_arg4 main_v10 (addf : (⟨S9, .f32⟩ : BufTy).Contents (Elt F) → (⟨S9, .f32⟩ : BufTy).Contents (Elt F) → (⟨S9, .f32⟩ : BufTy).Contents (Elt F))
  :: StableHlo.nullary main_cst_3 (constant S_ .f32 0x40000000#32)
  :: StableHlo.unary main_cst_3 main_v11 (broadcastInDim S64x9 ![] bcast_S_S64x9 : (⟨S_, .f32⟩ : BufTy).Contents (Elt F) → (⟨S64x9, .f32⟩ : BufTy).Contents (Elt F))
  :: StableHlo.binary main_arg2 main_v11 main_v12 (mulf : (⟨S64x9, .f32⟩ : BufTy).Contents (Elt F) → (⟨S64x9, .f32⟩ : BufTy).Contents (Elt F) → (⟨S64x9, .f32⟩ : BufTy).Contents (Elt F))
  :: StableHlo.nullary main_cst_4 (constant S_ .f32 0x3F800000#32)
  :: StableHlo.unary main_cst_4 main_v13 (broadcastInDim S64x9 ![] bcast_S_S64x9 : (⟨S_, .f32⟩ : BufTy).Contents (Elt F) → (⟨S64x9, .f32⟩ : BufTy).Contents (Elt F))
  :: StableHlo.binary main_v12 main_v13 main_v14 (subf : (⟨S64x9, .f32⟩ : BufTy).Contents (Elt F) → (⟨S64x9, .f32⟩ : BufTy).Contents (Elt F) → (⟨S64x9, .f32⟩ : BufTy).Contents (Elt F))
  :: StableHlo.nullary main_cst_5 (constant S_ .f32 0x3DCCCCCD#32)
  :: StableHlo.unary main_cst_5 main_v15 (broadcastInDim S64x9 ![] bcast_S_S64x9 : (⟨S_, .f32⟩ : BufTy).Contents (Elt F) → (⟨S64x9, .f32⟩ : BufTy).Contents (Elt F))
  :: StableHlo.binary main_v14 main_v15 main_v16 (mulf : (⟨S64x9, .f32⟩ : BufTy).Contents (Elt F) → (⟨S64x9, .f32⟩ : BufTy).Contents (Elt F) → (⟨S64x9, .f32⟩ : BufTy).Contents (Elt F))
  :: StableHlo.nullary main_cst_6 (constant S_ .f32 0x3F800000#32)
  :: StableHlo.unary main_cst_6 main_v17 (broadcastInDim S64x9 ![] bcast_S_S64x9 : (⟨S_, .f32⟩ : BufTy).Contents (Elt F) → (⟨S64x9, .f32⟩ : BufTy).Contents (Elt F))
  :: StableHlo.binary main_v16 main_v17 main_v18 (addf : (⟨S64x9, .f32⟩ : BufTy).Contents (Elt F) → (⟨S64x9, .f32⟩ : BufTy).Contents (Elt F) → (⟨S64x9, .f32⟩ : BufTy).Contents (Elt F))
  :: StableHlo.unary main_v10 main_v19 (broadcastInDim S1x9 ![1] bcast_S9_S1x9_1 : (⟨S9, .f32⟩ : BufTy).Contents (Elt F) → (⟨S1x9, .f32⟩ : BufTy).Contents (Elt F))
  :: StableHlo.unary main_v19 main_v20 (broadcastInDim S64x9 ![0, 1] bcast_S1x9_S64x9_0_1 : (⟨S1x9, .f32⟩ : BufTy).Contents (Elt F) → (⟨S64x9, .f32⟩ : BufTy).Contents (Elt F))
  :: StableHlo.binary main_v20 main_v18 main_v21 (mulf : (⟨S64x9, .f32⟩ : BufTy).Contents (Elt F) → (⟨S64x9, .f32⟩ : BufTy).Contents (Elt F) → (⟨S64x9, .f32⟩ : BufTy).Contents (Elt F))
  :: [] )

theorem partQ_writes : (partQ : List (HloOp τ sig (Elt F))).Forall fun op =>
    ∃ y : Ref sig .tc, 24 ≤ y.idx.val ∧ op.writes = {Proc.devRef .tc y} :=
  ⟨⟨main_v8, by decide, rfl⟩, ⟨main_v9, by decide, rfl⟩, ⟨main_v10, by decide, rfl⟩, ⟨main_cst_3, by decide, rfl⟩, ⟨main_v11, by decide, rfl⟩,
    ⟨main_v12, by decide, rfl⟩, ⟨main_cst_4, by decide, rfl⟩, ⟨main_v13, by decide, rfl⟩, ⟨main_v14, by decide, rfl⟩, ⟨main_cst_5, by decide, rfl⟩,
    ⟨main_v15, by decide, rfl⟩, ⟨main_v16, by decide, rfl⟩, ⟨main_cst_6, by decide, rfl⟩, ⟨main_v17, by decide, rfl⟩, ⟨main_v18, by decide, rfl⟩,
    ⟨main_v19, by decide, rfl⟩, ⟨main_v20, by decide, rfl⟩, ⟨main_v21, by decide, rfl⟩⟩

/-- These operations write the references 24 … 41 only: a reference below 24 keeps its contents. -/
theorem keepsQ (V : Valuation τ sig (Elt F)) (r : Ref sig .tc) (hr : r.idx.val < 24) :
    after partQ V (Proc.devRef .tc r) = V (Proc.devRef .tc r) :=
  keeps_of_writes partQ 24 partQ_writes V r hr

set_option maxHeartbeats 40000000 in
/-- Operations 31 … 57 of the shared line. -/
abbrev partB1 : List (HloOp τ sig (Elt F)) :=
  ( StableHlo.unary main_v21 main_v22 ((extractStridedSlice S64x1 ![0, 0] · slices_S64x9_S64x1_0_0) : (⟨S64x9, .f32⟩ : BufTy).Contents (Elt F) → (⟨S64x1, .f32⟩ : BufTy).Contents (Elt F))
  :: StableHlo.reshape main_v22 main_v23 rfl shapeCasts_S64x1_S64
  :: StableHlo.unary main_v21 main_v24 ((extractStridedSlice S64x1 ![0, 1] · slices_S64x9_S64x1_0_1) : (⟨S64x9, .f32⟩ : BufTy).Contents (Elt F) → (⟨S64x1, .f32⟩ : BufTy).Contents (Elt F))
  :: StableHlo.reshape main_v24 main_v25 rfl shapeCasts_S64x1_S64
  :: StableHlo.unary main_v21 main_v26 ((extractStridedSlice S64x1 ![0, 2] · slices_S64x9_S64x1_0_2) : (⟨S64x9, .f32⟩ : BufTy).Contents (Elt F) → (⟨S64x1, .f32⟩ : BufTy).Contents (Elt F))
  :: StableHlo.reshape main_v26 main_v27 rfl shapeCasts_S64x1_S64
  :: StableHlo.unary main_v21 main_v28 ((extractStridedSlice S64x1 ![0, 3] · slices_S64x9_S64x1_0_3) : (⟨S64x9, .f32⟩ : BufTy).Contents (Elt F) → (⟨S64x1, .f32⟩ : BufTy).Contents (Elt F))
  :: StableHlo.reshape main_v28 main_v29 rfl shapeCasts_S64x1_S64
  :: StableHlo.unary main_v21 main_v30 ((extractStridedSlice S64x1 ![0, 4] · slices_S64x9_S64x1_0_4) : (⟨S64x9, .f32⟩ : BufTy).Contents (Elt F) → (⟨S64x1, .f32⟩ : BufTy).Contents (Elt F))
  :: StableHlo.reshape main_v30 main_v31 rfl shapeCasts_S64x1_S64
  :: StableHlo.unary main_v21 main_v32 ((extractStridedSlice S64x1 ![0, 5] · slices_S64x9_S64x1_0_5) : (⟨S64x9, .f32⟩ : BufTy).Contents (Elt F) → (⟨S64x1, .f32⟩ : BufTy).Contents (Elt F))
  :: StableHlo.reshape main_v32 main_v33 rfl shapeCasts_S64x1_S64
  :: StableHlo.unary main_v21 main_v34 ((extractStridedSlice S64x1 ![0, 1] · slices_S64x9_S64x1_0_1) : (⟨S64x9, .f32⟩ : BufTy).Contents (Elt F) → (⟨S64x1, .f32⟩ : BufTy).Contents (Elt F))
  :: StableHlo.reshape main_v34 main_v35 rfl shapeCasts_S64x1_S64
  :: StableHlo.unary main_v21 main_v36 ((extractStridedSlice S64x1 ![0, 0] · slices_S64x9_S64x1_0_0) : (⟨S64x9, .f32⟩ : BufTy).Contents (Elt F) → (⟨S64x1, .f32⟩ : BufTy).Contents (Elt F))
  :: StableHlo.reshape main_v36 main_v37 rfl shapeCasts_S64x1_S64
  :: StableHlo.binary main_v35 main_v37 main_v38 (Host.divf : (⟨S64, .f32⟩ : BufTy).Contents (Elt F) → (⟨S64, .f32⟩ : BufTy).Contents (Elt F) → (⟨S64, .f32⟩ : BufTy).Contents (Elt F))
  :: StableHlo.unary main_v21 main_v39 ((extractStridedSlice S64x1 ![0, 3] · slices_S64x9_S64x1_0_3) : (⟨S64x9, .f32⟩ : BufTy).Contents (Elt F) → (⟨S64x1, .f32⟩ : BufTy).Contents (Elt F))
  :: StableHlo.reshape main_v39 main_v40 rfl shapeCasts_S64x1_S64
  :: StableHlo.unary main_v21 main_v41 ((extractStridedSlice S64x1 ![0, 2] · slices_S64x9_S64x1_0_2) : (⟨S64x9, .f32⟩ : BufTy).Contents (Elt F) → (⟨S64x1, .f32⟩ : BufTy).Contents (Elt F))
  :: StableHlo.reshape main_v41 main_v42 rfl shapeCasts_S64x1_S64
  :: StableHlo.binary main_v40 main_v42 main_v43 (Host.divf : (⟨S64, .f32⟩ : BufTy).Contents (Elt F) → (⟨S64, .f32⟩ : BufTy).Contents (Elt F) → (⟨S64, .f32⟩ : BufTy).Contents (Elt F))
  :: StableHlo.unary main_v21 main_v44 ((extractStridedSlice S64x1 ![0, 5] · slices_S64x9_S64x1_0_5) : (⟨S64x9, .f32⟩ : BufTy).Contents (Elt F) → (⟨S64x1, .f32⟩ : BufTy).Contents (Elt F))
  :: StableHlo.reshape main_v44 main_v45 rfl shapeCasts_S64x1_S64
  :: StableHlo.unary main_v21 main_v46 ((extractStridedSlice S64x1 ![0, 4] · slices_S64x9_S64x1_0_4) : (⟨S64x9, .f32⟩ : BufTy).Contents (Elt F) → (⟨S64x1, .f32⟩ : BufTy).Contents (Elt F))
  :: StableHlo.reshape main_v46 main_v47 rfl shapeCasts_S64x1_S64
  :: StableHlo.binary main_v45 main_v47 main_v48 (Host.divf : (⟨S64, .f32⟩ : BufTy).Contents (Elt F) → (⟨S64, .f32⟩ : BufTy).Contents (Elt F) → (⟨S64, .f32⟩ : BufTy).Contents (Elt F))
  :: [] )

theorem partB1_writes : (partB1 : List (HloOp τ sig (Elt F))).Forall fun op =>
    ∃ y : Ref sig .tc, 42 ≤ y.idx.val ∧ op.writes = {Proc.devRef .tc y} :=
  ⟨⟨main_v22, by decide, rfl⟩, ⟨main_v23, by decide, rfl⟩, ⟨main_v24, by decide, rfl⟩, ⟨main_v25, by decide, rfl⟩, ⟨main_v26, by decide, rfl⟩,
    ⟨main_v27, by decide, rfl⟩, ⟨main_v28, by decide, rfl⟩, ⟨main_v29, by decide, rfl⟩, ⟨main_v30, by decide, rfl⟩, ⟨main_v31, by decide, rfl⟩,
    ⟨main_v32, by decide, rfl⟩, ⟨main_v33, by decide, rfl⟩, ⟨main_v34, by decide, rfl⟩, ⟨main_v35, by decide, rfl⟩, ⟨main_v36, by decide, rfl⟩,
    ⟨main_v37, by decide, rfl⟩, ⟨main_v38, by decide, rfl⟩, ⟨main_v39, by decide, rfl⟩, ⟨main_v40, by decide, rfl⟩, ⟨main_v41, by decide, rfl⟩,
    ⟨main_v42, by decide, rfl⟩, ⟨main_v43, by decide, rfl⟩, ⟨main_v44, by decide, rfl⟩, ⟨main_v45, by decide, rfl⟩, ⟨main_v46, by decide, rfl⟩,
    ⟨main_v47, by decide, rfl⟩, ⟨main_v48, by decide, rfl⟩⟩

/-- These operations write the references 42 … 68 only: a reference below 42 keeps its contents. -/
theorem keepsB1 (V : Valuation τ sig (Elt F)) (r : Ref sig .tc) (hr : r.idx.val < 42) :
    after partB1 V (Proc.devRef .tc r) = V (Proc.devRef .tc r) :=
  keeps_of_writes partB1 42 partB1_writes V r hr

set_option maxHeartbeats 40000000 in
/-- Operations 58 … 66 of the shared line. -/
abbrev partB2 : List (HloOp τ sig (Elt F)) :=
  ( StableHlo.unary main_v23 main_v49 (broadcastInDim S64x1 ![0] bcast_S64_S64x1_0 : (⟨S64, .f32⟩ : BufTy).Contents (Elt F) → (⟨S64x1, .f32⟩ : BufTy).Contents (Elt F))
  :: StableHlo.unary main_v25 main_v50 (broadcastInDim S64x1 ![0] bcast_S64_S64x1_0 : (⟨S64, .f32⟩ : BufTy).Contents (Elt F) → (⟨S64x1, .f32⟩ : BufTy).Contents (Elt F))
  :: StableHlo.unary main_v27 main_v51 (broadcastInDim S64x1 ![0] bcast_S64_S64x1_0 : (⟨S64, .f32⟩ : BufTy).Contents (Elt F) → (⟨S64x1, .f32⟩ : BufTy).Contents (Elt F))
  :: StableHlo.unary main_v29 main_v52 (broadcastInDim S64x1 ![0] bcast_S64_S64x1_0 : (⟨S64, .f32⟩ : BufTy).Contents (Elt F) → (⟨S64x1, .f32⟩ : BufTy).Contents (Elt F))
  :: StableHlo.unary main_v31 main_v53 (broadcastInDim S64x1 ![0] bcast_S64_S64x1_0 : (⟨S64, .f32⟩ : BufTy).Contents (Elt F) → (⟨S64x1, .f32⟩ : BufTy).Contents (Elt F))
  :: StableHlo.unary main_v33 main_v54 (broadcastInDim S64x1 ![0] bcast_S64_S64x1_0 : (⟨S64, .f32⟩ : BufTy).Contents (Elt F) → (⟨S64x1, .f32⟩ : BufTy).Contents (Elt F))
  :: StableHlo.unary main_v38 main_v55 (broadcastInDim S64x1 ![0] bcast_S64_S64x1_0 : (⟨S64, .f32⟩ : BufTy).Contents (Elt F) → (⟨S64x1, .f32⟩ : BufTy).Contents (Elt F))
  :: StableHlo.unary main_v43 main_v56 (broadcastInDim S64x1 ![0] bcast_S64_S64x1_0 : (⟨S64, .f32⟩ : BufTy).Contents (Elt F) → (⟨S64x1, .f32⟩ : BufTy).Contents (Elt F))
  :: StableHlo.unary main_v48 main_v57 (broadcastInDim S64x1 ![0] bcast_S64_S64x1_0 : (⟨S64, .f32⟩ : BufTy).Contents (Elt F) → (⟨S64x1, .f32⟩ : BufTy).Contents (Elt F))
  :: [] )

theorem partB2_writes : (partB2 : List (HloOp τ sig (Elt F))).Forall fun op =>
    ∃ y : Ref sig .tc, 69 ≤ y.idx.val ∧ op.writes = {Proc.devRef .tc y} :=
  ⟨⟨main_v49, by decide, rfl⟩, ⟨main_v50, by decide, rfl⟩, ⟨main_v51, by decide, rfl⟩, ⟨main_v52, by decide, rfl⟩, ⟨main_v53, by decide, rfl⟩,
    ⟨main_v54, by decide, rfl⟩, ⟨main_v55, by decide, rfl⟩, ⟨main_v56, by decide, rfl⟩, ⟨main_v57, by decide, rfl⟩⟩

/-- These operations write the references 69 … 77 only: a reference below 69 keeps its contents. -/
theorem keepsB2 (V : Valuation τ sig (Elt F)) (r : Ref sig .tc) (hr : r.idx.val < 69) :
    after partB2 V (Proc.devRef .tc r) = V (Proc.devRef .tc r) :=
  keeps_of_writes partB2 69 partB2_writes V r hr

set_option maxHeartbeats 40000000 in
/-- Operation 67 of the shared line. -/
abbrev partN : List (HloOp τ sig (Elt F)) :=
  ( StableHlo.nary ![main_v49, main_v50, main_v51, main_v52, main_v53, main_v54, main_v55, main_v56, main_v57] main_v58 (fun u => concatenate S64x9 1 [⟨S64x1, u 0⟩, ⟨S64x1, u 1⟩, ⟨S64x1, u 2⟩, ⟨S64x1, u 3⟩, ⟨S64x1, u 4⟩, ⟨S64x1, u 5⟩, ⟨S64x1, u 6⟩, ⟨S64x1, u 7⟩, ⟨S64x1, u 8⟩] concatenates_S64x1_S64x1_S64x1_S64x1_S64x1_S64x1_S64x1_S64x1_S64x1_S64x9_d1)
  :: [] )

theorem partN_writes : (partN : List (HloOp τ sig (Elt F))).Forall fun op =>
    ∃ y : Ref sig .tc, 78 ≤ y.idx.val ∧ op.writes = {Proc.devRef .tc y} :=
  ⟨main_v58, by decide, rfl⟩

/-- These operations write the references 78 … 78 only: a reference below 78 keeps its contents. -/
theorem keepsN (V : Valuation τ sig (Elt F)) (r : Ref sig .tc) (hr : r.idx.val < 78) :
    after partN V (Proc.devRef .tc r) = V (Proc.devRef .tc r) :=
  keeps_of_writes partN 78 partN_writes V r hr

set_option maxHeartbeats 40000000 in
/-- Operations 68 … 78 of the shared line. -/
abbrev partC1 : List (HloOp τ sig (Elt F)) :=
  ( StableHlo.unary main_arg4 main_v59 (broadcastInDim S1x9 ![1] bcast_S9_S1x9_1 : (⟨S9, .f32⟩ : BufTy).Contents (Elt F) → (⟨S1x9, .f32⟩ : BufTy).Contents (Elt F))
  :: StableHlo.unary main_v59 main_v60 (broadcastInDim S64x9 ![0, 1] bcast_S1x9_S64x9_0_1 : (⟨S1x9, .f32⟩ : BufTy).Contents (Elt F) → (⟨S64x9, .f32⟩ : BufTy).Contents (Elt F))
  :: StableHlo.binary main_v58 main_v60 main_v61 (subf : (⟨S64x9, .f32⟩ : BufTy).Contents (Elt F) → (⟨S64x9, .f32⟩ : BufTy).Contents (Elt F) → (⟨S64x9, .f32⟩ : BufTy).Contents (Elt F))
  :: StableHlo.binary main_arg3 main_arg4 main_v62 (subf : (⟨S9, .f32⟩ : BufTy).Contents (Elt F) → (⟨S9, .f32⟩ : BufTy).Contents (Elt F) → (⟨S9, .f32⟩ : BufTy).Contents (Elt F))
  :: StableHlo.unary main_v62 main_v63 (broadcastInDim S1x9 ![1] bcast_S9_S1x9_1 : (⟨S9, .f32⟩ : BufTy).Contents (Elt F) → (⟨S1x9, .f32⟩ : BufTy).Contents (Elt F))
  :: StableHlo.unary main_v63 main_v64 (broadcastInDim S64x9 ![0, 1] bcast_S1x9_S64x9_0_1 : (⟨S1x9, .f32⟩ : BufTy).Contents (Elt F) → (⟨S64x9, .f32⟩ : BufTy).Contents (Elt F))
  :: StableHlo.binary main_v61 main_v64 main_v65 (Host.divf : (⟨S64x9, .f32⟩ : BufTy).Contents (Elt F) → (⟨S64x9, .f32⟩ : BufTy).Contents (Elt F) → (⟨S64x9, .f32⟩ : BufTy).Contents (Elt F))
  :: StableHlo.binary main_v65 main_arg7 main_v66 ((fun l r => Host.dotGeneral dot_S64x9_S9x64_S64x64_1_0_0_1_n_n none l r) : (⟨S64x9, .f32⟩ : BufTy).Contents (Elt F) → (⟨S9x64, .f32⟩ : BufTy).Contents (Elt F) → (⟨S64x64, .f32⟩ : BufTy).Contents (Elt F))
  :: StableHlo.unary main_arg8 main_v67 (broadcastInDim S1x64 ![1] bcast_S64_S1x64_1 : (⟨S64, .f32⟩ : BufTy).Contents (Elt F) → (⟨S1x64, .f32⟩ : BufTy).Contents (Elt F))
  :: StableHlo.unary main_v67 main_v68 (broadcastInDim S64x64 ![0, 1] bcast_S1x64_S64x64_0_1 : (⟨S1x64, .f32⟩ : BufTy).Contents (Elt F) → (⟨S64x64, .f32⟩ : BufTy).Contents (Elt F))
  :: StableHlo.binary main_v66 main_v68 main_v69 (addf : (⟨S64x64, .f32⟩ : BufTy).Contents (Elt F) → (⟨S64x64, .f32⟩ : BufTy).Contents (Elt F) → (⟨S64x64, .f32⟩ : BufTy).Contents (Elt F))
  :: [] )

theorem partC1_writes : (partC1 : List (HloOp τ sig (Elt F))).Forall fun op =>
    ∃ y : Ref sig .tc, 79 ≤ y.idx.val ∧ op.writes = {Proc.devRef .tc y} :=
  ⟨⟨main_v59, by decide, rfl⟩, ⟨main_v60, by decide, rfl⟩, ⟨main_v61, by decide, rfl⟩, ⟨main_v62, by decide, rfl⟩, ⟨main_v63, by decide, rfl⟩,
    ⟨main_v64, by decide, rfl⟩, ⟨main_v65, by decide, rfl⟩, ⟨main_v66, by decide, rfl⟩, ⟨main_v67, by decide, rfl⟩, ⟨main_v68, by decide, rfl⟩,
    ⟨main_v69, by decide, rfl⟩⟩

/-- These operations write the references 79 … 89 only: a reference below 79 keeps its contents. -/
theorem keepsC1 (V : Valuation τ sig (Elt F)) (r : Ref sig .tc) (hr : r.idx.val < 79) :
    after partC1 V (Proc.devRef .tc r) = V (Proc.devRef .tc r) :=
  keeps_of_writes partC1 79 partC1_writes V r hr

set_option maxHeartbeats 40000000 in
/-- Operations 79 … 81 of the shared line. -/
abbrev partC2 : List (HloOp τ sig (Elt F)) :=
  ( StableHlo.TRef.nullary (.of main_call0_cst : StableHlo.TRef sig ⟨S_, .f32⟩) (constant S_ .f32 0x00000000#32)
  :: StableHlo.TRef.unary (.of main_call0_cst : StableHlo.TRef sig ⟨S_, .f32⟩) (.of main_call0_v0 : StableHlo.TRef sig ⟨S64x64, .f32⟩) (broadcastInDim S64x64 ![] bcast_S_S64x64)
  :: StableHlo.TRef.binary (.of main_v69 : StableHlo.TRef sig ⟨S64x64, .f32⟩) (.of main_call0_v0 : StableHlo.TRef sig ⟨S64x64, .f32⟩) (.of main_v70 : StableHlo.TRef sig ⟨S64x64, .f32⟩) maximumf
  :: [] )

theorem partC2_writes : (partC2 : List (HloOp τ sig (Elt F))).Forall fun op =>
    ∃ y : Ref sig .tc, 90 ≤ y.idx.val ∧ op.writes = {Proc.devRef .tc y} :=
  ⟨⟨main_call0_cst, by decide, rfl⟩, ⟨main_call0_v0, by decide, rfl⟩, ⟨main_v70, by decide, rfl⟩⟩

/-- These operations write the references 90 … 92 only: a reference below 90 keeps its contents. -/
theorem keepsC2 (V : Valuation τ sig (Elt F)) (r : Ref sig .tc) (hr : r.idx.val < 90) :
    after partC2 V (Proc.devRef .tc r) = V (Proc.devRef .tc r) :=
  keeps_of_writes partC2 90 partC2_writes V r hr

set_option maxHeartbeats 40000000 in
/-- Operations 82 … 100 of the shared line. -/
abbrev partC3 : List (HloOp τ sig (Elt F)) :=
  ( StableHlo.binary main_v70 main_arg9 main_v71 ((fun l r => Host.dotGeneral dot_S64x64_S64x4_S64x4_1_0_0_1_n_n none l r) : (⟨S64x64, .f32⟩ : BufTy).Contents (Elt F) → (⟨S64x4, .f32⟩ : BufTy).Contents (Elt F) → (⟨S64x4, .f32⟩ : BufTy).Contents (Elt F))
  :: StableHlo.unary main_arg10 main_v72 (broadcastInDim S1x4 ![1] bcast_S4_S1x4_1 : (⟨S4, .f32⟩ : BufTy).Contents (Elt F) → (⟨S1x4, .f32⟩ : BufTy).Contents (Elt F))
  :: StableHlo.unary main_v72 main_v73 (broadcastInDim S64x4 ![0, 1] bcast_S1x4_S64x4_0_1 : (⟨S1x4, .f32⟩ : BufTy).Contents (Elt F) → (⟨S64x4, .f32⟩ : BufTy).Contents (Elt F))
  :: StableHlo.binary main_v71 main_v73 main_v74 (addf : (⟨S64x4, .f32⟩ : BufTy).Contents (Elt F) → (⟨S64x4, .f32⟩ : BufTy).Contents (Elt F) → (⟨S64x4, .f32⟩ : BufTy).Contents (Elt F))
  :: StableHlo.unary main_v74 main_v75 (Host.negf : (⟨S64x4, .f32⟩ : BufTy).Contents (Elt F) → (⟨S64x4, .f32⟩ : BufTy).Contents (Elt F))
  :: StableHlo.unary main_v75 main_v76 (Host.exp : (⟨S64x4, .f32⟩ : BufTy).Contents (Elt F) → (⟨S64x4, .f32⟩ : BufTy).Contents (Elt F))
  :: StableHlo.nullary main_cst_7 (constant S_ .f32 0x3F800000#32)
  :: StableHlo.unary main_cst_7 main_v77 (broadcastInDim S64x4 ![] bcast_S_S64x4 : (⟨S_, .f32⟩ : BufTy).Contents (Elt F) → (⟨S64x4, .f32⟩ : BufTy).Contents (Elt F))
  :: StableHlo.binary main_v77 main_v76 main_v78 (addf : (⟨S64x4, .f32⟩ : BufTy).Contents (Elt F) → (⟨S64x4, .f32⟩ : BufTy).Contents (Elt F) → (⟨S64x4, .f32⟩ : BufTy).Contents (Elt F))
  :: StableHlo.nullary main_cst_8 (constant S_ .f32 0x3F800000#32)
  :: StableHlo.unary main_cst_8 main_v79 (broadcastInDim S64x4 ![] bcast_S_S64x4 : (⟨S_, .f32⟩ : BufTy).Contents (Elt F) → (⟨S64x4, .f32⟩ : BufTy).Contents (Elt F))
  :: StableHlo.binary main_v79 main_v78 main_v80 (Host.divf : (⟨S64x4, .f32⟩ : BufTy).Contents (Elt F) → (⟨S64x4, .f32⟩ : BufTy).Contents (Elt F) → (⟨S64x4, .f32⟩ : BufTy).Contents (Elt F))
  :: StableHlo.binary main_arg5 main_arg6 main_v81 (subf : (⟨S4, .f32⟩ : BufTy).Contents (Elt F) → (⟨S4, .f32⟩ : BufTy).Contents (Elt F) → (⟨S4, .f32⟩ : BufTy).Contents (Elt F))
  :: StableHlo.unary main_v81 main_v82 (broadcastInDim S1x4 ![1] bcast_S4_S1x4_1 : (⟨S4, .f32⟩ : BufTy).Contents (Elt F) → (⟨S1x4, .f32⟩ : BufTy).Contents (Elt F))
  :: StableHlo.unary main_v82 main_v83 (broadcastInDim S64x4 ![0, 1] bcast_S1x4_S64x4_0_1 : (⟨S1x4, .f32⟩ : BufTy).Contents (Elt F) → (⟨S64x4, .f32⟩ : BufTy).Contents (Elt F))
  :: StableHlo.binary main_v80 main_v83 main_v84 (mulf : (⟨S64x4, .f32⟩ : BufTy).Contents (Elt F) → (⟨S64x4, .f32⟩ : BufTy).Contents (Elt F) → (⟨S64x4, .f32⟩ : BufTy).Contents (Elt F))
  :: StableHlo.unary main_arg6 main_v85 (broadcastInDim S1x4 ![1] bcast_S4_S1x4_1 : (⟨S4, .f32⟩ : BufTy).Contents (Elt F) → (⟨S1x4, .f32⟩ : BufTy).Contents (Elt F))
  :: StableHlo.unary main_v85 main_v86 (broadcastInDim S64x4 ![0, 1] bcast_S1x4_S64x4_0_1 : (⟨S1x4, .f32⟩ : BufTy).Contents (Elt F) → (⟨S64x4, .f32⟩ : BufTy).Contents (Elt F))
  :: StableHlo.binary main_v84 main_v86 main_v87 (addf : (⟨S64x4, .f32⟩ : BufTy).Contents (Elt F) → (⟨S64x4, .f32⟩ : BufTy).Contents (Elt F) → (⟨S64x4, .f32⟩ : BufTy).Contents (Elt F))
  :: [] )

theorem partC3_writes : (partC3 : List (HloOp τ sig (Elt F))).Forall fun op =>
    ∃ y : Ref sig .tc, 93 ≤ y.idx.val ∧ op.writes = {Proc.devRef .tc y} :=
  ⟨⟨main_v71, by decide, rfl⟩, ⟨main_v72, by decide, rfl⟩, ⟨main_v73, by decide, rfl⟩, ⟨main_v74, by decide, rfl⟩, ⟨main_v75, by decide, rfl⟩,
    ⟨main_v76, by decide, rfl⟩, ⟨main_cst_7, by decide, rfl⟩, ⟨main_v77, by decide, rfl⟩, ⟨main_v78, by decide, rfl⟩, ⟨main_cst_8, by decide, rfl⟩,
    ⟨main_v79, by decide, rfl⟩, ⟨main_v80, by decide, rfl⟩, ⟨main_v81, by decide, rfl⟩, ⟨main_v82, by decide, rfl⟩, ⟨main_v83, by decide, rfl⟩,
    ⟨main_v84, by decide, rfl⟩, ⟨main_v85, by decide, rfl⟩, ⟨main_v86, by decide, rfl⟩, ⟨main_v87, by decide, rfl⟩⟩

/-- These operations write the references 93 … 111 only: a reference below 93 keeps its contents. -/
theorem keepsC3 (V : Valuation τ sig (Elt F)) (r : Ref sig .tc) (hr : r.idx.val < 93) :
    after partC3 V (Proc.devRef .tc r) = V (Proc.devRef .tc r) :=
  keeps_of_writes partC3 93 partC3_writes V r hr

set_option maxHeartbeats 40000000 in
/-- Operations 101 … 115 of the shared line. -/
abbrev partD : List (HloOp τ sig (Elt F)) :=
  ( StableHlo.nullary main_c (constantI S_ 32 1#32)
  :: StableHlo.unary main_c main_v88 (broadcastInDim S4x512 ![] bcast_S_S4x512 : (⟨S_, .i32⟩ : BufTy).Contents (Elt F) → (⟨S4x512, .i32⟩ : BufTy).Contents (Elt F))
  :: StableHlo.binary main_arg11 main_v88 main_v89 (subi : (⟨S4x512, .i32⟩ : BufTy).Contents (Elt F) → (⟨S4x512, .i32⟩ : BufTy).Contents (Elt F) → (⟨S4x512, .i32⟩ : BufTy).Contents (Elt F))
  :: StableHlo.nullary main_c_9 (constantI S_ 32 0#32)
  :: StableHlo.unary main_c_9 main_v90 (broadcastInDim S4x512 ![] bcast_S_S4x512 : (⟨S_, .i32⟩ : BufTy).Contents (Elt F) → (⟨S4x512, .i32⟩ : BufTy).Contents (Elt F))
  :: StableHlo.binary main_v89 main_v90 main_v91 (maxsi : (⟨S4x512, .i32⟩ : BufTy).Contents (Elt F) → (⟨S4x512, .i32⟩ : BufTy).Contents (Elt F) → (⟨S4x512, .i32⟩ : BufTy).Contents (Elt F))
  :: StableHlo.nullary main_c_10 (constantI S_ 32 0#32)
  :: StableHlo.unary main_c_10 main_v92 (broadcastInDim S4x512 ![] bcast_S_S4x512 : (⟨S_, .i32⟩ : BufTy).Contents (Elt F) → (⟨S4x512, .i32⟩ : BufTy).Contents (Elt F))
  :: StableHlo.binary main_v91 main_v92 main_v93 (cmpi .slt : (⟨S4x512, .i32⟩ : BufTy).Contents (Elt F) → (⟨S4x512, .i32⟩ : BufTy).Contents (Elt F) → (⟨S4x512, .i1⟩ : BufTy).Contents (Elt F))
  :: StableHlo.nullary main_c_11 (constantI S_ 32 12#32)
  :: StableHlo.unary main_c_11 main_v94 (broadcastInDim S4x512 ![] bcast_S_S4x512 : (⟨S_, .i32⟩ : BufTy).Contents (Elt F) → (⟨S4x512, .i32⟩ : BufTy).Contents (Elt F))
  :: StableHlo.binary main_v91 main_v94 main_v95 (addi : (⟨S4x512, .i32⟩ : BufTy).Contents (Elt F) → (⟨S4x512, .i32⟩ : BufTy).Contents (Elt F) → (⟨S4x512, .i32⟩ : BufTy).Contents (Elt F))
  :: StableHlo.ternary main_v93 main_v95 main_v91 main_v96 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F))
  :: StableHlo.unary main_v96 main_v97 (broadcastInDim S4x512x1 ![0, 1] bcast_S4x512_S4x512x1_0_1 : (⟨S4x512, .i32⟩ : BufTy).Contents (Elt F) → (⟨S4x512x1, .i32⟩ : BufTy).Contents (Elt F))
  :: StableHlo.binary main_cst main_v97 main_v98 ((fun x i => Host.gather gather_S12x4_S4x512x1_S4x512x4_2_0_n_n_0_2_14 x i) : (⟨S12x4, .f32⟩ : BufTy).Contents (Elt F) → (⟨S4x512x1, .i32⟩ : BufTy).Contents (Elt F) → (⟨S4x512x4, .f32⟩ : BufTy).Contents (Elt F))
  :: [] )

theorem partD_writes : (partD : List (HloOp τ sig (Elt F))).Forall fun op =>
    ∃ y : Ref sig .tc, 112 ≤ y.idx.val ∧ op.writes = {Proc.devRef .tc y} :=
  ⟨⟨main_c, by decide, rfl⟩, ⟨main_v88, by decide, rfl⟩, ⟨main_v89, by decide, rfl⟩, ⟨main_c_9, by decide, rfl⟩, ⟨main_v90, by decide, rfl⟩,
    ⟨main_v91, by decide, rfl⟩, ⟨main_c_10, by decide, rfl⟩, ⟨main_v92, by decide, rfl⟩, ⟨main_v93, by decide, rfl⟩, ⟨main_c_11, by decide, rfl⟩,
    ⟨main_v94, by decide, rfl⟩, ⟨main_v95, by decide, rfl⟩, ⟨main_v96, by decide, rfl⟩, ⟨main_v97, by decide, rfl⟩, ⟨main_v98, by decide, rfl⟩⟩

/-- These operations write the references 112 … 126 only: a reference below 112 keeps its contents. -/
theorem keepsD (V : Valuation τ sig (Elt F)) (r : Ref sig .tc) (hr : r.idx.val < 112) :
    after partD V (Proc.devRef .tc r) = V (Proc.devRef .tc r) :=
  keeps_of_writes partD 112 partD_writes V r hr

/-! The buffers when each part starts: the parts before it, run in order from `V`. -/

abbrev atP (V : Valuation τ sig (Elt F)) : Valuation τ sig (Elt F) := after partA V

theorem atP_keeps (V : Valuation τ sig (Elt F)) (r : Ref sig .tc) (hr : r.idx.val < 12) :
    atP V (Proc.devRef .tc r) = V (Proc.devRef .tc r) :=
  keepsA V r hr

abbrev atQ (V : Valuation τ sig (Elt F)) : Valuation τ sig (Elt F) := after partP (atP V)

theorem atQ_keeps (V : Valuation τ sig (Elt F)) (r : Ref sig .tc) (hr : r.idx.val < 12) :
    atQ V (Proc.devRef .tc r) = V (Proc.devRef .tc r) :=
  (keepsP (atP V) r (by omega)).trans (atP_keeps V r hr)

abbrev atB1 (V : Valuation τ sig (Elt F)) : Valuation τ sig (Elt F) := after partQ (atQ V)

theorem atB1_keeps (V : Valuation τ sig (Elt F)) (r : Ref sig .tc) (hr : r.idx.val < 12) :
    atB1 V (Proc.devRef .tc r) = V (Proc.devRef .tc r) :=
  (keepsQ (atQ V) r (by omega)).trans (atQ_keeps V r hr)

abbrev atB2 (V : Valuation τ sig (Elt F)) : Valuation τ sig (Elt F) := after partB1 (atB1 V)

theorem atB2_keeps (V : Valuation τ sig (Elt F)) (r : Ref sig .tc) (hr : r.idx.val < 12) :
    atB2 V (Proc.devRef .tc r) = V (Proc.devRef .tc r) :=
  (keepsB1 (atB1 V) r (by omega)).trans (atB1_keeps V r hr)

abbrev atN (V : Valuation τ sig (Elt F)) : Valuation τ sig (Elt F) := after partB2 (atB2 V)

theorem atN_keeps (V : Valuation τ sig (Elt F)) (r : Ref sig .tc) (hr : r.idx.val < 12) :
    atN V (Proc.devRef .tc r) = V (Proc.devRef .tc r) :=
  (keepsB2 (atB2 V) r (by omega)).trans (atB2_keeps V r hr)

abbrev atC1 (V : Valuation τ sig (Elt F)) : Valuation τ sig (Elt F) := after partN (atN V)

theorem atC1_keeps (V : Valuation τ sig (Elt F)) (r : Ref sig .tc) (hr : r.idx.val < 12) :
    atC1 V (Proc.devRef .tc r) = V (Proc.devRef .tc r) :=
  (keepsN (atN V) r (by omega)).trans (atN_keeps V r hr)

abbrev atC2 (V : Valuation τ sig (Elt F)) : Valuation τ sig (Elt F) := after partC1 (atC1 V)

theorem atC2_keeps (V : Valuation τ sig (Elt F)) (r : Ref sig .tc) (hr : r.idx.val < 12) :
    atC2 V (Proc.devRef .tc r) = V (Proc.devRef .tc r) :=
  (keepsC1 (atC1 V) r (by omega)).trans (atC1_keeps V r hr)

abbrev atC3 (V : Valuation τ sig (Elt F)) : Valuation τ sig (Elt F) := after partC2 (atC2 V)

theorem atC3_keeps (V : Valuation τ sig (Elt F)) (r : Ref sig .tc) (hr : r.idx.val < 12) :
    atC3 V (Proc.devRef .tc r) = V (Proc.devRef .tc r) :=
  (keepsC2 (atC2 V) r (by omega)).trans (atC2_keeps V r hr)

abbrev atD (V : Valuation τ sig (Elt F)) : Valuation τ sig (Elt F) := after partC3 (atC3 V)

theorem atD_keeps (V : Valuation τ sig (Elt F)) (r : Ref sig .tc) (hr : r.idx.val < 12) :
    atD V (Proc.devRef .tc r) = V (Proc.devRef .tc r) :=
  (keepsC3 (atC3 V) r (by omega)).trans (atC3_keeps V r hr)

set_option maxRecDepth 16384 in
/-- The shared line is its parts in order. -/
theorem shared_eq : (Line.shared : List (HloOp τ sig (Elt F))) = partA ++ (partP ++ (partQ ++ (partB1 ++ (partB2 ++ (partN ++ (partC1 ++ (partC2 ++ (partC3 ++ (partD))))))))) := rfl

/-- The shared line run from `V` is its last part run from where the others end. -/
theorem after_shared (V : Valuation τ sig (Elt F)) :
    after (Line.shared (F := F)) V = after partD (atD V) := by
  rw [shared_eq]
  simp only [after_append, atP, atQ, atB1, atB2, atN, atC1, atC2, atC3, atD]

/-- The shared line writes the references 12 … 126 only: a reference below 12 keeps its contents. -/
theorem shared_keeps (V : Valuation τ sig (Elt F)) (r : Ref sig .tc) (hr : r.idx.val < 12) :
    after (Line.shared (F := F)) V (Proc.devRef .tc r) = V (Proc.devRef .tc r) := by
  rw [after_shared]
  exact (keepsD (atD V) r (by omega)).trans (atD_keeps V r hr)

end K

end Cert.SharedCoefficients

end
-- ==== Proof.SharedAgreeA.lean ====
/-
  Agreement of the two programs on operations 1 … 30 of the shared line: if the buffers a part reads hold the same contents in
  the two programs when the part starts, so do the buffers it is read for when it ends. Each side's fold is rewritten
  to the composed operations of the part's inputs (an operation's result at its own buffer is its function of the
  operands' contents; at any other buffer, what was there); the inputs are then replaced by the hypotheses, and the
  two sides are the same term. Every equation between the two programs is stated in the array's own type
  (`[64, 9]` floats, say), to which each program's buffer type computes: comparing the two programs' buffer types
  with each other instead would mean comparing their whole buffer tables.
-/
import proofs.«109087_j41085657153638_2_alg».proof.Proof.SharedParts

noncomputable section

namespace Cert.SharedCoefficients

open Idealize.ShloMosaic Idealize.ShloMosaic.TcCoe Idealize.SL.Sem Idealize.ShloMosaic.StableHlo

variable {F : FTy → Type} [FloatOps F]

set_option maxRecDepth 16384 in
set_option maxHeartbeats 4000000 in
/-- Operations 1 … 11: from equal `main_arg1`, equal `main_v5` (the logistic of the first six coefficients) and
    `main_v6` (three zeros). -/
theorem agreeA (Vr : Valuation Cert.ReferenceIdeal.τ Cert.ReferenceIdeal.sig (Elt F)) (Vk : Valuation Cert.KernelIdeal.τ Cert.KernelIdeal.sig (Elt F))
    (h1 : @Eq ((⟨Cert.ReferenceIdeal.S6, .f32⟩ : BufTy).Contents (Elt F)) (Vr (Proc.devRef .tc Cert.ReferenceIdeal.main_arg1)) (Vk (Proc.devRef .tc Cert.KernelIdeal.main_arg1))) :
    @Eq ((⟨Cert.ReferenceIdeal.S6, .f32⟩ : BufTy).Contents (Elt F)) (after R.partA Vr (Proc.devRef .tc Cert.ReferenceIdeal.main_v5)) (after K.partA Vk (Proc.devRef .tc Cert.KernelIdeal.main_v5))
    ∧ @Eq ((⟨Cert.ReferenceIdeal.S3, .f32⟩ : BufTy).Contents (Elt F)) (after R.partA Vr (Proc.devRef .tc Cert.ReferenceIdeal.main_v6)) (after K.partA Vk (Proc.devRef .tc Cert.KernelIdeal.main_v6)) := by
  simp (disch := decide) only [after_cons, after_nil,
    nullary_result', unary_result', binary_result', ternary_result', reshape_result', nary_result',
    nullary_result_ne', unary_result_ne', binary_result_ne', ternary_result_ne', reshape_result_ne', nary_result_ne',
    Matrix.cons_val]
  rw [h1]
  refine ⟨?_, ?_⟩ <;> first | rfl | trivial

set_option maxRecDepth 16384 in
/-- Operation 12, the concatenation of those two into nine entries. -/
theorem agreeP (Vr : Valuation Cert.ReferenceIdeal.τ Cert.ReferenceIdeal.sig (Elt F)) (Vk : Valuation Cert.KernelIdeal.τ Cert.KernelIdeal.sig (Elt F))
    (hv5 : @Eq ((⟨Cert.ReferenceIdeal.S6, .f32⟩ : BufTy).Contents (Elt F)) (Vr (Proc.devRef .tc Cert.ReferenceIdeal.main_v5)) (Vk (Proc.devRef .tc Cert.KernelIdeal.main_v5)))
    (hv6 : @Eq ((⟨Cert.ReferenceIdeal.S3, .f32⟩ : BufTy).Contents (Elt F)) (Vr (Proc.devRef .tc Cert.ReferenceIdeal.main_v6)) (Vk (Proc.devRef .tc Cert.KernelIdeal.main_v6))) :
    @Eq ((⟨Cert.ReferenceIdeal.S9, .f32⟩ : BufTy).Contents (Elt F)) (after R.partP Vr (Proc.devRef .tc Cert.ReferenceIdeal.main_v7)) (after K.partP Vk (Proc.devRef .tc Cert.KernelIdeal.main_v7)) := by
  simp only [after_cons, after_nil]
  rw [binary_result, binary_result, hv5, hv6]

set_option maxRecDepth 16384 in
set_option maxHeartbeats 4000000 in
/-- Operations 13 … 30: the blend with the bounds and the per-row scaling, up to `main_v21 : [64, 9]`. -/
theorem agreeQ (Vr : Valuation Cert.ReferenceIdeal.τ Cert.ReferenceIdeal.sig (Elt F)) (Vk : Valuation Cert.KernelIdeal.τ Cert.KernelIdeal.sig (Elt F))
    (hv7 : @Eq ((⟨Cert.ReferenceIdeal.S9, .f32⟩ : BufTy).Contents (Elt F)) (Vr (Proc.devRef .tc Cert.ReferenceIdeal.main_v7)) (Vk (Proc.devRef .tc Cert.KernelIdeal.main_v7)))
    (h3 : @Eq ((⟨Cert.ReferenceIdeal.S9, .f32⟩ : BufTy).Contents (Elt F)) (Vr (Proc.devRef .tc Cert.ReferenceIdeal.main_arg3)) (Vk (Proc.devRef .tc Cert.KernelIdeal.main_arg3)))
    (h4 : @Eq ((⟨Cert.ReferenceIdeal.S9, .f32⟩ : BufTy).Contents (Elt F)) (Vr (Proc.devRef .tc Cert.ReferenceIdeal.main_arg4)) (Vk (Proc.devRef .tc Cert.KernelIdeal.main_arg4)))
    (h2 : @Eq ((⟨Cert.ReferenceIdeal.S64x9, .f32⟩ : BufTy).Contents (Elt F)) (Vr (Proc.devRef .tc Cert.ReferenceIdeal.main_arg2)) (Vk (Proc.devRef .tc Cert.KernelIdeal.main_arg2))) :
    @Eq ((⟨Cert.ReferenceIdeal.S64x9, .f32⟩ : BufTy).Contents (Elt F)) (after R.partQ Vr (Proc.devRef .tc Cert.ReferenceIdeal.main_v21)) (after K.partQ Vk (Proc.devRef .tc Cert.KernelIdeal.main_v21)) := by
  simp (disch := decide) only [after_cons, after_nil,
    nullary_result', unary_result', binary_result', ternary_result', reshape_result', nary_result',
    nullary_result_ne', unary_result_ne', binary_result_ne', ternary_result_ne', reshape_result_ne', nary_result_ne',
    Matrix.cons_val]
  rw [hv7, h3, h4, h2]
  try rfl

end Cert.SharedCoefficients

end
-- ==== Proof.SharedAgreeB.lean ====
/-
  Agreement of the two programs on operations 31 … 57 of the shared line: if the buffers a part reads hold the same contents in
  the two programs when the part starts, so do the buffers it is read for when it ends. Each side's fold is rewritten
  to the composed operations of the part's inputs (an operation's result at its own buffer is its function of the
  operands' contents; at any other buffer, what was there); the inputs are then replaced by the hypotheses, and the
  two sides are the same term. Every equation between the two programs is stated in the array's own type
  (`[64, 9]` floats, say), to which each program's buffer type computes: comparing the two programs' buffer types
  with each other instead would mean comparing their whole buffer tables.
-/
import proofs.«109087_j41085657153638_2_alg».proof.Proof.SharedParts

noncomputable section

namespace Cert.SharedCoefficients

open Idealize.ShloMosaic Idealize.ShloMosaic.TcCoe Idealize.SL.Sem Idealize.ShloMosaic.StableHlo

variable {F : FTy → Type} [FloatOps F]

set_option maxRecDepth 16384 in
set_option maxHeartbeats 4000000 in
/-- Operations 31 … 57: the six columns of `main_v21` kept as they are and the three quotients of columns. -/
theorem agreeB1 (Vr : Valuation Cert.ReferenceIdeal.τ Cert.ReferenceIdeal.sig (Elt F)) (Vk : Valuation Cert.KernelIdeal.τ Cert.KernelIdeal.sig (Elt F))
    (hv21 : @Eq ((⟨Cert.ReferenceIdeal.S64x9, .f32⟩ : BufTy).Contents (Elt F)) (Vr (Proc.devRef .tc Cert.ReferenceIdeal.main_v21)) (Vk (Proc.devRef .tc Cert.KernelIdeal.main_v21))) :
    @Eq ((⟨Cert.ReferenceIdeal.S64, .f32⟩ : BufTy).Contents (Elt F)) (after R.partB1 Vr (Proc.devRef .tc Cert.ReferenceIdeal.main_v23)) (after K.partB1 Vk (Proc.devRef .tc Cert.KernelIdeal.main_v23))
    ∧ @Eq ((⟨Cert.ReferenceIdeal.S64, .f32⟩ : BufTy).Contents (Elt F)) (after R.partB1 Vr (Proc.devRef .tc Cert.ReferenceIdeal.main_v25)) (after K.partB1 Vk (Proc.devRef .tc Cert.KernelIdeal.main_v25))
    ∧ @Eq ((⟨Cert.ReferenceIdeal.S64, .f32⟩ : BufTy).Contents (Elt F)) (after R.partB1 Vr (Proc.devRef .tc Cert.ReferenceIdeal.main_v27)) (after K.partB1 Vk (Proc.devRef .tc Cert.KernelIdeal.main_v27))
    ∧ @Eq ((⟨Cert.ReferenceIdeal.S64, .f32⟩ : BufTy).Contents (Elt F)) (after R.partB1 Vr (Proc.devRef .tc Cert.ReferenceIdeal.main_v29)) (after K.partB1 Vk (Proc.devRef .tc Cert.KernelIdeal.main_v29))
    ∧ @Eq ((⟨Cert.ReferenceIdeal.S64, .f32⟩ : BufTy).Contents (Elt F)) (after R.partB1 Vr (Proc.devRef .tc Cert.ReferenceIdeal.main_v31)) (after K.partB1 Vk (Proc.devRef .tc Cert.KernelIdeal.main_v31))
    ∧ @Eq ((⟨Cert.ReferenceIdeal.S64, .f32⟩ : BufTy).Contents (Elt F)) (after R.partB1 Vr (Proc.devRef .tc Cert.ReferenceIdeal.main_v33)) (after K.partB1 Vk (Proc.devRef .tc Cert.KernelIdeal.main_v33))
    ∧ @Eq ((⟨Cert.ReferenceIdeal.S64, .f32⟩ : BufTy).Contents (Elt F)) (after R.partB1 Vr (Proc.devRef .tc Cert.ReferenceIdeal.main_v38)) (after K.partB1 Vk (Proc.devRef .tc Cert.KernelIdeal.main_v38))
    ∧ @Eq ((⟨Cert.ReferenceIdeal.S64, .f32⟩ : BufTy).Contents (Elt F)) (after R.partB1 Vr (Proc.devRef .tc Cert.ReferenceIdeal.main_v43)) (after K.partB1 Vk (Proc.devRef .tc Cert.KernelIdeal.main_v43))
    ∧ @Eq ((⟨Cert.ReferenceIdeal.S64, .f32⟩ : BufTy).Contents (Elt F)) (after R.partB1 Vr (Proc.devRef .tc Cert.ReferenceIdeal.main_v48)) (after K.partB1 Vk (Proc.devRef .tc Cert.KernelIdeal.main_v48)) := by
  simp (disch := decide) only [after_cons, after_nil,
    nullary_result', unary_result', binary_result', ternary_result', reshape_result', nary_result',
    nullary_result_ne', unary_result_ne', binary_result_ne', ternary_result_ne', reshape_result_ne', nary_result_ne',
    Matrix.cons_val]
  rw [hv21]
  refine ⟨?_, ?_, ?_, ?_, ?_, ?_, ?_, ?_, ?_⟩ <;> first | rfl | trivial

end Cert.SharedCoefficients

end
-- ==== Proof.SharedAgreeC.lean ====
/-
  Agreement of the two programs on operations 58 … 81 of the shared line: if the buffers a part reads hold the same contents in
  the two programs when the part starts, so do the buffers it is read for when it ends. Each side's fold is rewritten
  to the composed operations of the part's inputs (an operation's result at its own buffer is its function of the
  operands' contents; at any other buffer, what was there); the inputs are then replaced by the hypotheses, and the
  two sides are the same term. Every equation between the two programs is stated in the array's own type
  (`[64, 9]` floats, say), to which each program's buffer type computes: comparing the two programs' buffer types
  with each other instead would mean comparing their whole buffer tables.
-/
import proofs.«109087_j41085657153638_2_alg».proof.Proof.SharedParts

noncomputable section

namespace Cert.SharedCoefficients

open Idealize.ShloMosaic Idealize.ShloMosaic.TcCoe Idealize.SL.Sem Idealize.ShloMosaic.StableHlo

variable {F : FTy → Type} [FloatOps F]

set_option maxRecDepth 16384 in
set_option maxHeartbeats 4000000 in
/-- Operations 58 … 66: each of the nine columns as a `[64, 1]` array. -/
theorem agreeB2 (Vr : Valuation Cert.ReferenceIdeal.τ Cert.ReferenceIdeal.sig (Elt F)) (Vk : Valuation Cert.KernelIdeal.τ Cert.KernelIdeal.sig (Elt F))
    (hv23 : @Eq ((⟨Cert.ReferenceIdeal.S64, .f32⟩ : BufTy).Contents (Elt F)) (Vr (Proc.devRef .tc Cert.ReferenceIdeal.main_v23)) (Vk (Proc.devRef .tc Cert.KernelIdeal.main_v23)))
    (hv25 : @Eq ((⟨Cert.ReferenceIdeal.S64, .f32⟩ : BufTy).Contents (Elt F)) (Vr (Proc.devRef .tc Cert.ReferenceIdeal.main_v25)) (Vk (Proc.devRef .tc Cert.KernelIdeal.main_v25)))
    (hv27 : @Eq ((⟨Cert.ReferenceIdeal.S64, .f32⟩ : BufTy).Contents (Elt F)) (Vr (Proc.devRef .tc Cert.ReferenceIdeal.main_v27)) (Vk (Proc.devRef .tc Cert.KernelIdeal.main_v27)))
    (hv29 : @Eq ((⟨Cert.ReferenceIdeal.S64, .f32⟩ : BufTy).Contents (Elt F)) (Vr (Proc.devRef .tc Cert.ReferenceIdeal.main_v29)) (Vk (Proc.devRef .tc Cert.KernelIdeal.main_v29)))
    (hv31 : @Eq ((⟨Cert.ReferenceIdeal.S64, .f32⟩ : BufTy).Contents (Elt F)) (Vr (Proc.devRef .tc Cert.ReferenceIdeal.main_v31)) (Vk (Proc.devRef .tc Cert.KernelIdeal.main_v31)))
    (hv33 : @Eq ((⟨Cert.ReferenceIdeal.S64, .f32⟩ : BufTy).Contents (Elt F)) (Vr (Proc.devRef .tc Cert.ReferenceIdeal.main_v33)) (Vk (Proc.devRef .tc Cert.KernelIdeal.main_v33)))
    (hv38 : @Eq ((⟨Cert.ReferenceIdeal.S64, .f32⟩ : BufTy).Contents (Elt F)) (Vr (Proc.devRef .tc Cert.ReferenceIdeal.main_v38)) (Vk (Proc.devRef .tc Cert.KernelIdeal.main_v38)))
    (hv43 : @Eq ((⟨Cert.ReferenceIdeal.S64, .f32⟩ : BufTy).Contents (Elt F)) (Vr (Proc.devRef .tc Cert.ReferenceIdeal.main_v43)) (Vk (Proc.devRef .tc Cert.KernelIdeal.main_v43)))
    (hv48 : @Eq ((⟨Cert.ReferenceIdeal.S64, .f32⟩ : BufTy).Contents (Elt F)) (Vr (Proc.devRef .tc Cert.ReferenceIdeal.main_v48)) (Vk (Proc.devRef .tc Cert.KernelIdeal.main_v48))) :
    @Eq ((⟨Cert.ReferenceIdeal.S64x1, .f32⟩ : BufTy).Contents (Elt F)) (after R.partB2 Vr (Proc.devRef .tc Cert.ReferenceIdeal.main_v49)) (after K.partB2 Vk (Proc.devRef .tc Cert.KernelIdeal.main_v49))
    ∧ @Eq ((⟨Cert.ReferenceIdeal.S64x1, .f32⟩ : BufTy).Contents (Elt F)) (after R.partB2 Vr (Proc.devRef .tc Cert.ReferenceIdeal.main_v50)) (after K.partB2 Vk (Proc.devRef .tc Cert.KernelIdeal.main_v50))
    ∧ @Eq ((⟨Cert.ReferenceIdeal.S64x1, .f32⟩ : BufTy).Contents (Elt F)) (after R.partB2 Vr (Proc.devRef .tc Cert.ReferenceIdeal.main_v51)) (after K.partB2 Vk (Proc.devRef .tc Cert.KernelIdeal.main_v51))
    ∧ @Eq ((⟨Cert.ReferenceIdeal.S64x1, .f32⟩ : BufTy).Contents (Elt F)) (after R.partB2 Vr (Proc.devRef .tc Cert.ReferenceIdeal.main_v52)) (after K.partB2 Vk (Proc.devRef .tc Cert.KernelIdeal.main_v52))
    ∧ @Eq ((⟨Cert.ReferenceIdeal.S64x1, .f32⟩ : BufTy).Contents (Elt F)) (after R.partB2 Vr (Proc.devRef .tc Cert.ReferenceIdeal.main_v53)) (after K.partB2 Vk (Proc.devRef .tc Cert.KernelIdeal.main_v53))
    ∧ @Eq ((⟨Cert.ReferenceIdeal.S64x1, .f32⟩ : BufTy).Contents (Elt F)) (after R.partB2 Vr (Proc.devRef .tc Cert.ReferenceIdeal.main_v54)) (after K.partB2 Vk (Proc.devRef .tc Cert.KernelIdeal.main_v54))
    ∧ @Eq ((⟨Cert.ReferenceIdeal.S64x1, .f32⟩ : BufTy).Contents (Elt F)) (after R.partB2 Vr (Proc.devRef .tc Cert.ReferenceIdeal.main_v55)) (after K.partB2 Vk (Proc.devRef .tc Cert.KernelIdeal.main_v55))
    ∧ @Eq ((⟨Cert.ReferenceIdeal.S64x1, .f32⟩ : BufTy).Contents (Elt F)) (after R.partB2 Vr (Proc.devRef .tc Cert.ReferenceIdeal.main_v56)) (after K.partB2 Vk (Proc.devRef .tc Cert.KernelIdeal.main_v56))
    ∧ @Eq ((⟨Cert.ReferenceIdeal.S64x1, .f32⟩ : BufTy).Contents (Elt F)) (after R.partB2 Vr (Proc.devRef .tc Cert.ReferenceIdeal.main_v57)) (after K.partB2 Vk (Proc.devRef .tc Cert.KernelIdeal.main_v57)) := by
  simp (disch := decide) only [after_cons, after_nil,
    nullary_result', unary_result', binary_result', ternary_result', reshape_result', nary_result',
    nullary_result_ne', unary_result_ne', binary_result_ne', ternary_result_ne', reshape_result_ne', nary_result_ne',
    Matrix.cons_val]
  rw [hv23, hv25, hv27, hv29, hv31, hv33, hv38, hv43, hv48]
  refine ⟨?_, ?_, ?_, ?_, ?_, ?_, ?_, ?_, ?_⟩ <;> first | rfl | trivial

set_option maxRecDepth 16384 in
/-- Operation 67, the concatenation of the nine columns into `main_v58 : [64, 9]`. -/
theorem agreeN (Vr : Valuation Cert.ReferenceIdeal.τ Cert.ReferenceIdeal.sig (Elt F)) (Vk : Valuation Cert.KernelIdeal.τ Cert.KernelIdeal.sig (Elt F))
    (hv49 : @Eq ((⟨Cert.ReferenceIdeal.S64x1, .f32⟩ : BufTy).Contents (Elt F)) (Vr (Proc.devRef .tc Cert.ReferenceIdeal.main_v49)) (Vk (Proc.devRef .tc Cert.KernelIdeal.main_v49)))
    (hv50 : @Eq ((⟨Cert.ReferenceIdeal.S64x1, .f32⟩ : BufTy).Contents (Elt F)) (Vr (Proc.devRef .tc Cert.ReferenceIdeal.main_v50)) (Vk (Proc.devRef .tc Cert.KernelIdeal.main_v50)))
    (hv51 : @Eq ((⟨Cert.ReferenceIdeal.S64x1, .f32⟩ : BufTy).Contents (Elt F)) (Vr (Proc.devRef .tc Cert.ReferenceIdeal.main_v51)) (Vk (Proc.devRef .tc Cert.KernelIdeal.main_v51)))
    (hv52 : @Eq ((⟨Cert.ReferenceIdeal.S64x1, .f32⟩ : BufTy).Contents (Elt F)) (Vr (Proc.devRef .tc Cert.ReferenceIdeal.main_v52)) (Vk (Proc.devRef .tc Cert.KernelIdeal.main_v52)))
    (hv53 : @Eq ((⟨Cert.ReferenceIdeal.S64x1, .f32⟩ : BufTy).Contents (Elt F)) (Vr (Proc.devRef .tc Cert.ReferenceIdeal.main_v53)) (Vk (Proc.devRef .tc Cert.KernelIdeal.main_v53)))
    (hv54 : @Eq ((⟨Cert.ReferenceIdeal.S64x1, .f32⟩ : BufTy).Contents (Elt F)) (Vr (Proc.devRef .tc Cert.ReferenceIdeal.main_v54)) (Vk (Proc.devRef .tc Cert.KernelIdeal.main_v54)))
    (hv55 : @Eq ((⟨Cert.ReferenceIdeal.S64x1, .f32⟩ : BufTy).Contents (Elt F)) (Vr (Proc.devRef .tc Cert.ReferenceIdeal.main_v55)) (Vk (Proc.devRef .tc Cert.KernelIdeal.main_v55)))
    (hv56 : @Eq ((⟨Cert.ReferenceIdeal.S64x1, .f32⟩ : BufTy).Contents (Elt F)) (Vr (Proc.devRef .tc Cert.ReferenceIdeal.main_v56)) (Vk (Proc.devRef .tc Cert.KernelIdeal.main_v56)))
    (hv57 : @Eq ((⟨Cert.ReferenceIdeal.S64x1, .f32⟩ : BufTy).Contents (Elt F)) (Vr (Proc.devRef .tc Cert.ReferenceIdeal.main_v57)) (Vk (Proc.devRef .tc Cert.KernelIdeal.main_v57))) :
    @Eq ((⟨Cert.ReferenceIdeal.S64x9, .f32⟩ : BufTy).Contents (Elt F)) (after R.partN Vr (Proc.devRef .tc Cert.ReferenceIdeal.main_v58)) (after K.partN Vk (Proc.devRef .tc Cert.KernelIdeal.main_v58)) := by
  simp only [after_cons, after_nil]
  rw [nary_result, nary_result]
  dsimp only [Matrix.cons_val]
  rw [hv49, hv50, hv51, hv52, hv53, hv54, hv55, hv56, hv57]

set_option maxRecDepth 16384 in
set_option maxHeartbeats 4000000 in
/-- Operations 68 … 78: the normalisation and the first dense layer, `main_v69 : [64, 64]`. -/
theorem agreeC1 (Vr : Valuation Cert.ReferenceIdeal.τ Cert.ReferenceIdeal.sig (Elt F)) (Vk : Valuation Cert.KernelIdeal.τ Cert.KernelIdeal.sig (Elt F))
    (hv58 : @Eq ((⟨Cert.ReferenceIdeal.S64x9, .f32⟩ : BufTy).Contents (Elt F)) (Vr (Proc.devRef .tc Cert.ReferenceIdeal.main_v58)) (Vk (Proc.devRef .tc Cert.KernelIdeal.main_v58)))
    (h4 : @Eq ((⟨Cert.ReferenceIdeal.S9, .f32⟩ : BufTy).Contents (Elt F)) (Vr (Proc.devRef .tc Cert.ReferenceIdeal.main_arg4)) (Vk (Proc.devRef .tc Cert.KernelIdeal.main_arg4)))
    (h3 : @Eq ((⟨Cert.ReferenceIdeal.S9, .f32⟩ : BufTy).Contents (Elt F)) (Vr (Proc.devRef .tc Cert.ReferenceIdeal.main_arg3)) (Vk (Proc.devRef .tc Cert.KernelIdeal.main_arg3)))
    (h7 : @Eq ((⟨Cert.ReferenceIdeal.S9x64, .f32⟩ : BufTy).Contents (Elt F)) (Vr (Proc.devRef .tc Cert.ReferenceIdeal.main_arg7)) (Vk (Proc.devRef .tc Cert.KernelIdeal.main_arg7)))
    (h8 : @Eq ((⟨Cert.ReferenceIdeal.S64, .f32⟩ : BufTy).Contents (Elt F)) (Vr (Proc.devRef .tc Cert.ReferenceIdeal.main_arg8)) (Vk (Proc.devRef .tc Cert.KernelIdeal.main_arg8))) :
    @Eq ((⟨Cert.ReferenceIdeal.S64x64, .f32⟩ : BufTy).Contents (Elt F)) (after R.partC1 Vr (Proc.devRef .tc Cert.ReferenceIdeal.main_v69)) (after K.partC1 Vk (Proc.devRef .tc Cert.KernelIdeal.main_v69)) := by
  simp (disch := decide) only [after_cons, after_nil,
    nullary_result', unary_result', binary_result', ternary_result', reshape_result', nary_result',
    nullary_result_ne', unary_result_ne', binary_result_ne', ternary_result_ne', reshape_result_ne', nary_result_ne',
    Matrix.cons_val]
  rw [hv58, h4, h3, h7, h8]
  try rfl

set_option maxRecDepth 16384 in
set_option maxHeartbeats 4000000 in
/-- Operations 79 … 81: the rectifier, `main_v70`. -/
theorem agreeC2 (Vr : Valuation Cert.ReferenceIdeal.τ Cert.ReferenceIdeal.sig (Elt F)) (Vk : Valuation Cert.KernelIdeal.τ Cert.KernelIdeal.sig (Elt F))
    (hv69 : @Eq ((⟨Cert.ReferenceIdeal.S64x64, .f32⟩ : BufTy).Contents (Elt F)) (Vr (Proc.devRef .tc Cert.ReferenceIdeal.main_v69)) (Vk (Proc.devRef .tc Cert.KernelIdeal.main_v69))) :
    @Eq ((⟨Cert.ReferenceIdeal.S64x64, .f32⟩ : BufTy).Contents (Elt F)) (after R.partC2 Vr (Proc.devRef .tc Cert.ReferenceIdeal.main_v70)) (after K.partC2 Vk (Proc.devRef .tc Cert.KernelIdeal.main_v70)) := by
  simp (disch := decide) only [after_cons, after_nil,
    nullary_result', unary_result', binary_result', ternary_result', reshape_result', nary_result',
    nullary_result_ne', unary_result_ne', binary_result_ne', ternary_result_ne', reshape_result_ne', nary_result_ne',
    Matrix.cons_val]
  rw [hv69]
  try rfl

end Cert.SharedCoefficients

end
-- ==== Proof.SharedAgreeD.lean ====
/-
  Agreement of the two programs on operations 82 … 100 of the shared line: if the buffers a part reads hold the same contents in
  the two programs when the part starts, so do the buffers it is read for when it ends. Each side's fold is rewritten
  to the composed operations of the part's inputs (an operation's result at its own buffer is its function of the
  operands' contents; at any other buffer, what was there); the inputs are then replaced by the hypotheses, and the
  two sides are the same term. Every equation between the two programs is stated in the array's own type
  (`[64, 9]` floats, say), to which each program's buffer type computes: comparing the two programs' buffer types
  with each other instead would mean comparing their whole buffer tables.
-/
import proofs.«109087_j41085657153638_2_alg».proof.Proof.SharedParts

noncomputable section

namespace Cert.SharedCoefficients

open Idealize.ShloMosaic Idealize.ShloMosaic.TcCoe Idealize.SL.Sem Idealize.ShloMosaic.StableHlo

variable {F : FTy → Type} [FloatOps F]

set_option maxRecDepth 16384 in
set_option maxHeartbeats 4000000 in
/-- Operations 82 … 100: the second dense layer, the logistic and the final blend, `main_v87 : [64, 4]`. -/
theorem agreeC3 (Vr : Valuation Cert.ReferenceIdeal.τ Cert.ReferenceIdeal.sig (Elt F)) (Vk : Valuation Cert.KernelIdeal.τ Cert.KernelIdeal.sig (Elt F))
    (hv70 : @Eq ((⟨Cert.ReferenceIdeal.S64x64, .f32⟩ : BufTy).Contents (Elt F)) (Vr (Proc.devRef .tc Cert.ReferenceIdeal.main_v70)) (Vk (Proc.devRef .tc Cert.KernelIdeal.main_v70)))
    (h9 : @Eq ((⟨Cert.ReferenceIdeal.S64x4, .f32⟩ : BufTy).Contents (Elt F)) (Vr (Proc.devRef .tc Cert.ReferenceIdeal.main_arg9)) (Vk (Proc.devRef .tc Cert.KernelIdeal.main_arg9)))
    (h10 : @Eq ((⟨Cert.ReferenceIdeal.S4, .f32⟩ : BufTy).Contents (Elt F)) (Vr (Proc.devRef .tc Cert.ReferenceIdeal.main_arg10)) (Vk (Proc.devRef .tc Cert.KernelIdeal.main_arg10)))
    (h5 : @Eq ((⟨Cert.ReferenceIdeal.S4, .f32⟩ : BufTy).Contents (Elt F)) (Vr (Proc.devRef .tc Cert.ReferenceIdeal.main_arg5)) (Vk (Proc.devRef .tc Cert.KernelIdeal.main_arg5)))
    (h6 : @Eq ((⟨Cert.ReferenceIdeal.S4, .f32⟩ : BufTy).Contents (Elt F)) (Vr (Proc.devRef .tc Cert.ReferenceIdeal.main_arg6)) (Vk (Proc.devRef .tc Cert.KernelIdeal.main_arg6))) :
    @Eq ((⟨Cert.ReferenceIdeal.S64x4, .f32⟩ : BufTy).Contents (Elt F)) (after R.partC3 Vr (Proc.devRef .tc Cert.ReferenceIdeal.main_v87)) (after K.partC3 Vk (Proc.devRef .tc Cert.KernelIdeal.main_v87)) := by
  simp (disch := decide) only [after_cons, after_nil,
    nullary_result', unary_result', binary_result', ternary_result', reshape_result', nary_result',
    nullary_result_ne', unary_result_ne', binary_result_ne', ternary_result_ne', reshape_result_ne', nary_result_ne',
    Matrix.cons_val]
  rw [hv70, h9, h10, h5, h6]
  try rfl

end Cert.SharedCoefficients

end
-- ==== Proof.SharedCoefficients.lean ====
/-
  The coefficient array `eta : [64, 4]` is the same in the kernel program and in the reference program: both compute it
  by the same 100 host operations from the coefficient arguments, so if the two programs' buffers agree at those
  arguments they agree at `eta`. The proof follows the shared line part by part (the parts and what each leaves alone:
  the parts module; agreement across each part: the four agreement modules).
-/
import proofs.«109087_j41085657153638_2_alg».proof.Proof.SharedAgreeA
import proofs.«109087_j41085657153638_2_alg».proof.Proof.SharedAgreeB
import proofs.«109087_j41085657153638_2_alg».proof.Proof.SharedAgreeC
import proofs.«109087_j41085657153638_2_alg».proof.Proof.SharedAgreeD

noncomputable section

namespace Cert.SharedCoefficients

open Idealize.ShloMosaic Idealize.ShloMosaic.TcCoe Idealize.SL.Sem Idealize.ShloMosaic.StableHlo

variable {F : FTy → Type} [FloatOps F]

set_option maxHeartbeats 4000000 in
/-- If the two programs' buffers agree at the coefficient arguments, the array `eta` (`main_v87`) that the shared
    line computes is the same in both. Part by part: a part's inputs agree — by the part before it, or, for an
    argument, because no earlier operation writes it —, so its outputs agree; and the last part (the gather of the
    fault rows) does not write `main_v87`. Inside, every equation between the two programs is held in the array's
    own type. -/
theorem eta_agree (Vk : Valuation Cert.KernelIdeal.τ Cert.KernelIdeal.sig (Elt F)) (Vr : Valuation Cert.ReferenceIdeal.τ Cert.ReferenceIdeal.sig (Elt F))
    (h1 : Vr (Proc.devRef .tc Cert.ReferenceIdeal.main_arg1) = Vk (Proc.devRef .tc Cert.KernelIdeal.main_arg1))
    (h2 : Vr (Proc.devRef .tc Cert.ReferenceIdeal.main_arg2) = Vk (Proc.devRef .tc Cert.KernelIdeal.main_arg2))
    (h3 : Vr (Proc.devRef .tc Cert.ReferenceIdeal.main_arg3) = Vk (Proc.devRef .tc Cert.KernelIdeal.main_arg3))
    (h4 : Vr (Proc.devRef .tc Cert.ReferenceIdeal.main_arg4) = Vk (Proc.devRef .tc Cert.KernelIdeal.main_arg4))
    (h5 : Vr (Proc.devRef .tc Cert.ReferenceIdeal.main_arg5) = Vk (Proc.devRef .tc Cert.KernelIdeal.main_arg5))
    (h6 : Vr (Proc.devRef .tc Cert.ReferenceIdeal.main_arg6) = Vk (Proc.devRef .tc Cert.KernelIdeal.main_arg6))
    (h7 : Vr (Proc.devRef .tc Cert.ReferenceIdeal.main_arg7) = Vk (Proc.devRef .tc Cert.KernelIdeal.main_arg7))
    (h8 : Vr (Proc.devRef .tc Cert.ReferenceIdeal.main_arg8) = Vk (Proc.devRef .tc Cert.KernelIdeal.main_arg8))
    (h9 : Vr (Proc.devRef .tc Cert.ReferenceIdeal.main_arg9) = Vk (Proc.devRef .tc Cert.KernelIdeal.main_arg9))
    (h10 : Vr (Proc.devRef .tc Cert.ReferenceIdeal.main_arg10) = Vk (Proc.devRef .tc Cert.KernelIdeal.main_arg10))
    (h11 : Vr (Proc.devRef .tc Cert.ReferenceIdeal.main_arg11) = Vk (Proc.devRef .tc Cert.KernelIdeal.main_arg11)) :
    after (Cert.ReferenceIdeal.Line.shared (F := F)) Vr (Proc.devRef .tc Cert.ReferenceIdeal.main_v87)
      = after (Cert.KernelIdeal.Line.shared (F := F)) Vk (Proc.devRef .tc Cert.KernelIdeal.main_v87) := by
  rw [R.after_shared, K.after_shared,
    R.keepsD _ Cert.ReferenceIdeal.main_v87 (by decide), K.keepsD _ Cert.KernelIdeal.main_v87 (by decide)]
  have a1_A : @Eq ((⟨Cert.ReferenceIdeal.S6, .f32⟩ : BufTy).Contents (Elt F)) (Vr (Proc.devRef .tc Cert.ReferenceIdeal.main_arg1)) (Vk (Proc.devRef .tc Cert.KernelIdeal.main_arg1)) := h1
  have eA := agreeA Vr Vk a1_A
  have eP := agreeP (R.atP Vr) (K.atP Vk) eA.1 eA.2
  have a3_Q : @Eq ((⟨Cert.ReferenceIdeal.S9, .f32⟩ : BufTy).Contents (Elt F)) (R.atQ Vr (Proc.devRef .tc Cert.ReferenceIdeal.main_arg3)) (K.atQ Vk (Proc.devRef .tc Cert.KernelIdeal.main_arg3)) :=
    @Eq.trans ((⟨Cert.ReferenceIdeal.S9, .f32⟩ : BufTy).Contents (Elt F)) _ _ _ (R.atQ_keeps Vr Cert.ReferenceIdeal.main_arg3 (by decide))
      (@Eq.trans ((⟨Cert.ReferenceIdeal.S9, .f32⟩ : BufTy).Contents (Elt F)) _ _ _ h3 (@Eq.symm ((⟨Cert.ReferenceIdeal.S9, .f32⟩ : BufTy).Contents (Elt F)) _ _ (K.atQ_keeps Vk Cert.KernelIdeal.main_arg3 (by decide))))
  have a4_Q : @Eq ((⟨Cert.ReferenceIdeal.S9, .f32⟩ : BufTy).Contents (Elt F)) (R.atQ Vr (Proc.devRef .tc Cert.ReferenceIdeal.main_arg4)) (K.atQ Vk (Proc.devRef .tc Cert.KernelIdeal.main_arg4)) :=
    @Eq.trans ((⟨Cert.ReferenceIdeal.S9, .f32⟩ : BufTy).Contents (Elt F)) _ _ _ (R.atQ_keeps Vr Cert.ReferenceIdeal.main_arg4 (by decide))
      (@Eq.trans ((⟨Cert.ReferenceIdeal.S9, .f32⟩ : BufTy).Contents (Elt F)) _ _ _ h4 (@Eq.symm ((⟨Cert.ReferenceIdeal.S9, .f32⟩ : BufTy).Contents (Elt F)) _ _ (K.atQ_keeps Vk Cert.KernelIdeal.main_arg4 (by decide))))
  have a2_Q : @Eq ((⟨Cert.ReferenceIdeal.S64x9, .f32⟩ : BufTy).Contents (Elt F)) (R.atQ Vr (Proc.devRef .tc Cert.ReferenceIdeal.main_arg2)) (K.atQ Vk (Proc.devRef .tc Cert.KernelIdeal.main_arg2)) :=
    @Eq.trans ((⟨Cert.ReferenceIdeal.S64x9, .f32⟩ : BufTy).Contents (Elt F)) _ _ _ (R.atQ_keeps Vr Cert.ReferenceIdeal.main_arg2 (by decide))
      (@Eq.trans ((⟨Cert.ReferenceIdeal.S64x9, .f32⟩ : BufTy).Contents (Elt F)) _ _ _ h2 (@Eq.symm ((⟨Cert.ReferenceIdeal.S64x9, .f32⟩ : BufTy).Contents (Elt F)) _ _ (K.atQ_keeps Vk Cert.KernelIdeal.main_arg2 (by decide))))
  have eQ := agreeQ (R.atQ Vr) (K.atQ Vk) eP a3_Q a4_Q a2_Q
  have eB1 := agreeB1 (R.atB1 Vr) (K.atB1 Vk) eQ
  have eB2 := agreeB2 (R.atB2 Vr) (K.atB2 Vk) eB1.1 eB1.2.1 eB1.2.2.1 eB1.2.2.2.1 eB1.2.2.2.2.1 eB1.2.2.2.2.2.1 eB1.2.2.2.2.2.2.1 eB1.2.2.2.2.2.2.2.1 eB1.2.2.2.2.2.2.2.2
  have eN := agreeN (R.atN Vr) (K.atN Vk) eB2.1 eB2.2.1 eB2.2.2.1 eB2.2.2.2.1 eB2.2.2.2.2.1 eB2.2.2.2.2.2.1 eB2.2.2.2.2.2.2.1 eB2.2.2.2.2.2.2.2.1 eB2.2.2.2.2.2.2.2.2
  have a4_C1 : @Eq ((⟨Cert.ReferenceIdeal.S9, .f32⟩ : BufTy).Contents (Elt F)) (R.atC1 Vr (Proc.devRef .tc Cert.ReferenceIdeal.main_arg4)) (K.atC1 Vk (Proc.devRef .tc Cert.KernelIdeal.main_arg4)) :=
    @Eq.trans ((⟨Cert.ReferenceIdeal.S9, .f32⟩ : BufTy).Contents (Elt F)) _ _ _ (R.atC1_keeps Vr Cert.ReferenceIdeal.main_arg4 (by decide))
      (@Eq.trans ((⟨Cert.ReferenceIdeal.S9, .f32⟩ : BufTy).Contents (Elt F)) _ _ _ h4 (@Eq.symm ((⟨Cert.ReferenceIdeal.S9, .f32⟩ : BufTy).Contents (Elt F)) _ _ (K.atC1_keeps Vk Cert.KernelIdeal.main_arg4 (by decide))))
  have a3_C1 : @Eq ((⟨Cert.ReferenceIdeal.S9, .f32⟩ : BufTy).Contents (Elt F)) (R.atC1 Vr (Proc.devRef .tc Cert.ReferenceIdeal.main_arg3)) (K.atC1 Vk (Proc.devRef .tc Cert.KernelIdeal.main_arg3)) :=
    @Eq.trans ((⟨Cert.ReferenceIdeal.S9, .f32⟩ : BufTy).Contents (Elt F)) _ _ _ (R.atC1_keeps Vr Cert.ReferenceIdeal.main_arg3 (by decide))
      (@Eq.trans ((⟨Cert.ReferenceIdeal.S9, .f32⟩ : BufTy).Contents (Elt F)) _ _ _ h3 (@Eq.symm ((⟨Cert.ReferenceIdeal.S9, .f32⟩ : BufTy).Contents (Elt F)) _ _ (K.atC1_keeps Vk Cert.KernelIdeal.main_arg3 (by decide))))
  have a7_C1 : @Eq ((⟨Cert.ReferenceIdeal.S9x64, .f32⟩ : BufTy).Contents (Elt F)) (R.atC1 Vr (Proc.devRef .tc Cert.ReferenceIdeal.main_arg7)) (K.atC1 Vk (Proc.devRef .tc Cert.KernelIdeal.main_arg7)) :=
    @Eq.trans ((⟨Cert.ReferenceIdeal.S9x64, .f32⟩ : BufTy).Contents (Elt F)) _ _ _ (R.atC1_keeps Vr Cert.ReferenceIdeal.main_arg7 (by decide))
      (@Eq.trans ((⟨Cert.ReferenceIdeal.S9x64, .f32⟩ : BufTy).Contents (Elt F)) _ _ _ h7 (@Eq.symm ((⟨Cert.ReferenceIdeal.S9x64, .f32⟩ : BufTy).Contents (Elt F)) _ _ (K.atC1_keeps Vk Cert.KernelIdeal.main_arg7 (by decide))))
  have a8_C1 : @Eq ((⟨Cert.ReferenceIdeal.S64, .f32⟩ : BufTy).Contents (Elt F)) (R.atC1 Vr (Proc.devRef .tc Cert.ReferenceIdeal.main_arg8)) (K.atC1 Vk (Proc.devRef .tc Cert.KernelIdeal.main_arg8)) :=
    @Eq.trans ((⟨Cert.ReferenceIdeal.S64, .f32⟩ : BufTy).Contents (Elt F)) _ _ _ (R.atC1_keeps Vr Cert.ReferenceIdeal.main_arg8 (by decide))
      (@Eq.trans ((⟨Cert.ReferenceIdeal.S64, .f32⟩ : BufTy).Contents (Elt F)) _ _ _ h8 (@Eq.symm ((⟨Cert.ReferenceIdeal.S64, .f32⟩ : BufTy).Contents (Elt F)) _ _ (K.atC1_keeps Vk Cert.KernelIdeal.main_arg8 (by decide))))
  have eC1 := agreeC1 (R.atC1 Vr) (K.atC1 Vk) eN a4_C1 a3_C1 a7_C1 a8_C1
  have eC2 := agreeC2 (R.atC2 Vr) (K.atC2 Vk) eC1
  have a9_C3 : @Eq ((⟨Cert.ReferenceIdeal.S64x4, .f32⟩ : BufTy).Contents (Elt F)) (R.atC3 Vr (Proc.devRef .tc Cert.ReferenceIdeal.main_arg9)) (K.atC3 Vk (Proc.devRef .tc Cert.KernelIdeal.main_arg9)) :=
    @Eq.trans ((⟨Cert.ReferenceIdeal.S64x4, .f32⟩ : BufTy).Contents (Elt F)) _ _ _ (R.atC3_keeps Vr Cert.ReferenceIdeal.main_arg9 (by decide))
      (@Eq.trans ((⟨Cert.ReferenceIdeal.S64x4, .f32⟩ : BufTy).Contents (Elt F)) _ _ _ h9 (@Eq.symm ((⟨Cert.ReferenceIdeal.S64x4, .f32⟩ : BufTy).Contents (Elt F)) _ _ (K.atC3_keeps Vk Cert.KernelIdeal.main_arg9 (by decide))))
  have a10_C3 : @Eq ((⟨Cert.ReferenceIdeal.S4, .f32⟩ : BufTy).Contents (Elt F)) (R.atC3 Vr (Proc.devRef .tc Cert.ReferenceIdeal.main_arg10)) (K.atC3 Vk (Proc.devRef .tc Cert.KernelIdeal.main_arg10)) :=
    @Eq.trans ((⟨Cert.ReferenceIdeal.S4, .f32⟩ : BufTy).Contents (Elt F)) _ _ _ (R.atC3_keeps Vr Cert.ReferenceIdeal.main_arg10 (by decide))
      (@Eq.trans ((⟨Cert.ReferenceIdeal.S4, .f32⟩ : BufTy).Contents (Elt F)) _ _ _ h10 (@Eq.symm ((⟨Cert.ReferenceIdeal.S4, .f32⟩ : BufTy).Contents (Elt F)) _ _ (K.atC3_keeps Vk Cert.KernelIdeal.main_arg10 (by decide))))
  have a5_C3 : @Eq ((⟨Cert.ReferenceIdeal.S4, .f32⟩ : BufTy).Contents (Elt F)) (R.atC3 Vr (Proc.devRef .tc Cert.ReferenceIdeal.main_arg5)) (K.atC3 Vk (Proc.devRef .tc Cert.KernelIdeal.main_arg5)) :=
    @Eq.trans ((⟨Cert.ReferenceIdeal.S4, .f32⟩ : BufTy).Contents (Elt F)) _ _ _ (R.atC3_keeps Vr Cert.ReferenceIdeal.main_arg5 (by decide))
      (@Eq.trans ((⟨Cert.ReferenceIdeal.S4, .f32⟩ : BufTy).Contents (Elt F)) _ _ _ h5 (@Eq.symm ((⟨Cert.ReferenceIdeal.S4, .f32⟩ : BufTy).Contents (Elt F)) _ _ (K.atC3_keeps Vk Cert.KernelIdeal.main_arg5 (by decide))))
  have a6_C3 : @Eq ((⟨Cert.ReferenceIdeal.S4, .f32⟩ : BufTy).Contents (Elt F)) (R.atC3 Vr (Proc.devRef .tc Cert.ReferenceIdeal.main_arg6)) (K.atC3 Vk (Proc.devRef .tc Cert.KernelIdeal.main_arg6)) :=
    @Eq.trans ((⟨Cert.ReferenceIdeal.S4, .f32⟩ : BufTy).Contents (Elt F)) _ _ _ (R.atC3_keeps Vr Cert.ReferenceIdeal.main_arg6 (by decide))
      (@Eq.trans ((⟨Cert.ReferenceIdeal.S4, .f32⟩ : BufTy).Contents (Elt F)) _ _ _ h6 (@Eq.symm ((⟨Cert.ReferenceIdeal.S4, .f32⟩ : BufTy).Contents (Elt F)) _ _ (K.atC3_keeps Vk Cert.KernelIdeal.main_arg6 (by decide))))
  have eC3 := agreeC3 (R.atC3 Vr) (K.atC3 Vk) eC2 a9_C3 a10_C3 a5_C3 a6_C3
  exact eC3

/-- The shared line leaves the reference program's argument buffers as they were. -/
theorem shared_keeps_R (V : Valuation Cert.ReferenceIdeal.τ Cert.ReferenceIdeal.sig (Elt F)) (r : Ref Cert.ReferenceIdeal.sig .tc) (hr : r.idx.val < 12) :
    after (Cert.ReferenceIdeal.Line.shared (F := F)) V (Proc.devRef .tc r) = V (Proc.devRef .tc r) := R.shared_keeps V r hr

/-- The shared line leaves the kernel program's argument buffers as they were. -/
theorem shared_keeps_K (V : Valuation Cert.KernelIdeal.τ Cert.KernelIdeal.sig (Elt F)) (r : Ref Cert.KernelIdeal.sig .tc) (hr : r.idx.val < 12) :
    after (Cert.KernelIdeal.Line.shared (F := F)) V (Proc.devRef .tc r) = V (Proc.devRef .tc r) := K.shared_keeps V r hr

end Cert.SharedCoefficients

end
-- ==== Proof.lean ====
/-
  The certificate: a Pallas kernel that streams `z : [4, 64, 256, 512]` through the affine-tanh
      out = e₀ + e₁ · tanh ((z − e₂) · e₃)
  with coefficients packed per (mask row, sample) and channel on the host, against the plain jnp reference, equal over the
  extended reals from launch memories that agree on the arguments.

  * The three frames: each program runs to the end, faults nowhere and leaves its arguments as launched — the kernel's program at
    both instances by the region's run (modules KernelFrame, KernelIdealFrame: the body's one whole-block store, the pipeline
    library's launch around it), the reference by its line of host operations (module ReferenceRun).
  * The idealization rewrote nothing, so `preserves` is `True`.
  * The two idealized programs: the kernel's run ends with the result at the specification's `value` (module KernelValue: the region
    leaves the rows' function of the two arrays it read, the last host line reshapes it, and row `64 m + n` of the packed
    coefficients holds the coefficients in force at `(m, n)`); the reference's line read at an index is the same `value` (module
    ReferenceValue); and the arrays `eta`, `fault` the two lines compute on the way are equal (modules SharedCoefficients,
    SharedFault), so the two results are one array (module Agreement). No law of arithmetic is used: both sides are the SAME
    expression, entry by entry, so finiteness of the inputs is never needed.
-/
import proofs.«109087_j41085657153638_2_alg».proof.Defs
import proofs.«109087_j41085657153638_2_alg».proof.Proof.Gen.Kernel
import proofs.«109087_j41085657153638_2_alg».proof.Proof.Gen.KernelIdeal
import proofs.«109087_j41085657153638_2_alg».proof.Proof.Gen.ReferenceIdeal
import proofs.«109087_j41085657153638_2_alg».proof.Proof.Gen.Pre_finite_inputs
import proofs.«109087_j41085657153638_2_alg».proof.Proof.KernelFrame
import proofs.«109087_j41085657153638_2_alg».proof.Proof.KernelValue
import proofs.«109087_j41085657153638_2_alg».proof.Proof.ReferenceRun
import proofs.«109087_j41085657153638_2_alg».proof.Proof.Agreement
import proofs.«109087_j41085657153638_2_alg».proof.Proof.SharedCoefficients

set_option maxRecDepth 16384

noncomputable section

namespace Cert.Proof

open Idealize.ShloMosaic Idealize.ShloMosaic.TcCoe Idealize.SL.Sem Idealize.ShloMosaic.StableHlo

theorem frame_kernel : Cert.frame_Kernel := fun m ρ _ => Cert.Kernel.Region.frame m ρ
theorem frame_kernel_ideal : Cert.frame_KernelIdeal := fun m ρ _ => Cert.KernelIdeal.Region.frame m ρ
theorem frame_reference : Cert.frame_ReferenceIdeal := fun m ρ _ => Cert.ReferenceIdeal.Line.frame (F := Ideal) m ρ

/-- From memories agreeing on the arguments the two idealized programs end with one and the same result array. -/
theorem algebraic : Cert.algebraic_KernelIdeal_ReferenceIdeal := by
  intro m ρ m' ρ' _ hagree
  refine ⟨fun c => Cert.KernelIdeal.Region.resultOf m c, Cert.KernelIdeal.Region.run_value m ρ, ?_⟩
  refine (θ_run Cert.ReferenceIdeal.defs _ _).mono (fun r h c => ?_) (Cert.ReferenceIdeal.Line.run_all (F := Ideal) m' ρ')
  obtain ⟨a0, a1, a2, a3, a4, a5, a6, a7, a8, a9, a10, a11⟩ := hagree c
  exact ⟨(h c Cert.ReferenceIdeal.main_v126).trans
      (Cert.Agreement.reference_result Cert.SharedCoefficients.eta_agree m m' c a0 a1 a2 a3 a4 a5 a6 a7 a8 a9 a10 a11),
    (h c Cert.ReferenceIdeal.main_arg0).trans (Cert.ReferenceIdeal.Line.line_keeps_arg0 _),
    (h c Cert.ReferenceIdeal.main_arg1).trans (Cert.ReferenceIdeal.Line.line_keeps_arg1 _),
    (h c Cert.ReferenceIdeal.main_arg2).trans (Cert.ReferenceIdeal.Line.line_keeps_arg2 _),
    (h c Cert.ReferenceIdeal.main_arg3).trans (Cert.ReferenceIdeal.Line.line_keeps_arg3 _),
    (h c Cert.ReferenceIdeal.main_arg4).trans (Cert.ReferenceIdeal.Line.line_keeps_arg4 _),
    (h c Cert.ReferenceIdeal.main_arg5).trans (Cert.ReferenceIdeal.Line.line_keeps_arg5 _),
    (h c Cert.ReferenceIdeal.main_arg6).trans (Cert.ReferenceIdeal.Line.line_keeps_arg6 _),
    (h c Cert.ReferenceIdeal.main_arg7).trans (Cert.ReferenceIdeal.Line.line_keeps_arg7 _),
    (h c Cert.ReferenceIdeal.main_arg8).trans (Cert.ReferenceIdeal.Line.line_keeps_arg8 _),
    (h c Cert.ReferenceIdeal.main_arg9).trans (Cert.ReferenceIdeal.Line.line_keeps_arg9 _),
    (h c Cert.ReferenceIdeal.main_arg10).trans (Cert.ReferenceIdeal.Line.line_keeps_arg10 _),
    (h c Cert.ReferenceIdeal.main_arg11).trans (Cert.ReferenceIdeal.Line.line_keeps_arg11 _)⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
